-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S250000x147 : Shape := ⟨2, ![250000, 147]⟩
abbrev S100000 : Shape := ⟨1, ![100000]⟩
abbrev S250000 : Shape := ⟨1, ![250000]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S2000 : Shape := ⟨1, ![2000]⟩
abbrev S100000x6 : Shape := ⟨2, ![100000, 6]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S250000x147 : S_.BroadcastsInDim S250000x147 (![] : Fin 0 → Fin S250000x147.rank)
  reducesTo_S250000x147_S_d0_1 : S250000x147.ReducesTo [0, 1] S_
  bcast_S_S100000 : S_.BroadcastsInDim S100000 (![] : Fin 0 → Fin S100000.rank)
  reducesTo_S100000_S_d0 : S100000.ReducesTo [0] S_
  bcast_S_S250000 : S_.BroadcastsInDim S250000 (![] : Fin 0 → Fin S250000.rank)
  reducesTo_S250000_S_d0 : S250000.ReducesTo [0] S_
  bcast_S_S147x256 : S_.BroadcastsInDim S147x256 (![] : Fin 0 → Fin S147x256.rank)
  reducesTo_S147x256_S_d0_1 : S147x256.ReducesTo [0, 1] S_
  bcast_S_S256x256 : S_.BroadcastsInDim S256x256 (![] : Fin 0 → Fin S256x256.rank)
  reducesTo_S256x256_S_d0_1 : S256x256.ReducesTo [0, 1] S_
  bcast_S_S389x256 : S_.BroadcastsInDim S389x256 (![] : Fin 0 → Fin S389x256.rank)
  reducesTo_S389x256_S_d0_1 : S389x256.ReducesTo [0, 1] S_
  bcast_S_S256 : S_.BroadcastsInDim S256 (![] : Fin 0 → Fin S256.rank)
  reducesTo_S256_S_d0 : S256.ReducesTo [0] S_
  bcast_S_S2000 : S_.BroadcastsInDim S2000 (![] : Fin 0 → Fin S2000.rank)
  reducesTo_S2000_S_d0 : S2000.ReducesTo [0] S_

variable [Facts]

def fn_part2 {F : FTy → Type} [FloatOps F] (main_arg7 : FVec F S256 .f32) (main_arg8 : FVec F S2000 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S2000 .f32 := Host.absf main_arg8
  let main_cst_14 : FVec F S_ .f32 := constant S_ .f32 0x7F800000#32
  let main_v40 : FVec F S2000 .f32 := broadcastInDim S2000 ![] bcast_S_S2000 main_cst_14
  let main_v41 : IVec S2000 1 := cmpf .olt main_v39 main_v40
  let main_c_15 : IVec S_ 1 := constantI S_ 1 1#1
  let main_v42 : IVec S_ 1 := (fun x v => Host.reduce IntOp.andi x v reducesTo_S2000_S_d0 h_S_) main_v41 main_c_15
  let main_v43 : IVec S_ 1 := andi main_v38 main_v42
  main_v43

def fn_part1 {F : FTy → Type} [FloatOps F] (main_arg4 : FVec F S147x256 .f32) (main_arg5 : FVec F S256x256 .f32) (main_arg6 : FVec F S389x256 .f32) (main_arg7 : FVec F S256 .f32) (main_arg8 : FVec F S2000 .f32) (main_v13 : IVec S_ 1) (main_v16 : IVec S250000 1) : IVec S_ 1 :=
  let main_c_5 : IVec S_ 1 := constantI S_ 1 1#1
  let main_v17 : IVec S_ 1 := (fun x v => Host.reduce IntOp.andi x v reducesTo_S250000_S_d0 h_S_) main_v16 main_c_5
  let main_v18 : IVec S_ 1 := andi main_v13 main_v17
  let main_v19 : FVec F S147x256 .f32 := Host.absf main_arg4
  let main_cst_6 : FVec F S_ .f32 := constant S_ .f32 0x7F800000#32
  let main_v20 : FVec F S147x256 .f32 := broadcastInDim S147x256 ![] bcast_S_S147x256 main_cst_6
  let main_v21 : IVec S147x256 1 := cmpf .olt main_v19 main_v20
  let main_c_7 : IVec S_ 1 := constantI S_ 1 1#1
  let main_v22 : IVec S_ 1 := (fun x v => Host.reduce IntOp.andi x v reducesTo_S147x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S389x256 .f32 := Host.absf main_arg6
  let main_cst_10 : FVec F S_ .f32 := constant S_ .f32 0x7F800000#32
  let main_v30 : FVec F S389x256 .f32 := broadcastInDim S389x256 ![] bcast_S_S389x256 main_cst_10
  let main_v31 : IVec S389x256 1 := cmpf .olt main_v29 main_v30
  let main_c_11 : IVec S_ 1 := constantI S_ 1 1#1
  let main_v32 : IVec S_ 1 := (fun x v => Host.reduce IntOp.andi x v reducesTo_S389x256_S_d0_1 h_S_) main_v31 main_c_11
  let main_v33 : IVec S_ 1 := andi main_v28 main_v32
  fn_part2 (F := F) main_arg7 main_arg8 main_v33

def fn {F : FTy → Type} [FloatOps F] (main_arg0 : FVec F S100000x133 .f32) (main_arg1 : FVec F S250000x147 .f32) (main_arg2 : FVec F S100000 .f32) (main_arg3 : FVec F S250000 .f32) (main_arg4 : FVec F S147x256 .f32) (main_arg5 : FVec F S256x256 .f32) (main_arg6 : FVec F S389x256 .f32) (main_arg7 : FVec F S256 .f32) (main_arg8 : FVec F S2000 .f32) (main_arg9 : IVec S100000x6 32) (main_arg10 : IVec S250000 32) (main_arg11 : IVec S250000 32) (main_arg12 : IVec S100000 32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S250000x147 .f32 := Host.absf main_arg1
  let main_cst_0 : FVec F S_ .f32 := constant S_ .f32 0x7F800000#32
  let main_v5 : FVec F S250000x147 .f32 := broadcastInDim S250000x147 ![] bcast_S_S250000x147 main_cst_0
  let main_v6 : IVec S250000x147 1 := cmpf .olt main_v4 main_v5
  let main_c_1 : IVec S_ 1 := constantI S_ 1 1#1
  let main_v7 : IVec S_ 1 := (fun x v => Host.reduce IntOp.andi x v reducesTo_S250000x147_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S250000 .f32 := Host.absf main_arg3
  let main_cst_4 : FVec F S_ .f32 := constant S_ .f32 0x7F800000#32
  let main_v15 : FVec F S250000 .f32 := broadcastInDim S250000 ![] bcast_S_S250000 main_cst_4
  let main_v16 : IVec S250000 1 := cmpf .olt main_v14 main_v15
  fn_part1 (F := F) main_arg4 main_arg5 main_arg6 main_arg7 main_arg8 main_v13 main_v16
-- ==== Kernel.lean ====
abbrev S100000x133 : Shape := ⟨2, ![100000, 133]⟩
abbrev S250000x147 : Shape := ⟨2, ![250000, 147]⟩
abbrev S100000 : Shape := ⟨1, ![100000]⟩
abbrev S250000 : Shape := ⟨1, ![250000]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S2000 : Shape := ⟨1, ![2000]⟩
abbrev S100000x6 : Shape := ⟨2, ![100000, 6]⟩
abbrev S250000x1 : Shape := ⟨2, ![250000, 1]⟩
abbrev S100000x1 : Shape := ⟨2, ![100000, 1]⟩
abbrev S250000x256 : Shape := ⟨2, ![250000, 256]⟩
abbrev S2000x147 : Shape := ⟨2, ![2000, 147]⟩
abbrev S2000x1 : Shape := ⟨2, ![2000, 1]⟩
abbrev S2000x256 : Shape := ⟨2, ![2000, 256]⟩
abbrev S133x256 : Shape := ⟨2, ![133, 256]⟩
abbrev S_ : Shape := ⟨0, ![]⟩
abbrev S100000x6x1 : Shape := ⟨3, ![100000, 6, 1]⟩
abbrev S100000x6x256 : Shape := ⟨3, ![100000, 6, 256]⟩
abbrev S100000x256 : Shape := ⟨2, ![100000, 256]⟩
abbrev S1x256 : Shape := ⟨2, ![1, 256]⟩
abbrev S2000x133 : Shape := ⟨2, ![2000, 133]⟩

abbrev nBuf : Space → Nat
  | .hbm => 127
  | .vmem => 44
  | .smem => 0
  | _ => 0

abbrev bufTy : (tb : Table) → Fin (tcTables nBuf tb) → BufTy
  | .hbm, ⟨0, _⟩ => ⟨S100000x133, .f32⟩
  | .hbm, ⟨1, _⟩ => ⟨S250000x147, .f32⟩
  | .hbm, ⟨2, _⟩ => ⟨S100000, .f32⟩
  | .hbm, ⟨3, _⟩ => ⟨S250000, .f32⟩
  | .hbm, ⟨4, _⟩ => ⟨S147x256, .f32⟩
  | .hbm, ⟨5, _⟩ => ⟨S256x256, .f32⟩
  | .hbm, ⟨6, _⟩ => ⟨S389x256, .f32⟩
  | .hbm, ⟨7, _⟩ => ⟨S256, .f32⟩
  | .hbm, ⟨8, _⟩ => ⟨S2000, .f32⟩
  | .hbm, ⟨9, _⟩ => ⟨S100000x6, .i32⟩
  | .hbm, ⟨10, _⟩ => ⟨S250000, .i32⟩
  | .hbm, ⟨11, _⟩ => ⟨S250000, .i32⟩
  | .hbm, ⟨12, _⟩ => ⟨S100000, .i32⟩
  | .hbm, ⟨13, _⟩ => ⟨S250000x1, .f32⟩
  | .hbm, ⟨14, _⟩ => ⟨S100000x1, .f32⟩
  | .hbm, ⟨15, _⟩ => ⟨S250000x256, .f32⟩
  | .hbm, ⟨16, _⟩ => ⟨S250000x256, .f32⟩
  | .hbm, ⟨17, _⟩ => ⟨S250000x256, .f32⟩
  | .hbm, ⟨18, _⟩ => ⟨S133x256, .f32⟩
  | .hbm, ⟨19, _⟩ => ⟨S256x256, .f32⟩
  | .hbm, ⟨20, _⟩ => ⟨S_, .i32⟩
  | .hbm, ⟨21, _⟩ => ⟨S100000x6, .i32⟩
  | .hbm, ⟨22, _⟩ => ⟨S100000x6, .i1⟩
  | .hbm, ⟨23, _⟩ => ⟨S_, .i32⟩
  | .hbm, ⟨24, _⟩ => ⟨S100000x6, .i32⟩
  | .hbm, ⟨25, _⟩ => ⟨S100000x6, .i32⟩
  | .hbm, ⟨26, _⟩ => ⟨S100000x6, .i32⟩
  | .hbm, ⟨27, _⟩ => ⟨S100000x6x1, .i32⟩
  | .hbm, ⟨28, _⟩ => ⟨S100000x6x256, .f32⟩
  | .hbm, ⟨29, _⟩ => ⟨S_, .f32⟩
  | .hbm, ⟨30, _⟩ => ⟨S100000x256, .f32⟩
  | .hbm, ⟨31, _⟩ => ⟨S_, .i32⟩
  | .hbm, ⟨32, _⟩ => ⟨S250000, .i32⟩
  | .hbm, ⟨33, _⟩ => ⟨S250000, .i1⟩
  | .hbm, ⟨34, _⟩ => ⟨S_, .i32⟩
  | .hbm, ⟨35, _⟩ => ⟨S250000, .i32⟩
  | .hbm, ⟨36, _⟩ => ⟨S250000, .i32⟩
  | .hbm, ⟨37, _⟩ => ⟨S250000, .i32⟩
  | .hbm, ⟨38, _⟩ => ⟨S250000x1, .i32⟩
  | .hbm, ⟨39, _⟩ => ⟨S250000x256, .f32⟩
  | .hbm, ⟨40, _⟩ => ⟨S_, .i32⟩
  | .hbm, ⟨41, _⟩ => ⟨S250000, .i32⟩
  | .hbm, ⟨42, _⟩ => ⟨S250000, .i1⟩
  | .hbm, ⟨43, _⟩ => ⟨S_, .i32⟩
  | .hbm, ⟨44, _⟩ => ⟨S250000, .i32⟩
  | .hbm, ⟨45, _⟩ => ⟨S250000, .i32⟩
  | .hbm, ⟨46, _⟩ => ⟨S250000, .i32⟩
  | .hbm, ⟨47, _⟩ => ⟨S250000x1, .i32⟩
  | .hbm, ⟨48, _⟩ => ⟨S250000x256, .f32⟩
  | .hbm, ⟨49, _⟩ => ⟨S250000x256, .f32⟩
  | .hbm, ⟨50, _⟩ => ⟨S250000x256, .f32⟩
  | .hbm, ⟨51, _⟩ => ⟨S250000x256, .f32⟩
  | .hbm, ⟨52, _⟩ => ⟨S_, .i32⟩
  | .hbm, ⟨53, _⟩ => ⟨S100000x6, .i32⟩
  | .hbm, ⟨54, _⟩ => ⟨S100000x6, .i1⟩
  | .hbm, ⟨55, _⟩ => ⟨S_, .i32⟩
  | .hbm, ⟨56, _⟩ => ⟨S100000x6, .i32⟩
  | .hbm, ⟨57, _⟩ => ⟨S100000x6, .i32⟩
  | .hbm, ⟨58, _⟩ => ⟨S100000x6, .i32⟩
  | .hbm, ⟨59, _⟩ => ⟨S100000x6x1, .i32⟩
  | .hbm, ⟨60, _⟩ => ⟨S100000x6x256, .f32⟩
  | .hbm, ⟨61, _⟩ => ⟨S_, .f32⟩
  | .hbm, ⟨62, _⟩ => ⟨S100000x256, .f32⟩
  | .hbm, ⟨63, _⟩ => ⟨S_, .i32⟩
  | .hbm, ⟨64, _⟩ => ⟨S250000, .i32⟩
  | .hbm, ⟨65, _⟩ => ⟨S250000, .i1⟩
  | .hbm, ⟨66, _⟩ => ⟨S_, .i32⟩
  | .hbm, ⟨67, _⟩ => ⟨S250000, .i32⟩
  | .hbm, ⟨68, _⟩ => ⟨S250000, .i32⟩
  | .hbm, ⟨69, _⟩ => ⟨S250000, .i32⟩
  | .hbm, ⟨70, _⟩ => ⟨S250000x1, .i32⟩
  | .hbm, ⟨71, _⟩ => ⟨S250000x256, .f32⟩
  | .hbm, ⟨72, _⟩ => ⟨S_, .i32⟩
  | .hbm, ⟨73, _⟩ => ⟨S250000, .i32⟩
  | .hbm, ⟨74, _⟩ => ⟨S250000, .i1⟩
  | .hbm, ⟨75, _⟩ => ⟨S_, .i32⟩
  | .hbm, ⟨76, _⟩ => ⟨S250000, .i32⟩
  | .hbm, ⟨77, _⟩ => ⟨S250000, .i32⟩
  | .hbm, ⟨78, _⟩ => ⟨S250000, .i32⟩
  | .hbm, ⟨79, _⟩ => ⟨S250000x1, .i32⟩
  | .hbm, ⟨80, _⟩ => ⟨S250000x256, .f32⟩
  | .hbm, ⟨81, _⟩ => ⟨S250000x256, .f32⟩
  | .hbm, ⟨82, _⟩ => ⟨S250000x256, .f32⟩
  | .hbm, ⟨83, _⟩ => ⟨S250000x256, .f32⟩
  | .hbm, ⟨84, _⟩ => ⟨S_, .i32⟩
  | .hbm, ⟨85, _⟩ => ⟨S100000x6, .i32⟩
  | .hbm, ⟨86, _⟩ => ⟨S100000x6, .i1⟩
  | .hbm, ⟨87, _⟩ => ⟨S_, .i32⟩
  | .hbm, ⟨88, _⟩ => ⟨S100000x6, .i32⟩
  | .hbm, ⟨89, _⟩ => ⟨S100000x6, .i32⟩
  | .hbm, ⟨90, _⟩ => ⟨S100000x6, .i32⟩
  | .hbm, ⟨91, _⟩ => ⟨S100000x6x1, .i32⟩
  | .hbm, ⟨92, _⟩ => ⟨S100000x6x256, .f32⟩
  | .hbm, ⟨93, _⟩ => ⟨S_, .f32⟩
  | .hbm, ⟨94, _⟩ => ⟨S100000x256, .f32⟩
  | .hbm, ⟨95, _⟩ => ⟨S1x256, .f32⟩
  | .hbm, ⟨96, _⟩ => ⟨S100000x256, .f32⟩
  | .hbm, ⟨97, _⟩ => ⟨S_, .f32⟩
  | .hbm, ⟨98, _⟩ => ⟨S2000x256, .f32⟩
  | .hbm, ⟨99, _⟩ => ⟨S100000x1, .i32⟩
  | .hbm, ⟨100, _⟩ => ⟨S2000x256, .f32⟩
  | .hbm, ⟨101, _⟩ => ⟨S_, .f32⟩
  | .hbm, ⟨102, _⟩ => ⟨S2000, .f32⟩
  | .hbm, ⟨103, _⟩ => ⟨S100000x1, .i32⟩
  | .hbm, ⟨104, _⟩ => ⟨S2000, .f32⟩
  | .hbm, ⟨105, _⟩ => ⟨S_, .f32⟩
  | .hbm, ⟨106, _⟩ => ⟨S2000, .f32⟩
  | .hbm, ⟨107, _⟩ => ⟨S2000, .i1⟩
  | .hbm, ⟨108, _⟩ => ⟨S_, .f32⟩
  | .hbm, ⟨109, _⟩ => ⟨S_, .f32⟩
  | .hbm, ⟨110, _⟩ => ⟨S2000, .f32⟩
  | .hbm, ⟨111, _⟩ => ⟨S2000, .f32⟩
  | .hbm, ⟨112, _⟩ => ⟨S_, .f32⟩
  | .hbm, ⟨113, _⟩ => ⟨S2000, .f32⟩
  | .hbm, ⟨114, _⟩ => ⟨S2000, .i1⟩
  | .hbm, ⟨115, _⟩ => ⟨S2000x1, .i1⟩
  | .hbm, ⟨116, _⟩ => ⟨S2000x1, .f32⟩
  | .hbm, ⟨117, _⟩ => ⟨S2000x256, .f32⟩
  | .hbm, ⟨118, _⟩ => ⟨S2000x256, .f32⟩
  | .hbm, ⟨119, _⟩ => ⟨S_, .f32⟩
  | .hbm, ⟨120, _⟩ => ⟨S_, .f32⟩
  | .hbm, ⟨121, _⟩ => ⟨S2000x256, .i1⟩
  | .hbm, ⟨122, _⟩ => ⟨S2000x256, .f32⟩
  | .hbm, ⟨123, _⟩ => ⟨S2000x256, .f32⟩
  | .hbm, ⟨124, _⟩ => ⟨S2000x1, .f32⟩
  | .hbm, ⟨125, _⟩ => ⟨S2000x256, .f32⟩
  | .hbm, ⟨126, _⟩ => ⟨S2000x256, .f32⟩
  | .local _ .vmem, ⟨0, _⟩ => ⟨S2000x147, .f32⟩
  | .local _ .vmem, ⟨1, _⟩ => ⟨S2000x147, .f32⟩
  | .local _ .vmem, ⟨2, _⟩ => ⟨S147x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x1, .f32⟩
  | .local _ .vmem, ⟨17, _⟩ => ⟨S2000x1, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S2000x1, .f32⟩
  | .local _ .vmem, ⟨28, _⟩ => ⟨S2000x1, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x133, .f32⟩
  | .local _ .vmem, ⟨34, _⟩ => ⟨S2000x133, .f32⟩
  | .local _ .vmem, ⟨35, _⟩ => ⟨S2000x256, .f32⟩
  | .local _ .vmem, ⟨36, _⟩ => ⟨S2000x256, .f32⟩
  | .local _ .vmem, ⟨37, _⟩ => ⟨S133x256, .f32⟩
  | .local _ .vmem, ⟨38, _⟩ => ⟨S256x256, .f32⟩
  | .local _ .vmem, ⟨39, _⟩ => ⟨S1x256, .f32⟩
  | .local _ .vmem, ⟨40, _⟩ => ⟨S2000x1, .f32⟩
  | .local _ .vmem, ⟨41, _⟩ => ⟨S2000x1, .f32⟩
  | .local _ .vmem, ⟨42, _⟩ => ⟨S2000x256, .f32⟩
  | .local _ .vmem, ⟨43, _⟩ => ⟨S2000x256, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2_0 : Ref sig .tc := ⟨.hbm, 15, rfl⟩
abbrev main_v2_1 : Ref sig .tc := ⟨.hbm, 16, rfl⟩
abbrev main_v2_2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28_0 : Ref sig .tc := ⟨.hbm, 50, rfl⟩
abbrev main_v28_1 : Ref sig .tc := ⟨.hbm, 51, rfl⟩
abbrev main_c_5 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_c_8 : Ref sig .tc := ⟨.hbm, 63, rfl⟩
abbrev main_v37 : Ref sig .tc := ⟨.hbm, 64, rfl⟩
abbrev main_v38 : Ref sig .tc := ⟨.hbm, 65, rfl⟩
abbrev main_c_9 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_10 : Ref sig .tc := ⟨.hbm, 72, rfl⟩
abbrev main_v44 : Ref sig .tc := ⟨.hbm, 73, rfl⟩
abbrev main_v45 : Ref sig .tc := ⟨.hbm, 74, rfl⟩
abbrev main_c_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52_0 : Ref sig .tc := ⟨.hbm, 82, rfl⟩
abbrev main_v52_1 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_c_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_15 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_17 : Ref sig .tc := ⟨.hbm, 105, rfl⟩
abbrev main_v69 : Ref sig .tc := ⟨.hbm, 106, rfl⟩
abbrev main_v70 : Ref sig .tc := ⟨.hbm, 107, rfl⟩
abbrev main_cst_18 : Ref sig .tc := ⟨.hbm, 108, rfl⟩
abbrev main_call0_v0 : Ref sig .tc := ⟨.hbm, 109, rfl⟩
abbrev main_call0_v1 : Ref sig .tc := ⟨.hbm, 110, rfl⟩
abbrev main_v71 : Ref sig .tc := ⟨.hbm, 111, rfl⟩
abbrev main_cst_19 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_20 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  shapeCasts_S250000_S250000x1 : S250000.ShapeCasts S250000x1
  shapeCasts_S100000_S100000x1 : S100000.ShapeCasts S100000x1
  inb_S2000x147_S2000x147_0_0 : ∀ a, (![0, 0] : Fin 2 → Nat) a + S2000x147.size a ≤ S2000x147.size a
  h_S2000x147 : 0 < S2000x147.numel
  bitsLt_bf16_f32 : FTy.bits .bf16 < FTy.bits .f32
  inb_S147x256_S147x256_0_0 : ∀ a, (![0, 0] : Fin 2 → Nat) a + S147x256.size a ≤ S147x256.size a
  h_S147x256 : 0 < S147x256.numel
  inb_S2000x256_S2000x256_0_0 : ∀ a, (![0, 0] : Fin 2 → Nat) a + S2000x256.size a ≤ S2000x256.size a
  h_S2000x256 : 0 < S2000x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  slices_S389x256_S133x256_0_0 : S389x256.Slices ![0, 0] S133x256
  slices_S389x256_S256x256_133_0 : S389x256.Slices ![133, 0] S256x256
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x256_S100000x256_d1 : S100000x6x256.ReducesTo [1] S100000x256
  h_S_ : 0 < S_.numel
  bcast_S_S250000 : S_.BroadcastsInDim S250000 (![] : Fin 0 → Fin S250000.rank)
  bcast_S250000_S250000x1_0 : S250000.BroadcastsInDim S250000x1 (![0] : Fin 1 → Fin S250000x1.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256_S1x256 : S256.ShapeCasts S1x256
  inb_S2000x133_S2000x133_0_0 : ∀ a, (![0, 0] : Fin 2 → Nat) a + S2000x133.size a ≤ S2000x133.size a
  h_S2000x133 : 0 < S2000x133.numel
  inb_S133x256_S133x256_0_0 : ∀ a, (![0, 0] : Fin 2 → Nat) a + S133x256.size a ≤ S133x256.size a
  h_S133x256 : 0 < S133x256.numel
  shapeCasts_S133x256_S133x256 : S133x256.ShapeCasts S133x256
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S2000x256 : S_.BroadcastsInDim S2000x256 (![] : Fin 0 → Fin S2000x256.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  dot_S2000x147_S147x256_S2000x256_1_0_0_1_n_n_wf : DotDims.WF S2000x147 S147x256 S2000x256 [1] [0] [0] [1] [] []
  gather_S250000x256_S100000x6x1_S100000x6x256_2_0_n_n_0_2_1256_wf : GatherDims.WF S250000x256 S100000x6x1 S100000x6x256 [2] [0] [] [0] [] 2 ![1, 256]
  gather_S100000x256_S250000x1_S250000x256_1_0_n_n_0_1_1256_wf : GatherDims.WF S100000x256 S250000x1 S250000x256 [1] [0] [] [0] [] 1 ![1, 256]
  gather_S250000x256_S250000x1_S250000x256_1_0_n_n_0_1_1256_wf : GatherDims.WF S250000x256 S250000x1 S250000x256 [1] [0] [] [0] [] 1 ![1, 256]
  dot_S2000x256_S256x256_S2000x256_1_0_0_1_n_n_wf : DotDims.WF S2000x256 S256x256 S2000x256 [1] [0] [0] [1] [] []
  dot_S2000x133_S133x256_S2000x256_1_0_0_1_n_n_wf : DotDims.WF S2000x133 S133x256 S2000x256 [1] [0] [0] [1] [] []
  scatter_S2000x256_S100000x1_S100000x256_1_0_0_1_wf : ScatterDims.WF S2000x256 S100000x1 S100000x256 [1] [0] [0] 1
  scatter_S2000_S100000x1_S100000_n_0_0_1_wf : ScatterDims.WF S2000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x147.size a ≤ S250000x147.size a
  hwx0_0 : ∀ i : grid0.Coords, EltTy.bits .f32 = 32 ∨ (Rect.block (s := S250000x147) S2000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x256.size a ≤ S147x256.size a
  hwx0_1 : ∀ i : grid0.Coords, EltTy.bits .f32 = 32 ∨ (Rect.block (s := S147x256) S147x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S250000x1.size a
  hwx0_2 : ∀ i : grid0.Coords, EltTy.bits .f32 = 32 ∨ (Rect.block (s := S250000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S250000x256.size a
  hwx0_3 : ∀ i : grid0.Coords, EltTy.bits .f32 = 32 ∨ (Rect.block (s := S250000x256) S2000x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S250000x256.size a
  hwx0_4 : ∀ i : grid0.Coords, EltTy.bits .f32 = 32 ∨ (Rect.block (s := S250000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S250000x256.size a
  hwx0_5 : ∀ i : grid0.Coords, EltTy.bits .f32 = 32 ∨ (Rect.block (s := S250000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S250000x256.size a
  hwx1_0 : ∀ i : grid1.Coords, EltTy.bits .f32 = 32 ∨ (Rect.block (s := S250000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S250000x256.size a
  hwx1_1 : ∀ i : grid1.Coords, EltTy.bits .f32 = 32 ∨ (Rect.block (s := S250000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S250000x1.size a
  hwx1_3 : ∀ i : grid1.Coords, EltTy.bits .f32 = 32 ∨ (Rect.block (s := S250000x1) S2000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S250000x256.size a
  hwx1_4 : ∀ i : grid1.Coords, EltTy.bits .f32 = 32 ∨ (Rect.block (s := S250000x256) S2000x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S250000x256.size a
  hwx1_5 : ∀ i : grid1.Coords, EltTy.bits .f32 = 32 ∨ (Rect.block (s := S250000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S250000x256.size a
  hwx2_0 : ∀ i : grid2.Coords, EltTy.bits .f32 = 32 ∨ (Rect.block (s := S250000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S250000x256.size a
  hwx2_1 : ∀ i : grid2.Coords, EltTy.bits .f32 = 32 ∨ (Rect.block (s := S250000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S250000x1.size a
  hwx2_3 : ∀ i : grid2.Coords, EltTy.bits .f32 = 32 ∨ (Rect.block (s := S250000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S250000x256.size a
  hwx2_4 : ∀ i : grid2.Coords, EltTy.bits .f32 = 32 ∨ (Rect.block (s := S250000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S250000x256.size a
  hwx2_5 : ∀ i : grid2.Coords, EltTy.bits .f32 = 32 ∨ (Rect.block (s := S250000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x133.size a ≤ S100000x133.size a
  hwx3_0 : ∀ i : grid3.Coords, EltTy.bits .f32 = 32 ∨ (Rect.block (s := S100000x133) S2000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x256.size a ≤ S133x256.size a
  hwx3_2 : ∀ i : grid3.Coords, EltTy.bits .f32 = 32 ∨ (Rect.block (s := S133x256) S133x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x256.size a ≤ S256x256.size a
  hwx3_3 : ∀ i : grid3.Coords, EltTy.bits .f32 = 32 ∨ (Rect.block (s := S256x256) S256x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x256.size a ≤ S100000x256.size a
  hwx3_6 : ∀ i : grid3.Coords, EltTy.bits .f32 = 32 ∨ (Rect.block (s := S100000x256) S2000x256.size (cc3_transform_6 i) (hinb3_6 i)).WholeWords (EltTy.packing .f32)

variable [Facts₀]

def dot_S2000x147_S147x256_S2000x256_1_0_0_1_n_n : DotDims S2000x147 S147x256 S2000x256 where
  lhsContracting := [1]
  rhsContracting := [0]
  lhsNonContracting := [0]
  rhsNonContracting := [1]
  lhsBatch := []
  rhsBatch := []
  wf := dot_S2000x147_S147x256_S2000x256_1_0_0_1_n_n_wf
def gather_S250000x256_S100000x6x1_S100000x6x256_2_0_n_n_0_2_1256 : GatherDims S250000x256 S100000x6x1 S100000x6x256 where
  offsetDims := [2]
  collapsedSliceDims := [0]
  operandBatchingDims := []
  startIndicesBatchingDims := []
  startIndexMap := [0]
  indexVectorDim := 2
  sliceSizes := ![1, 256]
  wf := gather_S250000x256_S100000x6x1_S100000x6x256_2_0_n_n_0_2_1256_wf
def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def gather_S250000x256_S250000x1_S250000x256_1_0_n_n_0_1_1256 : GatherDims S250000x256 S250000x1 S250000x256 where
  offsetDims := [1]
  collapsedSliceDims := [0]
  operandBatchingDims := []
  startIndicesBatchingDims := []
  startIndexMap := [0]
  indexVectorDim := 1
  sliceSizes := ![1, 256]
  wf := gather_S250000x256_S250000x1_S250000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x133_S133x256_S2000x256_1_0_0_1_n_n : DotDims S2000x133 S133x256 S2000x256 where
  lhsContracting := [1]
  rhsContracting := [0]
  lhsNonContracting := [0]
  rhsNonContracting := [1]
  lhsBatch := []
  rhsBatch := []
  wf := dot_S2000x133_S133x256_S2000x256_1_0_0_1_n_n_wf
def scatter_S2000x256_S100000x1_S100000x256_1_0_0_1 : ScatterDims S2000x256 S100000x1 S100000x256 where
  updateWindowDims := [1]
  insertedWindowDims := [0]
  scatterDimsToOperandDims := [0]
  indexVectorDim := 1
  wf := scatter_S2000x256_S100000x1_S100000x256_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

abbrev win0_0 : Pipeline.Window sig grid0 :=
  Pipeline.Window.ofSpec (Memref.whole main_arg1) S2000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S147x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S2000x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v27) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_0) S2000x256.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28_1) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v52_0) S2000x256.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v52_1) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg0) S2000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S133x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S256x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v1) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v62) S2000x256.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000x133 : Shape := ⟨2, ![100000, 133]⟩
abbrev S250000x147 : Shape := ⟨2, ![250000, 147]⟩
abbrev S100000 : Shape := ⟨1, ![100000]⟩
abbrev S250000 : Shape := ⟨1, ![250000]⟩
abbrev S147x256 : Shape := ⟨2, ![147, 256]⟩
abbrev S256x256 : Shape := ⟨2, ![256, 256]⟩
abbrev S389x256 : Shape := ⟨2, ![389, 256]⟩
abbrev S256 : Shape := ⟨1, ![256]⟩
abbrev S2000 : Shape := ⟨1, ![2000]⟩
abbrev S100000x6 : Shape := ⟨2, ![100000, 6]⟩
abbrev S250000x256 : Shape := ⟨2, ![250000, 256]⟩
abbrev S_ : Shape := ⟨0, ![]⟩
abbrev S100000x6x1 : Shape := ⟨3, ![100000, 6, 1]⟩
abbrev S100000x6x256 : Shape := ⟨3, ![100000, 6, 256]⟩
abbrev S100000x256 : Shape := ⟨2, ![100000, 256]⟩
abbrev S250000x1 : Shape := ⟨2, ![250000, 1]⟩
abbrev S100000x389 : Shape := ⟨2, ![100000, 389]⟩
abbrev S1x256 : Shape := ⟨2, ![1, 256]⟩
abbrev S100000x1 : Shape := ⟨2, ![100000, 1]⟩
abbrev S2000x256 : Shape := ⟨2, ![2000, 256]⟩
abbrev S2000x1 : Shape := ⟨2, ![2000, 1]⟩

abbrev nBuf : Space → Nat
  | .hbm => 175
  | .vmem => 0
  | .smem => 0
  | _ => 0

abbrev hbmTy0_0 (i : Nat) : BufTy := match i % 128 with
  | 0 => ⟨S100000x133, .f32⟩
  | 1 => ⟨S250000x147, .f32⟩
  | 2 => ⟨S100000, .f32⟩
  | 3 => ⟨S250000, .f32⟩
  | 4 => ⟨S147x256, .f32⟩
  | 5 => ⟨S256x256, .f32⟩
  | 6 => ⟨S389x256, .f32⟩
  | 7 => ⟨S256, .f32⟩
  | 8 => ⟨S2000, .f32⟩
  | 9 => ⟨S100000x6, .i32⟩
  | 10 => ⟨S250000, .i32⟩
  | 11 => ⟨S250000, .i32⟩
  | 12 => ⟨S100000, .i32⟩
  | 13 => ⟨S250000x256, .f32⟩
  | 14 => ⟨S_, .f32⟩
  | 15 => ⟨S250000x256, .f32⟩
  | 16 => ⟨S250000x256, .f32⟩
  | 17 => ⟨S_, .i32⟩
  | 18 => ⟨S100000x6, .i32⟩
  | 19 => ⟨S100000x6, .i1⟩
  | 20 => ⟨S_, .i32⟩
  | 21 => ⟨S100000x6, .i32⟩
  | 22 => ⟨S100000x6, .i32⟩
  | 23 => ⟨S100000x6, .i32⟩
  | 24 => ⟨S100000x6x1, .i32⟩
  | 25 => ⟨S100000x6x256, .f32⟩
  | 26 => ⟨S_, .i32⟩
  | 27 => ⟨S100000x6, .i32⟩
  | 28 => ⟨S100000x6, .i1⟩
  | 29 => ⟨S_, .i32⟩
  | 30 => ⟨S100000x6, .i32⟩
  | 31 => ⟨S100000x6, .i32⟩
  | 32 => ⟨S100000x6, .i32⟩
  | 33 => ⟨S100000x6x1, .i32⟩
  | 34 => ⟨S100000x6, .f32⟩
  | 35 => ⟨S100000x6x1, .f32⟩
  | 36 => ⟨S100000x6x256, .f32⟩
  | 37 => ⟨S100000x6x256, .f32⟩
  | 38 => ⟨S_, .f32⟩
  | 39 => ⟨S100000x256, .f32⟩
  | 40 => ⟨S_, .i32⟩
  | 41 => ⟨S250000, .i32⟩
  | 42 => ⟨S250000, .i1⟩
  | 43 => ⟨S_, .i32⟩
  | 44 => ⟨S250000, .i32⟩
  | 45 => ⟨S250000, .i32⟩
  | 46 => ⟨S250000, .i32⟩
  | 47 => ⟨S250000x1, .i32⟩
  | 48 => ⟨S250000x256, .f32⟩
  | 49 => ⟨S_, .i32⟩
  | 50 => ⟨S250000, .i32⟩
  | 51 => ⟨S250000, .i1⟩
  | 52 => ⟨S_, .i32⟩
  | 53 => ⟨S250000, .i32⟩
  | 54 => ⟨S250000, .i32⟩
  | 55 => ⟨S250000, .i32⟩
  | 56 => ⟨S250000x1, .i32⟩
  | 57 => ⟨S250000x256, .f32⟩
  | 58 => ⟨S250000x256, .f32⟩
  | 59 => ⟨S250000x256, .f32⟩
  | 60 => ⟨S250000x256, .f32⟩
  | 61 => ⟨S_, .f32⟩
  | 62 => ⟨S250000x256, .f32⟩
  | 63 => ⟨S250000x256, .f32⟩
  | 64 => ⟨S_, .i32⟩
  | 65 => ⟨S100000x6, .i32⟩
  | 66 => ⟨S100000x6, .i1⟩
  | 67 => ⟨S_, .i32⟩
  | 68 => ⟨S100000x6, .i32⟩
  | 69 => ⟨S100000x6, .i32⟩
  | 70 => ⟨S100000x6, .i32⟩
  | 71 => ⟨S100000x6x1, .i32⟩
  | 72 => ⟨S100000x6x256, .f32⟩
  | 73 => ⟨S_, .i32⟩
  | 74 => ⟨S100000x6, .i32⟩
  | 75 => ⟨S100000x6, .i1⟩
  | 76 => ⟨S_, .i32⟩
  | 77 => ⟨S100000x6, .i32⟩
  | 78 => ⟨S100000x6, .i32⟩
  | 79 => ⟨S100000x6, .i32⟩
  | 80 => ⟨S100000x6x1, .i32⟩
  | 81 => ⟨S100000x6, .f32⟩
  | 82 => ⟨S100000x6x1, .f32⟩
  | 83 => ⟨S100000x6x256, .f32⟩
  | 84 => ⟨S100000x6x256, .f32⟩
  | 85 => ⟨S_, .f32⟩
  | 86 => ⟨S100000x256, .f32⟩
  | 87 => ⟨S_, .i32⟩
  | 88 => ⟨S250000, .i32⟩
  | 89 => ⟨S250000, .i1⟩
  | 90 => ⟨S_, .i32⟩
  | 91 => ⟨S250000, .i32⟩
  | 92 => ⟨S250000, .i32⟩
  | 93 => ⟨S250000, .i32⟩
  | 94 => ⟨S250000x1, .i32⟩
  | 95 => ⟨S250000x256, .f32⟩
  | 96 => ⟨S_, .i32⟩
  | 97 => ⟨S250000, .i32⟩
  | 98 => ⟨S250000, .i1⟩
  | 99 => ⟨S_, .i32⟩
  | 100 => ⟨S250000, .i32⟩
  | 101 => ⟨S250000, .i32⟩
  | 102 => ⟨S250000, .i32⟩
  | 103 => ⟨S250000x1, .i32⟩
  | 104 => ⟨S250000x256, .f32⟩
  | 105 => ⟨S250000x256, .f32⟩
  | 106 => ⟨S250000x256, .f32⟩
  | 107 => ⟨S250000x256, .f32⟩
  | 108 => ⟨S_, .f32⟩
  | 109 => ⟨S250000x256, .f32⟩
  | 110 => ⟨S250000x256, .f32⟩
  | 111 => ⟨S_, .i32⟩
  | 112 => ⟨S100000x6, .i32⟩
  | 113 => ⟨S100000x6, .i1⟩
  | 114 => ⟨S_, .i32⟩
  | 115 => ⟨S100000x6, .i32⟩
  | 116 => ⟨S100000x6, .i32⟩
  | 117 => ⟨S100000x6, .i32⟩
  | 118 => ⟨S100000x6x1, .i32⟩
  | 119 => ⟨S100000x6x256, .f32⟩
  | 120 => ⟨S_, .i32⟩
  | 121 => ⟨S100000x6, .i32⟩
  | 122 => ⟨S100000x6, .i1⟩
  | 123 => ⟨S_, .i32⟩
  | 124 => ⟨S100000x6, .i32⟩
  | 125 => ⟨S100000x6, .i32⟩
  | 126 => ⟨S100000x6, .i32⟩
  | 127 => ⟨S100000x6x1, .i32⟩
  | _ => ⟨S100000x133, .f32⟩

abbrev hbmTy0_1 (i : Nat) : BufTy := match i % 128 with
  | 0 => ⟨S100000x6, .f32⟩
  | 1 => ⟨S100000x6x1, .f32⟩
  | 2 => ⟨S100000x6x256, .f32⟩
  | 3 => ⟨S100000x6x256, .f32⟩
  | 4 => ⟨S_, .f32⟩
  | 5 => ⟨S100000x256, .f32⟩
  | 6 => ⟨S100000x389, .f32⟩
  | 7 => ⟨S100000x256, .f32⟩
  | 8 => ⟨S1x256, .f32⟩
  | 9 => ⟨S100000x256, .f32⟩
  | 10 => ⟨S100000x256, .f32⟩
  | 11 => ⟨S_, .f32⟩
  | 12 => ⟨S100000x256, .f32⟩
  | 13 => ⟨S100000x256, .f32⟩
  | 14 => ⟨S100000x1, .f32⟩
  | 15 => ⟨S100000x256, .f32⟩
  | 16 => ⟨S100000x256, .f32⟩
  | 17 => ⟨S_, .f32⟩
  | 18 => ⟨S2000x256, .f32⟩
  | 19 => ⟨S100000x1, .i32⟩
  | 20 => ⟨S2000x256, .f32⟩
  | 21 => ⟨S_, .f32⟩
  | 22 => ⟨S2000, .f32⟩
  | 23 => ⟨S100000x1, .i32⟩
  | 24 => ⟨S2000, .f32⟩
  | 25 => ⟨S_, .f32⟩
  | 26 => ⟨S2000, .f32⟩
  | 27 => ⟨S2000, .i1⟩
  | 28 => ⟨S_, .f32⟩
  | 29 => ⟨S_, .f32⟩
  | 30 => ⟨S2000, .f32⟩
  | 31 => ⟨S2000, .f32⟩
  | 32 => ⟨S_, .f32⟩
  | 33 => ⟨S2000, .f32⟩
  | 34 => ⟨S2000, .i1⟩
  | 35 => ⟨S2000x1, .i1⟩
  | 36 => ⟨S2000x1, .f32⟩
  | 37 => ⟨S2000x256, .f32⟩
  | 38 => ⟨S2000x256, .f32⟩
  | 39 => ⟨S_, .f32⟩
  | 40 => ⟨S_, .f32⟩
  | 41 => ⟨S2000x256, .i1⟩
  | 42 => ⟨S2000x256, .f32⟩
  | 43 => ⟨S2000x256, .f32⟩
  | 44 => ⟨S2000x1, .f32⟩
  | 45 => ⟨S2000x256, .f32⟩
  | 46 => ⟨S2000x256, .f32⟩
  | _ => ⟨S100000x133, .f32⟩

abbrev hbmTy (i : Nat) : BufTy := match i / 128 with
  | 0 => hbmTy0_0 i
  | 1 => hbmTy0_1 i
  | _ => ⟨S100000x133, .f32⟩

abbrev bufTy : (tb : Table) → Fin (tcTables nBuf tb) → BufTy
  | .hbm, ⟨i, _⟩ => hbmTy i
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_cst : Ref sig .tc := ⟨.hbm, 14, rfl⟩
abbrev main_call0_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_c_3 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call1_cst : Ref sig .tc := ⟨.hbm, 61, rfl⟩
abbrev main_call1_v0 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_call2_cst : Ref sig .tc := ⟨.hbm, 108, rfl⟩
abbrev main_call2_v0 : Ref sig .tc := ⟨.hbm, 109, rfl⟩
abbrev main_v73 : Ref sig .tc := ⟨.hbm, 110, rfl⟩
abbrev main_c_16 : Ref sig .tc := ⟨.hbm, 111, rfl⟩
abbrev main_v74 : Ref sig .tc := ⟨.hbm, 112, rfl⟩
abbrev main_v75 : Ref sig .tc := ⟨.hbm, 113, rfl⟩
abbrev main_c_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_c_18 : Ref sig .tc := ⟨.hbm, 120, rfl⟩
abbrev main_v81 : Ref sig .tc := ⟨.hbm, 121, rfl⟩
abbrev main_v82 : Ref sig .tc := ⟨.hbm, 122, rfl⟩
abbrev main_c_19 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_20 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_22 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_23 : Ref sig .tc := ⟨.hbm, 153, rfl⟩
abbrev main_v107 : Ref sig .tc := ⟨.hbm, 154, rfl⟩
abbrev main_v108 : Ref sig .tc := ⟨.hbm, 155, rfl⟩
abbrev main_cst_24 : Ref sig .tc := ⟨.hbm, 156, rfl⟩
abbrev main_call4_v0 : Ref sig .tc := ⟨.hbm, 157, rfl⟩
abbrev main_call4_v1 : Ref sig .tc := ⟨.hbm, 158, rfl⟩
abbrev main_v109 : Ref sig .tc := ⟨.hbm, 159, rfl⟩
abbrev main_cst_25 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_cst_26 : Ref sig .tc := ⟨.hbm, 167, rfl⟩
abbrev main_call5_v0 : Ref sig .tc := ⟨.hbm, 168, rfl⟩
abbrev main_call5_v1 : Ref sig .tc := ⟨.hbm, 169, rfl⟩
abbrev main_call5_v2 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩

abbrev nD : Nat := 1
abbrev τ : Topo := Topo.v7x

variable {F : FTy → Type} [FloatOps F]

class Facts₀ : Prop where
  bcast_S_S250000x256 : S_.BroadcastsInDim S250000x256 (![] : Fin 0 → Fin S250000x256.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  bcast_S100000x6x1_S100000x6x256_0_1_2 : S100000x6x1.BroadcastsInDim S100000x6x256 (![0, 1, 2] : Fin 3 → Fin S100000x6x256.rank)
  reducesTo_S100000x6x256_S100000x256_d1 : S100000x6x256.ReducesTo [1] S100000x256
  h_S_ : 0 < S_.numel
  bcast_S_S250000 : S_.BroadcastsInDim S250000 (![] : Fin 0 → Fin S250000.rank)
  bcast_S250000_S250000x1_0 : S250000.BroadcastsInDim S250000x1 (![0] : Fin 1 → Fin S250000x1.rank)
  concatenates_S100000x133_S100000x256_S100000x389_d1 : Shape.Concatenates [S100000x133, S100000x256] S100000x389 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S2000x256 : S_.BroadcastsInDim S2000x256 (![] : Fin 0 → Fin S2000x256.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x256_0_1 : S2000x1.BroadcastsInDim S2000x256 (![0, 1] : Fin 2 → Fin S2000x256.rank)
  dot_S250000x147_S147x256_S250000x256_1_0_0_1_n_n_wf : DotDims.WF S250000x147 S147x256 S250000x256 [1] [0] [0] [1] [] []
  gather_S250000x256_S100000x6x1_S100000x6x256_2_0_n_n_0_2_1256_wf : GatherDims.WF S250000x256 S100000x6x1 S100000x6x256 [2] [0] [] [0] [] 2 ![1, 256]
  gather_S250000_S100000x6x1_S100000x6_n_0_n_n_0_2_1_wf : GatherDims.WF S250000 S100000x6x1 S100000x6 [] [0] [] [0] [] 2 ![1]
  gather_S100000x256_S250000x1_S250000x256_1_0_n_n_0_1_1256_wf : GatherDims.WF S100000x256 S250000x1 S250000x256 [1] [0] [] [0] [] 1 ![1, 256]
  gather_S250000x256_S250000x1_S250000x256_1_0_n_n_0_1_1256_wf : GatherDims.WF S250000x256 S250000x1 S250000x256 [1] [0] [] [0] [] 1 ![1, 256]
  dot_S250000x256_S256x256_S250000x256_1_0_0_1_n_n_wf : DotDims.WF S250000x256 S256x256 S250000x256 [1] [0] [0] [1] [] []
  dot_S100000x389_S389x256_S100000x256_1_0_0_1_n_n_wf : DotDims.WF S100000x389 S389x256 S100000x256 [1] [0] [0] [1] [] []
  scatter_S2000x256_S100000x1_S100000x256_1_0_0_1_wf : ScatterDims.WF S2000x256 S100000x1 S100000x256 [1] [0] [0] 1
  scatter_S2000_S100000x1_S100000_n_0_0_1_wf : ScatterDims.WF S2000 S100000x1 S100000 [] [0] [0] 1

variable [Facts₀]

def dot_S250000x147_S147x256_S250000x256_1_0_0_1_n_n : DotDims S250000x147 S147x256 S250000x256 where
  lhsContracting := [1]
  rhsContracting := [0]
  lhsNonContracting := [0]
  rhsNonContracting := [1]
  lhsBatch := []
  rhsBatch := []
  wf := dot_S250000x147_S147x256_S250000x256_1_0_0_1_n_n_wf
def gather_S250000x256_S100000x6x1_S100000x6x256_2_0_n_n_0_2_1256 : GatherDims S250000x256 S100000x6x1 S100000x6x256 where
  offsetDims := [2]
  collapsedSliceDims := [0]
  operandBatchingDims := []
  startIndicesBatchingDims := []
  startIndexMap := [0]
  indexVectorDim := 2
  sliceSizes := ![1, 256]
  wf := gather_S250000x256_S100000x6x1_S100000x6x256_2_0_n_n_0_2_1256_wf
def gather_S250000_S100000x6x1_S100000x6_n_0_n_n_0_2_1 : GatherDims S250000 S100000x6x1 S100000x6 where
  offsetDims := []
  collapsedSliceDims := [0]
  operandBatchingDims := []
  startIndicesBatchingDims := []
  startIndexMap := [0]
  indexVectorDim := 2
  sliceSizes := ![1]
  wf := gather_S250000_S100000x6x1_S100000x6_n_0_n_n_0_2_1_wf
def gather_S100000x256_S250000x1_S250000x256_1_0_n_n_0_1_1256 : GatherDims S100000x256 S250000x1 S250000x256 where
  offsetDims := [1]
  collapsedSliceDims := [0]
  operandBatchingDims := []
  startIndicesBatchingDims := []
  startIndexMap := [0]
  indexVectorDim := 1
  sliceSizes := ![1, 256]
  wf := gather_S100000x256_S250000x1_S250000x256_1_0_n_n_0_1_1256_wf
def gather_S250000x256_S250000x1_S250000x256_1_0_n_n_0_1_1256 : GatherDims S250000x256 S250000x1 S250000x256 where
  offsetDims := [1]
  collapsedSliceDims := [0]
  operandBatchingDims := []
  startIndicesBatchingDims := []
  startIndexMap := [0]
  indexVectorDim := 1
  sliceSizes := ![1, 256]
  wf := gather_S250000x256_S250000x1_S250000x256_1_0_n_n_0_1_1256_wf
def dot_S250000x256_S256x256_S250000x256_1_0_0_1_n_n : DotDims S250000x256 S256x256 S250000x256 where
  lhsContracting := [1]
  rhsContracting := [0]
  lhsNonContracting := [0]
  rhsNonContracting := [1]
  lhsBatch := []
  rhsBatch := []
  wf := dot_S250000x256_S256x256_S250000x256_1_0_0_1_n_n_wf
def dot_S100000x389_S389x256_S100000x256_1_0_0_1_n_n : DotDims S100000x389 S389x256 S100000x256 where
  lhsContracting := [1]
  rhsContracting := [0]
  lhsNonContracting := [0]
  rhsNonContracting := [1]
  lhsBatch := []
  rhsBatch := []
  wf := dot_S100000x389_S389x256_S100000x256_1_0_0_1_n_n_wf
def scatter_S2000x256_S100000x1_S100000x256_1_0_0_1 : ScatterDims S2000x256 S100000x1 S100000x256 where
  updateWindowDims := [1]
  insertedWindowDims := [0]
  scatterDimsToOperandDims := [0]
  indexVectorDim := 1
  wf := scatter_S2000x256_S100000x1_S100000x256_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf

class Facts : Prop extends Facts₀ where

variable [Facts]
-- ==== Proof.KernelRun.lean ====
/-
  The idealized kernel's run with its RESULT named. @main is four pipelined regions among stretches of host
  operations; the buffer contents at each boundary are a fold from the launch memory (`Gen.W0 … Gen.W13`: a host
  stretch applies its operations, a region leaves its arrays at what its write-backs fold to). Every weakly fair
  execution terminates with the result buffer at the last boundary's contents `Gen.W13 m ρ c main_v81` and the
  argument arrays as launched. The launch over the segments is the one that gives the frame claim; here the final
  thread state is read at the result buffer as well.
-/
import proofs.«167222_j83202106458599_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer holding the last
    boundary's contents and every argument array as launched. -/
theorem run_result : θ_run defs (onTc (τ := τ) (main (F := F))) ⟨m, fun _ => 0, ρ⟩ (fun r => ∀ c : Dev nD,
      r.2.mem ((c.tc : Thread nD τ).loc main_v81) = W13 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v81 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c)⟩)

end Cert.KernelIdeal.Result

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.LibColumnLayout.lean ====
/-
  A column kept as a trailing unit axis, read at coordinates. A row reduction of an `a × b` array gives a length-`a`
  vector; "keepdims" stores it as an `a × 1` array and broadcasts it back over the `b` columns. Read at `(p, c)` the
  result is the vector at `p`, whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Spec.lean ====
/-
  The dense stages of the message-passing encoder, and the two entrywise steps between them, as plain index formulas
  over the extended reals.

  * `projK`    — the bond input projection: row `r` of the bond features against column `c` of the input weights.
  * `reluK`    — the rectifier: the maximum with the zero word's value.
  * `scaleRows` — every row `r` of a table multiplied by entry `r` of a one-column array (a bond's or an atom's weight).
  * `updK`     — the recurrent update: the rectified sum of the input projection and the directed messages against the
                  hidden weights.
  * `readoutK` — the atom readout: the rectified sum of the atom features against the first 133 rows of the output
                  weights, the aggregated messages against the last 256 rows, and the bias, scaled by the atom's weight.
-/
import Idealize.ShloMosaic.PureOps.Ideal.Laws
import Idealize.ShloMosaic.Lib.ValueIdx

noncomputable section

open scoped BigOperators

namespace Cert.Spec

open Idealize.ShloMosaic Idealize.ShloMosaic.ValueIdx

/-- Row `i 0` of `fb` against column `i 1` of `wi`. -/
def projK (fb : (⟨2, ![250000, 147]⟩ : Shape).Idx → EReal) (wi : (⟨2, ![147, 256]⟩ : Shape).Idx → EReal) :
    (⟨2, ![250000, 256]⟩ : Shape).Idx → EReal :=
  fun i => ∑ k : Fin 147, fb (ix2 (i 0) k) * wi (ix2 k (i 1))

/-- The rectifier, entry by entry. -/
def reluK {s : Shape} (P : s.Idx → EReal) : s.Idx → EReal :=
  fun i => max (P i) (Ideal.ofBits .f32 0x00000000#32)

/-- Row `r` of `P` multiplied by entry `r` of the one-column array `col`. -/
def scaleRows {n : Nat} (P : (⟨2, ![n, 256]⟩ : Shape).Idx → EReal) (col : (⟨2, ![n, 1]⟩ : Shape).Idx → EReal) :
    (⟨2, ![n, 256]⟩ : Shape).Idx → EReal :=
  fun i => P i * col (ix2 (i 0) (0 : Fin 1))

/-- The rectified sum of `inp` and the product of `X` with the hidden weights `wh`. -/
def updK (X inp : (⟨2, ![250000, 256]⟩ : Shape).Idx → EReal) (wh : (⟨2, ![256, 256]⟩ : Shape).Idx → EReal) :
    (⟨2, ![250000, 256]⟩ : Shape).Idx → EReal :=
  fun i => max (inp i + ∑ k : Fin 256, X (ix2 (i 0) k) * wh (ix2 k (i 1))) (Ideal.ofBits .f32 0x00000000#32)

/-- The atom readout: features and aggregated messages against the two row ranges of the output weights, the bias added,
    rectified, scaled by the atom's weight. -/
def readoutK (fa : (⟨2, ![100000, 133]⟩ : Shape).Idx → EReal) (am : (⟨2, ![100000, 256]⟩ : Shape).Idx → EReal)
    (w3 : (⟨2, ![133, 256]⟩ : Shape).Idx → EReal) (w4 : (⟨2, ![256, 256]⟩ : Shape).Idx → EReal)
    (b2 : (⟨2, ![1, 256]⟩ : Shape).Idx → EReal) (wa1 : (⟨2, ![100000, 1]⟩ : Shape).Idx → EReal) :
    (⟨2, ![100000, 256]⟩ : Shape).Idx → EReal :=
  fun i => max ((∑ k : Fin 133, fa (ix2 (i 0) k) * w3 (ix2 k (i 1))) + (∑ k : Fin 256, am (ix2 (i 0) k) * w4 (ix2 k (i 1)))
      + b2 (ix2 (0 : Fin 1) (i 1))) (Ideal.ofBits .f32 0x00000000#32) * wa1 (ix2 (i 0) (0 : Fin 1))

end Cert.Spec

end
-- ==== Proof.Payloads.lean ====
/-
  The bodies' arithmetic read at a row and a column of a 2000-row block, at the extended reals.

  Each of the three kernels multiplies a block of rows by a whole weight matrix on the matrix unit into a zero
  accumulator; at the extended reals a change of float format is the identity and the product at `(p, q)` is the finite
  sum over the inner position. The remaining operations are entrywise: an addition, the maximum with zero, and the
  product with a one-column block broadcast along the 256 columns (entry `(p, 0)` of the column at every `(p, q)`).
-/
import proofs.«167222_j83202106458599_2_alg».proof.Proof.Gen.KernelIdeal.Frame
import proofs.«167222_j83202106458599_2_alg».proof.Proof.LibDotIx2
import proofs.«167222_j83202106458599_2_alg».proof.Proof.LibColumnLayout
import proofs.«167222_j83202106458599_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The dimension numbers of a 2000×147 by 147×256 product are those of a plain matrix product. -/
theorem plain_147 : PlainDot (M := 2000) (K := 147) (N := 256) dot_S2000x147_S147x256_S2000x256_1_0_0_1_n_n where
  rank := rfl
  size := rfl
  l0 := fun j q => by
    unfold DotDims.lhsIdx
    rw [dif_neg (show ¬(0 : Fin S2000x147.rank) ∈ dot_S2000x147_S147x256_S2000x256_1_0_0_1_n_n.lhsBatch by decide),
      dif_pos (show (0 : Fin S2000x147.rank) ∈ dot_S2000x147_S147x256_S2000x256_1_0_0_1_n_n.lhsNonContracting by decide)]
    rfl
  l1 := fun j q => dot_S2000x147_S147x256_S2000x256_1_0_0_1_n_n.lhsIdx_val_of_single rfl j q
  r0 := fun j q => dot_S2000x147_S147x256_S2000x256_1_0_0_1_n_n.rhsIdx_val_of_single rfl j q
  r1 := fun j q => by
    unfold DotDims.rhsIdx
    rw [dif_neg (show ¬(1 : Fin S147x256.rank) ∈ dot_S2000x147_S147x256_S2000x256_1_0_0_1_n_n.rhsBatch by decide),
      dif_pos (show (1 : Fin S147x256.rank) ∈ dot_S2000x147_S147x256_S2000x256_1_0_0_1_n_n.rhsNonContracting by decide)]
    rfl

/-- The dimension numbers of a 2000×256 by 256×256 product are those of a plain matrix product. -/
theorem plain_256 : PlainDot (M := 2000) (K := 256) (N := 256) dot_S2000x256_S256x256_S2000x256_1_0_0_1_n_n where
  rank := rfl
  size := rfl
  l0 := fun j q => by
    unfold DotDims.lhsIdx
    rw [dif_neg (show ¬(0 : Fin S2000x256.rank) ∈ dot_S2000x256_S256x256_S2000x256_1_0_0_1_n_n.lhsBatch by decide),
      dif_pos (show (0 : Fin S2000x256.rank) ∈ dot_S2000x256_S256x256_S2000x256_1_0_0_1_n_n.lhsNonContracting by decide)]
    rfl
  l1 := fun j q => dot_S2000x256_S256x256_S2000x256_1_0_0_1_n_n.lhsIdx_val_of_single rfl j q
  r0 := fun j q => dot_S2000x256_S256x256_S2000x256_1_0_0_1_n_n.rhsIdx_val_of_single rfl j q
  r1 := fun j q => by
    unfold DotDims.rhsIdx
    rw [dif_neg (show ¬(1 : Fin S256x256.rank) ∈ dot_S2000x256_S256x256_S2000x256_1_0_0_1_n_n.rhsBatch by decide),
      dif_pos (show (1 : Fin S256x256.rank) ∈ dot_S2000x256_S256x256_S2000x256_1_0_0_1_n_n.rhsNonContracting by decide)]
    rfl

/-- The dimension numbers of a 2000×133 by 133×256 product are those of a plain matrix product. -/
theorem plain_133 : PlainDot (M := 2000) (K := 133) (N := 256) dot_S2000x133_S133x256_S2000x256_1_0_0_1_n_n where
  rank := rfl
  size := rfl
  l0 := fun j q => by
    unfold DotDims.lhsIdx
    rw [dif_neg (show ¬(0 : Fin S2000x133.rank) ∈ dot_S2000x133_S133x256_S2000x256_1_0_0_1_n_n.lhsBatch by decide),
      dif_pos (show (0 : Fin S2000x133.rank) ∈ dot_S2000x133_S133x256_S2000x256_1_0_0_1_n_n.lhsNonContracting by decide)]
    rfl
  l1 := fun j q => dot_S2000x133_S133x256_S2000x256_1_0_0_1_n_n.lhsIdx_val_of_single rfl j q
  r0 := fun j q => dot_S2000x133_S133x256_S2000x256_1_0_0_1_n_n.rhsIdx_val_of_single rfl j q
  r1 := fun j q => by
    unfold DotDims.rhsIdx
    rw [dif_neg (show ¬(1 : Fin S133x256.rank) ∈ dot_S2000x133_S133x256_S2000x256_1_0_0_1_n_n.rhsBatch by decide),
      dif_pos (show (1 : Fin S133x256.rank) ∈ dot_S2000x133_S133x256_S2000x256_1_0_0_1_n_n.rhsNonContracting by decide)]
    rfl

/-- A one-column block broadcast along the columns reads its entry `(p, 0)` at every `(p, q)`. -/
theorem col_bcast_apply (v : Vec Ideal S2000x1 .f32) (p : Fin 2000) (q : Fin 256) :
    broadcastTo S2000x256 (shapeCast S2000x1 v shapeCasts_S2000x1_S2000x1) broadcasts_S2000x1_S2000x256 (ix2 p q)
      = v (ix2 p (0 : Fin 1)) := by
  rw [shapeCast_self]
  exact broadcastTo_a1_ab_apply v broadcasts_S2000x1_S2000x256 p q

/-- The bond projection's block at `(p, q)`: row `p` of the feature block against column `q` of the weights. -/
theorem pay_proj (x0 : Vec Ideal S2000x147 .f32) (x1 : Vec Ideal S147x256 .f32) (p : Fin 2000) (q : Fin 256) :
    k0_pay1 x0 x1 (ix2 p q) = ∑ k : Fin 147, x0 (ix2 p k) * x1 (ix2 k q) := by
  unfold k0_pay1
  exact matmul_zero_ix2_any plain_147 none _ _ p q

/-- The rectified bond projection's block at `(p, q)`. -/
theorem pay_relu (x0 : Vec Ideal S2000x147 .f32) (x1 : Vec Ideal S147x256 .f32) (p : Fin 2000) (q : Fin 256) :
    k0_pay2 x0 x1 (ix2 p q) = max (∑ k : Fin 147, x0 (ix2 p k) * x1 (ix2 k q)) (Ideal.ofBits .f32 0x00000000#32) := by
  unfold k0_pay2
  exact congrArg (max · (Ideal.ofBits .f32 0x00000000#32)) (pay_proj x0 x1 p q)

/-- The weighted rectified bond projection's block at `(p, q)`: the rectified entry times the bond's weight. -/
theorem pay_wrelu (x0 : Vec Ideal S2000x147 .f32) (x1 : Vec Ideal S147x256 .f32) (x2 : Vec Ideal S2000x1 .f32)
    (p : Fin 2000) (q : Fin 256) :
    k0_pay3 x0 x1 x2 (ix2 p q)
      = max (∑ k : Fin 147, x0 (ix2 p k) * x1 (ix2 k q)) (Ideal.ofBits .f32 0x00000000#32) * x2 (ix2 p (0 : Fin 1)) := by
  unfold k0_pay3
  show k0_pay2 x0 x1 (ix2 p q) * broadcastTo S2000x256 (shapeCast S2000x1 x2 shapeCasts_S2000x1_S2000x1) broadcasts_S2000x1_S2000x256 (ix2 p q) = _
  rw [col_bcast_apply, pay_relu]

/-- The recurrent update's block at `(p, q)`: the rectified sum of the input projection's entry and row `p` of the
    directed messages against column `q` of the hidden weights. -/
theorem pay_upd1 (x0 : Vec Ideal S2000x256 .f32) (x3 : Vec Ideal S256x256 .f32) (x6 : Vec Ideal S2000x256 .f32)
    (p : Fin 2000) (q : Fin 256) :
    k1_pay1 x0 x3 x6 (ix2 p q)
      = max (x6 (ix2 p q) + ∑ k : Fin 256, x0 (ix2 p k) * x3 (ix2 k q)) (Ideal.ofBits .f32 0x00000000#32) := by
  unfold k1_pay1
  simp only [shapeCast_self]
  exact congrArg (fun s => max (x6 (ix2 p q) + s) (Ideal.ofBits .f32 0x00000000#32))
    (matmul_zero_ix2_any plain_256 none _ _ p q)

/-- The weighted update's block at `(p, q)`: the updated entry times the bond's weight. -/
theorem pay_wupd1 (x0 : Vec Ideal S2000x256 .f32) (x3 : Vec Ideal S256x256 .f32) (x6 : Vec Ideal S2000x256 .f32)
    (x12 : Vec Ideal S2000x1 .f32) (p : Fin 2000) (q : Fin 256) :
    k1_pay2 x0 x3 x6 x12 (ix2 p q)
      = max (x6 (ix2 p q) + ∑ k : Fin 256, x0 (ix2 p k) * x3 (ix2 k q)) (Ideal.ofBits .f32 0x00000000#32)
          * x12 (ix2 p (0 : Fin 1)) := by
  unfold k1_pay2
  show k1_pay1 x0 x3 x6 (ix2 p q) * broadcastTo S2000x256 (shapeCast S2000x1 x12 shapeCasts_S2000x1_S2000x1) broadcasts_S2000x1_S2000x256 (ix2 p q) = _
  rw [col_bcast_apply, pay_upd1]

/-- The second update round runs the same body. -/
theorem pay_upd2 (x0 : Vec Ideal S2000x256 .f32) (x3 : Vec Ideal S256x256 .f32) (x6 : Vec Ideal S2000x256 .f32)
    (p : Fin 2000) (q : Fin 256) :
    k2_pay1 x0 x3 x6 (ix2 p q)
      = max (x6 (ix2 p q) + ∑ k : Fin 256, x0 (ix2 p k) * x3 (ix2 k q)) (Ideal.ofBits .f32 0x00000000#32) := by
  unfold k2_pay1
  simp only [shapeCast_self]
  exact congrArg (fun s => max (x6 (ix2 p q) + s) (Ideal.ofBits .f32 0x00000000#32))
    (matmul_zero_ix2_any plain_256 none _ _ p q)

theorem pay_wupd2 (x0 : Vec Ideal S2000x256 .f32) (x3 : Vec Ideal S256x256 .f32) (x6 : Vec Ideal S2000x256 .f32)
    (x12 : Vec Ideal S2000x1 .f32) (p : Fin 2000) (q : Fin 256) :
    k2_pay2 x0 x3 x6 x12 (ix2 p q)
      = max (x6 (ix2 p q) + ∑ k : Fin 256, x0 (ix2 p k) * x3 (ix2 k q)) (Ideal.ofBits .f32 0x00000000#32)
          * x12 (ix2 p (0 : Fin 1)) := by
  unfold k2_pay2
  show k2_pay1 x0 x3 x6 (ix2 p q) * broadcastTo S2000x256 (shapeCast S2000x1 x12 shapeCasts_S2000x1_S2000x1) broadcasts_S2000x1_S2000x256 (ix2 p q) = _
  rw [col_bcast_apply, pay_upd2]

/-- A one-row block broadcast along the rows reads its entry `(0, q)` at every `(p, q)`. -/
theorem row_bcast_apply (v : Vec Ideal S1x256 .f32) (p : Fin 2000) (q : Fin 256) :
    broadcastTo S2000x256 (shapeCast S1x256 v shapeCasts_S1x256_S1x256) broadcasts_S1x256_S2000x256 (ix2 p q)
      = v (ix2 (0 : Fin 1) q) := by
  rw [shapeCast_self]
  refine broadcastTo_apply v broadcasts_S1x256_S2000x256 (ix2 p q) (ix2 (0 : Fin 1) q) fun ax => ?_
  match ax with
  | ⟨0, _⟩ => rfl
  | ⟨1, _⟩ => rfl

/-- The readout's block at `(p, q)`: features against the first weight block plus aggregated messages against the
    second, plus the bias, rectified, times the atom's weight. -/
theorem pay_readout (x0 : Vec Ideal S2000x133 .f32) (x2 : Vec Ideal S2000x256 .f32) (x5 : Vec Ideal S133x256 .f32)
    (x8 : Vec Ideal S256x256 .f32) (x14 : Vec Ideal S1x256 .f32) (x20 : Vec Ideal S2000x1 .f32) (p : Fin 2000) (q : Fin 256) :
    k3_pay1 x0 x2 x5 x8 x14 x20 (ix2 p q)
      = max ((∑ k : Fin 133, x0 (ix2 p k) * x5 (ix2 k q)) + (∑ k : Fin 256, x2 (ix2 p k) * x8 (ix2 k q))
          + x14 (ix2 (0 : Fin 1) q)) (Ideal.ofBits .f32 0x00000000#32) * x20 (ix2 p (0 : Fin 1)) := by
  unfold k3_pay1
  simp only [shapeCast_self]
  show max (FloatOps.matmul (F := Ideal) dot_S2000x133_S133x256_S2000x256_1_0_0_1_n_n none (truncf .bf16 x0 bitsLt_bf16_f32) (truncf .bf16 x5 bitsLt_bf16_f32) (constant (F := Ideal) S2000x256 .f32 0x00000000#32) (ix2 p q)
      + FloatOps.matmul (F := Ideal) dot_S2000x256_S256x256_S2000x256_1_0_0_1_n_n none (truncf .bf16 x2 bitsLt_bf16_f32) (truncf .bf16 x8 bitsLt_bf16_f32) (constant (F := Ideal) S2000x256 .f32 0x00000000#32) (ix2 p q)
      + broadcastTo S2000x256 x14 broadcasts_S1x256_S2000x256 (ix2 p q)) (Ideal.ofBits .f32 0x00000000#32)
      * broadcastTo S2000x256 x20 broadcasts_S2000x1_S2000x256 (ix2 p q) = _
  rw [matmul_zero_ix2_any plain_133 none _ _ p q, matmul_zero_ix2_any plain_256 none _ _ p q,
    broadcastTo_a1_ab_apply x20 broadcasts_S2000x1_S2000x256 p q]
  congr 2
  refine congrArg _ (broadcastTo_apply x14 broadcasts_S1x256_S2000x256 (ix2 p q) (ix2 (0 : Fin 1) q) fun ax => ?_)
  match ax with
  | ⟨0, _⟩ => rfl
  | ⟨1, _⟩ => rfl

end Cert.KernelIdeal.Blocks

end
-- ==== Proof.Region0.lean ====
/-
  The bond input layer's three output arrays after its run, as whole-array functions of the arrays the region finds.

  The grid has 125 points; point `t` stages rows `2000 t … 2000 t + 1999` of the bond features and of the bond-weight
  column, the whole input weight matrix, and writes back the same rows of the three outputs. Row `2000 t + p` of the
  first output is row `p` of the block's product, the second is its rectification, the third the rectified row times
  the bond's weight. The 125 row blocks tile the 250000 rows, so each array ends as one function of the inputs.
-/
import proofs.«167222_j83202106458599_2_alg».proof.Proof.Payloads

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the weights at `(0, 0)`. -/
theorem idx0 : ∀ t : Fin cfg0.N,
    win0_0.index t (0 : Fin 2) = t.val ∧ win0_0.index t (1 : Fin 2) = 0 ∧
    win0_1.index t (0 : Fin 2) = 0 ∧ win0_1.index t (1 : Fin 2) = 0 ∧
    win0_2.index t (0 : Fin 2) = t.val ∧ win0_2.index t (1 : Fin 2) = 0 ∧
    win0_3.index t (0 : Fin 2) = t.val ∧ win0_3.index t (1 : Fin 2) = 0 ∧
    win0_4.index t (0 : Fin 2) = t.val ∧ win0_4.index t (1 : Fin 2) = 0 ∧
    win0_5.index t (0 : Fin 2) = t.val ∧ win0_5.index t (1 : Fin 2) = 0 :=
  (by decide +kernel : ∀ t : Fin grid0.N, _)

/-- Row `p` of point `t`'s block is row `2000 t + p` of the array. -/
def row0 (t : Fin cfg0.N) (p : Fin 2000) : Fin 250000 :=
  ⟨t.val * 2000 + p.val, by have := t.isLt; have := p.isLt; have h : cfg0.N = 125 := N_0; omega⟩

/-- The feature block at `(p, k)` is the feature array at row `2000 t + p`. -/
theorem in0_0 (c : Dev nD) (t : Fin cfg0.N) (p : Fin 2000) (k : Fin 147) :
    iblk0 V c 0 t (ix2 p k) = V c main_arg1 (ix2 (row0 t p) k) := by
  obtain ⟨e0, e1, -⟩ := idx0 t
  show V c main_arg1 (((cfg0.win 0).blk t).view.emb (ix2 p k)) = _
  refine congrArg (V c main_arg1) (funext fun a => Fin.ext ?_)
  match a with
  | ⟨0, _⟩ => show win0_0.index t (0 : Fin 2) * 2000 + 1 * p.val = t.val * 2000 + p.val; omega
  | ⟨1, _⟩ => show win0_0.index t (1 : Fin 2) * 147 + 1 * k.val = k.val; omega

/-- The weight block is the whole weight array. -/
theorem in0_1 (c : Dev nD) (t : Fin cfg0.N) (k : Fin 147) (q : Fin 256) :
    iblk0 V c 1 t (ix2 k q) = V c main_arg4 (ix2 k q) := by
  obtain ⟨-, -, e0, e1, -⟩ := idx0 t
  show V c main_arg4 (((cfg0.win 1).blk t).view.emb (ix2 k q)) = _
  refine congrArg (V c main_arg4) (funext fun a => Fin.ext ?_)
  match a with
  | ⟨0, _⟩ => show win0_1.index t (0 : Fin 2) * 147 + 1 * k.val = k.val; omega
  | ⟨1, _⟩ => show win0_1.index t (1 : Fin 2) * 256 + 1 * q.val = q.val; omega

/-- The bond-weight block at `(p, 0)` is the weight column at row `2000 t + p`. -/
theorem in0_2 (c : Dev nD) (t : Fin cfg0.N) (p : Fin 2000) :
    iblk0 V c 2 t (ix2 p (0 : Fin 1)) = V c main_v0 (ix2 (row0 t p) (0 : Fin 1)) := by
  obtain ⟨-, -, -, -, e0, e1, -⟩ := idx0 t
  show V c main_v0 (((cfg0.win 2).blk t).view.emb (ix2 p (0 : Fin 1))) = _
  refine congrArg (V c main_v0) (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

/-- The block's product at `(p, q)` is the arrays' product at row `2000 t + p`. -/
theorem sum0 (c : Dev nD) (t : Fin cfg0.N) (p : Fin 2000) (q : Fin 256)
    (x0 : Vec Ideal S2000x147 .f32) (x1 : Vec Ideal S147x256 .f32)
    (h0 : ∀ k : Fin 147, x0 (ix2 p k) = V c main_arg1 (ix2 (row0 t p) k))
    (h1 : ∀ k : Fin 147, x1 (ix2 k q) = V c main_arg4 (ix2 k q)) :
    (∑ k : Fin 147, x0 (ix2 p k) * x1 (ix2 k q)) = projK (V c main_arg1) (V c main_arg4) (ix2 (row0 t p) q) := by
  unfold projK
  exact Finset.sum_congr rfl fun k _ => by rw [h0 k, h1 k]

/-- Position `(p, q)` of output window 3's block at point `t` is `(2000 t + p, q)` of its array. -/
theorem emb0_3 (t : Fin cfg0.N) (p : Fin 2000) (q : Fin 256) :
    ((cfg0.win 3).blk t).view.emb (ix2 p q) = ix2 (row0 t p) q := by
  obtain ⟨-, -, -, -, -, -, e0, e1, -⟩ := idx0 t
  refine funext fun a => Fin.ext ?_
  match a with
  | ⟨0, _⟩ => show win0_3.index t (0 : Fin 2) * 2000 + 1 * p.val = t.val * 2000 + p.val; omega
  | ⟨1, _⟩ => show win0_3.index t (1 : Fin 2) * 256 + 1 * q.val = q.val; omega
theorem emb0_4 (t : Fin cfg0.N) (p : Fin 2000) (q : Fin 256) :
    ((cfg0.win 4).blk t).view.emb (ix2 p q) = ix2 (row0 t p) q := by
  obtain ⟨-, -, -, -, -, -, -, -, e0, e1, -⟩ := idx0 t
  refine funext fun a => Fin.ext ?_
  match a with
  | ⟨0, _⟩ => show win0_4.index t (0 : Fin 2) * 2000 + 1 * p.val = t.val * 2000 + p.val; omega
  | ⟨1, _⟩ => show win0_4.index t (1 : Fin 2) * 256 + 1 * q.val = q.val; omega
theorem emb0_5 (t : Fin cfg0.N) (p : Fin 2000) (q : Fin 256) :
    ((cfg0.win 5).blk t).view.emb (ix2 p q) = ix2 (row0 t p) q := by
  obtain ⟨-, -, -, -, -, -, -, -, -, -, e0, e1⟩ := idx0 t
  refine funext fun a => Fin.ext ?_
  match a with
  | ⟨0, _⟩ => show win0_5.index t (0 : Fin 2) * 2000 + 1 * p.val = t.val * 2000 + p.val; omega
  | ⟨1, _⟩ => show win0_5.index t (1 : Fin 2) * 256 + 1 * q.val = q.val; omega

/-- What point `t` writes back through window 3 is its block of the projection. -/
theorem flushed0_3 (c : Dev nD) (t : Fin cfg0.N) :
    (dat0 V c).flushed 3 t = ((cfg0.win 3).blk t).view.read (Elt Ideal) (projK (V c main_arg1) (V c main_arg4)) := by
  show (cfg0.win 3).cut (grid0.coords t) ((dat0 V c).after 3 t) = _
  rw [after0_3]
  unfold out0_3
  rw [View.canon_unit_zero hz]
  simp only [View.ld_unit_zero (S := S2000x147) hz, View.ld_unit_zero (S := S147x256) hz]
  funext j
  obtain ⟨p, q, rfl⟩ : ∃ (p : Fin 2000) (q : Fin 256), j = ix2 p q := ⟨j 0, j 1, eq_ix2 j⟩
  show k0_pay1 (iblk0 V c 0 t) (iblk0 V c 1 t) (ix2 p q)
    = projK (V c main_arg1) (V c main_arg4) (((cfg0.win 3).blk t).view.emb (ix2 p q))
  rw [emb0_3 t p q]
  exact (pay_proj (iblk0 V c 0 t) (iblk0 V c 1 t) p q).trans (sum0 V c t p q _ _ (in0_0 V c t p) (fun k => in0_1 V c t k q))

/-- What point `t` writes back through window 4 is its block of the rectified projection. -/
theorem flushed0_4 (c : Dev nD) (t : Fin cfg0.N) :
    (dat0 V c).flushed 4 t
      = ((cfg0.win 4).blk t).view.read (Elt Ideal) (reluK (projK (V c main_arg1) (V c main_arg4))) := by
  show (cfg0.win 4).cut (grid0.coords t) ((dat0 V c).after 4 t) = _
  rw [after0_4]
  unfold out0_4
  rw [View.canon_unit_zero hz]
  simp only [View.ld_unit_zero (S := S2000x147) hz, View.ld_unit_zero (S := S147x256) hz]
  funext j
  obtain ⟨p, q, rfl⟩ : ∃ (p : Fin 2000) (q : Fin 256), j = ix2 p q := ⟨j 0, j 1, eq_ix2 j⟩
  show k0_pay2 (iblk0 V c 0 t) (iblk0 V c 1 t) (ix2 p q)
    = reluK (projK (V c main_arg1) (V c main_arg4)) (((cfg0.win 4).blk t).view.emb (ix2 p q))
  rw [emb0_4 t p q]
  refine (pay_relu (iblk0 V c 0 t) (iblk0 V c 1 t) p q).trans ?_
  exact congrArg (fun s => max s (Ideal.ofBits .f32 0x00000000#32)) (sum0 V c t p q _ _ (in0_0 V c t p) (fun k => in0_1 V c t k q))

/-- What point `t` writes back through window 5 is its block of the weighted rectified projection. -/
theorem flushed0_5 (c : Dev nD) (t : Fin cfg0.N) :
    (dat0 V c).flushed 5 t
      = ((cfg0.win 5).blk t).view.read (Elt Ideal)
          (scaleRows (reluK (projK (V c main_arg1) (V c main_arg4))) (V c main_v0)) := by
  show (cfg0.win 5).cut (grid0.coords t) ((dat0 V c).after 5 t) = _
  rw [after0_5]
  unfold out0_5
  rw [View.canon_unit_zero hz]
  simp only [View.ld_unit_zero (S := S2000x147) hz, View.ld_unit_zero (S := S147x256) hz, View.ld_unit_zero (S := S2000x1) hz]
  funext j
  obtain ⟨p, q, rfl⟩ : ∃ (p : Fin 2000) (q : Fin 256), j = ix2 p q := ⟨j 0, j 1, eq_ix2 j⟩
  show k0_pay3 (iblk0 V c 0 t) (iblk0 V c 1 t) (iblk0 V c 2 t) (ix2 p q)
    = scaleRows (reluK (projK (V c main_arg1) (V c main_arg4))) (V c main_v0) (((cfg0.win 5).blk t).view.emb (ix2 p q))
  rw [emb0_5 t p q]
  refine (pay_wrelu (iblk0 V c 0 t) (iblk0 V c 1 t) (iblk0 V c 2 t) p q).trans ?_
  rw [in0_2 V c t p]
  exact congrArg (fun s => max s (Ideal.ofBits .f32 0x00000000#32) * V c main_v0 (ix2 (row0 t p) (0 : Fin 1))) (sum0 V c t p q _ _ (in0_0 V c t p) (fun k => in0_1 V c t k q))

/-- An index of a 250000×256 array lies in the block that holds its row. -/
theorem blockOf0 (i : S250000x256.Idx) : (i 0).val / 2000 < cfg0.N := by
  have hi : (i 0).val < 250000 := (i 0).isLt; have h : cfg0.N = 125 := N_0; rw [h]; omega

theorem cover0_3' (i : S250000x256.Idx) :
    ∃ t : Fin cfg0.N, (cfg0.win 3).flush t = true ∧ i ∈ ((cfg0.win 3).blk t).view.set := by
  have hi0 : (i 0).val < 250000 := (i 0).isLt
  have hi1 : (i 1).val < 256 := (i 1).isLt
  refine ⟨⟨(i 0).val / 2000, blockOf0 i⟩, flush0_3 _, ?_⟩
  obtain ⟨-, -, -, -, -, -, e0, e1, -⟩ := idx0 ⟨(i 0).val / 2000, blockOf0 i⟩
  show i ∈ ((View.whole main_v2_0).slice (win0_3.rect ⟨(i 0).val / 2000, blockOf0 i⟩)).set
  rw [View.set_slice_whole, Rect.mem_set_unit]
  intro a
  match a with
  | ⟨0, _⟩ =>
    show win0_3.index ⟨(i 0).val / 2000, blockOf0 i⟩ (0 : Fin 2) * 2000 ≤ (i 0).val
      ∧ (i 0).val < win0_3.index ⟨(i 0).val / 2000, blockOf0 i⟩ (0 : Fin 2) * 2000 + 2000
    rw [e0]; show (i 0).val / 2000 * 2000 ≤ (i 0).val ∧ (i 0).val < (i 0).val / 2000 * 2000 + 2000; omega
  | ⟨1, _⟩ =>
    show win0_3.index ⟨(i 0).val / 2000, blockOf0 i⟩ (1 : Fin 2) * 256 ≤ (i 1).val
      ∧ (i 1).val < win0_3.index ⟨(i 0).val / 2000, blockOf0 i⟩ (1 : Fin 2) * 256 + 256
    rw [e1]; omega

theorem cover0_4' (i : S250000x256.Idx) :
    ∃ t : Fin cfg0.N, (cfg0.win 4).flush t = true ∧ i ∈ ((cfg0.win 4).blk t).view.set := by
  have hi0 : (i 0).val < 250000 := (i 0).isLt
  have hi1 : (i 1).val < 256 := (i 1).isLt
  refine ⟨⟨(i 0).val / 2000, blockOf0 i⟩, flush0_4 _, ?_⟩
  obtain ⟨-, -, -, -, -, -, -, -, e0, e1, -⟩ := idx0 ⟨(i 0).val / 2000, blockOf0 i⟩
  show i ∈ ((View.whole main_v2_1).slice (win0_4.rect ⟨(i 0).val / 2000, blockOf0 i⟩)).set
  rw [View.set_slice_whole, Rect.mem_set_unit]
  intro a
  match a with
  | ⟨0, _⟩ =>
    show win0_4.index ⟨(i 0).val / 2000, blockOf0 i⟩ (0 : Fin 2) * 2000 ≤ (i 0).val
      ∧ (i 0).val < win0_4.index ⟨(i 0).val / 2000, blockOf0 i⟩ (0 : Fin 2) * 2000 + 2000
    rw [e0]; show (i 0).val / 2000 * 2000 ≤ (i 0).val ∧ (i 0).val < (i 0).val / 2000 * 2000 + 2000; omega
  | ⟨1, _⟩ =>
    show win0_4.index ⟨(i 0).val / 2000, blockOf0 i⟩ (1 : Fin 2) * 256 ≤ (i 1).val
      ∧ (i 1).val < win0_4.index ⟨(i 0).val / 2000, blockOf0 i⟩ (1 : Fin 2) * 256 + 256
    rw [e1]; omega

theorem cover0_5' (i : S250000x256.Idx) :
    ∃ t : Fin cfg0.N, (cfg0.win 5).flush t = true ∧ i ∈ ((cfg0.win 5).blk t).view.set := by
  have hi0 : (i 0).val < 250000 := (i 0).isLt
  have hi1 : (i 1).val < 256 := (i 1).isLt
  refine ⟨⟨(i 0).val / 2000, blockOf0 i⟩, flush0_5 _, ?_⟩
  obtain ⟨-, -, -, -, -, -, -, -, -, -, e0, e1⟩ := idx0 ⟨(i 0).val / 2000, blockOf0 i⟩
  show i ∈ ((View.whole main_v2_2).slice (win0_5.rect ⟨(i 0).val / 2000, blockOf0 i⟩)).set
  rw [View.set_slice_whole, Rect.mem_set_unit]
  intro a
  match a with
  | ⟨0, _⟩ =>
    show win0_5.index ⟨(i 0).val / 2000, blockOf0 i⟩ (0 : Fin 2) * 2000 ≤ (i 0).val
      ∧ (i 0).val < win0_5.index ⟨(i 0).val / 2000, blockOf0 i⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, blockOf0 i⟩ (1 : Fin 2) * 256 ≤ (i 1).val
      ∧ (i 1).val < win0_5.index ⟨(i 0).val / 2000, blockOf0 i⟩ (1 : Fin 2) * 256 + 256
    rw [e1]; omega

/-- THE PRE-ACTIVATION ARRAY after the region: the bond projection of the arrays the region finds. -/
theorem arr0_3 (c : Dev nD) : (dat0 V c).arrAt 3 cfg0.N = projK (V c main_arg1) (V c main_arg4) :=
  (dat0 V c).arrAt_eq_of_cover 3 _ (fun t _ => flushed0_3 V c t) cover0_3'

/-- THE MESSAGE ARRAY after the region: the rectified projection. -/
theorem arr0_4 (c : Dev nD) : (dat0 V c).arrAt 4 cfg0.N = reluK (projK (V c main_arg1) (V c main_arg4)) :=
  (dat0 V c).arrAt_eq_of_cover 4 _ (fun t _ => flushed0_4 V c t) cover0_4'

/-- THE WEIGHTED MESSAGE ARRAY after the region: each rectified row times its bond's weight. -/
theorem arr0_5 (c : Dev nD) :
    (dat0 V c).arrAt 5 cfg0.N = scaleRows (reluK (projK (V c main_arg1) (V c main_arg4))) (V c main_v0) :=
  (dat0 V c).arrAt_eq_of_cover 5 _ (fun t _ => flushed0_5 V c t) cover0_5'

end Cert.KernelIdeal.Blocks

end
-- ==== Proof.Region1.lean ====
/-
  The first message update's two output arrays after its run, as whole-array functions of the arrays the region finds.

  The grid has 125 points; point `t` stages rows `2000 t … 2000 t + 1999` of the directed messages, of the input
  projection and of the bond-weight column, the whole hidden weight matrix, and writes back the same rows of the two
  outputs: the rectified sum of the projection's row and the directed messages' row against the hidden weights, and
  that row times the bond's weight. The 125 row blocks tile the 250000 rows.
-/
import proofs.«167222_j83202106458599_2_alg».proof.Proof.Region0

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block `(t, 0)`, the weights at `(0, 0)`. -/
theorem idx1 : ∀ t : Fin cfg1.N,
    win1_0.index t (0 : Fin 2) = t.val ∧ win1_0.index t (1 : Fin 2) = 0 ∧
    win1_1.index t (0 : Fin 2) = t.val ∧ win1_1.index t (1 : Fin 2) = 0 ∧
    win1_2.index t (0 : Fin 2) = 0 ∧ win1_2.index t (1 : Fin 2) = 0 ∧
    win1_3.index t (0 : Fin 2) = t.val ∧ win1_3.index t (1 : Fin 2) = 0 ∧
    win1_4.index t (0 : Fin 2) = t.val ∧ win1_4.index t (1 : Fin 2) = 0 ∧
    win1_5.index t (0 : Fin 2) = t.val ∧ win1_5.index t (1 : Fin 2) = 0 :=
  (by decide +kernel : ∀ t : Fin grid1.N, _)

/-- Row `p` of point `t`'s block is row `2000 t + p` of the array. -/
def row1 (t : Fin cfg1.N) (p : Fin 2000) : Fin 250000 :=
  ⟨t.val * 2000 + p.val, by have := t.isLt; have := p.isLt; have h : cfg1.N = 125 := N_1; omega⟩

/-- The directed-message block at `(p, k)` is the array at row `2000 t + p`. -/
theorem in1_0 (c : Dev nD) (t : Fin cfg1.N) (p : Fin 2000) (k : Fin 256) :
    iblk1 V c 0 t (ix2 p k) = V c main_v27 (ix2 (row1 t p) k) := by
  obtain ⟨e0, e1, -⟩ := idx1 t
  show V c main_v27 (((cfg1.win 0).blk t).view.emb (ix2 p k)) = _
  refine congrArg (V c main_v27) (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

/-- The input-projection block at `(p, q)` is the array at row `2000 t + p`. -/
theorem in1_1 (c : Dev nD) (t : Fin cfg1.N) (p : Fin 2000) (q : Fin 256) :
    iblk1 V c 1 t (ix2 p q) = V c main_v2_0 (ix2 (row1 t p) q) := by
  obtain ⟨-, -, e0, e1, -⟩ := idx1 t
  show V c main_v2_0 (((cfg1.win 1).blk t).view.emb (ix2 p q)) = _
  refine congrArg (V c main_v2_0) (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * q.val = q.val; omega

/-- The weight block is the whole hidden weight array. -/
theorem in1_2 (c : Dev nD) (t : Fin cfg1.N) (k : Fin 256) (q : Fin 256) :
    iblk1 V c 2 t (ix2 k q) = V c main_arg5 (ix2 k q) := by
  obtain ⟨-, -, -, -, e0, e1, -⟩ := idx1 t
  show V c main_arg5 (((cfg1.win 2).blk t).view.emb (ix2 k q)) = _
  refine congrArg (V c main_arg5) (funext fun a => Fin.ext ?_)
  match a with
  | ⟨0, _⟩ => show win1_2.index t (0 : Fin 2) * 256 + 1 * k.val = k.val; omega
  | ⟨1, _⟩ => show win1_2.index t (1 : Fin 2) * 256 + 1 * q.val = q.val; omega

/-- The bond-weight block at `(p, 0)` is the weight column at row `2000 t + p`. -/
theorem in1_3 (c : Dev nD) (t : Fin cfg1.N) (p : Fin 2000) :
    iblk1 V c 3 t (ix2 p (0 : Fin 1)) = V c main_v0 (ix2 (row1 t p) (0 : Fin 1)) := by
  obtain ⟨-, -, -, -, -, -, e0, e1, -⟩ := idx1 t
  show V c main_v0 (((cfg1.win 3).blk t).view.emb (ix2 p (0 : Fin 1))) = _
  refine congrArg (V c main_v0) (funext fun a => Fin.ext ?_)
  match a with
  | ⟨0, _⟩ => show win1_3.index t (0 : Fin 2) * 2000 + 1 * p.val = t.val * 2000 + p.val; omega
  | ⟨1, _⟩ => show win1_3.index t (1 : Fin 2) * 1 + 1 * 0 = 0; omega

/-- An updated entry from its three ingredients: the projection's entry, the directed messages' row and the
    weights' column, each read where the block holds them. -/
theorem val1 (A inp : (⟨2, ![250000, 256]⟩ : Shape).Idx → EReal) (wh : (⟨2, ![256, 256]⟩ : Shape).Idx → EReal)
    (r : Fin 250000) (p : Fin 2000) (q : Fin 256)
    (x0 : Vec Ideal S2000x256 .f32) (x3 : Vec Ideal S256x256 .f32) (x6 : Vec Ideal S2000x256 .f32)
    (h0 : ∀ k : Fin 256, x0 (ix2 p k) = A (ix2 r k))
    (h3 : ∀ k : Fin 256, x3 (ix2 k q) = wh (ix2 k q))
    (h6 : x6 (ix2 p q) = inp (ix2 r q)) :
    max (x6 (ix2 p q) + ∑ k : Fin 256, x0 (ix2 p k) * x3 (ix2 k q)) (Ideal.ofBits .f32 0x00000000#32)
      = updK A inp wh (ix2 r q) := by
  unfold updK
  rw [h6]
  exact congrArg (fun s => max (inp (ix2 r q) + s) (Ideal.ofBits .f32 0x00000000#32))
    (Finset.sum_congr rfl fun k _ => by rw [h0 k, h3 k])

/-- Position `(p, q)` of an output window's block at point `t` is `(2000 t + p, q)` of its array. -/
theorem emb1_4 (t : Fin cfg1.N) (p : Fin 2000) (q : Fin 256) :
    ((cfg1.win 4).blk t).view.emb (ix2 p q) = ix2 (row1 t p) q := by
  obtain ⟨-, -, -, -, -, -, -, -, e0, e1, -⟩ := idx1 t
  refine funext fun a => Fin.ext ?_
  match a with
  | ⟨0, _⟩ => show win1_4.index t (0 : Fin 2) * 2000 + 1 * p.val = t.val * 2000 + p.val; omega
  | ⟨1, _⟩ => show win1_4.index t (1 : Fin 2) * 256 + 1 * q.val = q.val; omega
theorem emb1_5 (t : Fin cfg1.N) (p : Fin 2000) (q : Fin 256) :
    ((cfg1.win 5).blk t).view.emb (ix2 p q) = ix2 (row1 t p) q := by
  obtain ⟨-, -, -, -, -, -, -, -, -, -, e0, e1⟩ := idx1 t
  refine funext fun a => Fin.ext ?_
  match a with
  | ⟨0, _⟩ => show win1_5.index t (0 : Fin 2) * 2000 + 1 * p.val = t.val * 2000 + p.val; omega
  | ⟨1, _⟩ => show win1_5.index t (1 : Fin 2) * 256 + 1 * q.val = q.val; omega

/-- What point `t` writes back through window 4 is its block of the updated messages. -/
theorem flushed1_4 (c : Dev nD) (t : Fin cfg1.N) :
    (dat1 V c).flushed 4 t
      = ((cfg1.win 4).blk t).view.read (Elt Ideal) (updK (V c main_v27) (V c main_v2_0) (V c main_arg5)) := by
  show (cfg1.win 4).cut (grid1.coords t) ((dat1 V c).after 4 t) = _
  rw [after1_4]
  unfold out1_4
  rw [View.canon_unit_zero hz]
  simp only [View.ld_unit_zero (S := S2000x256) hz, View.ld_unit_zero (S := S256x256) hz]
  funext j
  obtain ⟨p, q, rfl⟩ : ∃ (p : Fin 2000) (q : Fin 256), j = ix2 p q := ⟨j 0, j 1, eq_ix2 j⟩
  show k1_pay1 (iblk1 V c 0 t) (iblk1 V c 2 t) (iblk1 V c 1 t) (ix2 p q)
    = updK (V c main_v27) (V c main_v2_0) (V c main_arg5) (((cfg1.win 4).blk t).view.emb (ix2 p q))
  rw [emb1_4 t p q]
  exact (pay_upd1 (iblk1 V c 0 t) (iblk1 V c 2 t) (iblk1 V c 1 t) p q).trans
    (val1 (V c main_v27) (V c main_v2_0) (V c main_arg5) (row1 t p) p q _ _ _ (in1_0 V c t p) (fun k => in1_2 V c t k q) (in1_1 V c t p q))

/-- What point `t` writes back through window 5 is its block of the weighted updated messages. -/
theorem flushed1_5 (c : Dev nD) (t : Fin cfg1.N) :
    (dat1 V c).flushed 5 t
      = ((cfg1.win 5).blk t).view.read (Elt Ideal)
          (scaleRows (updK (V c main_v27) (V c main_v2_0) (V c main_arg5)) (V c main_v0)) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S2000x1) hz]
  funext j
  obtain ⟨p, q, rfl⟩ : ∃ (p : Fin 2000) (q : Fin 256), j = ix2 p q := ⟨j 0, j 1, eq_ix2 j⟩
  show k1_pay2 (iblk1 V c 0 t) (iblk1 V c 2 t) (iblk1 V c 1 t) (iblk1 V c 3 t) (ix2 p q)
    = scaleRows (updK (V c main_v27) (V c main_v2_0) (V c main_arg5)) (V c main_v0) (((cfg1.win 5).blk t).view.emb (ix2 p q))
  rw [emb1_5 t p q]
  refine (pay_wupd1 (iblk1 V c 0 t) (iblk1 V c 2 t) (iblk1 V c 1 t) (iblk1 V c 3 t) p q).trans ?_
  rw [in1_3 V c t p]
  exact congrArg (fun s => s * V c main_v0 (ix2 (row1 t p) (0 : Fin 1)))
    (val1 (V c main_v27) (V c main_v2_0) (V c main_arg5) (row1 t p) p q _ _ _ (in1_0 V c t p) (fun k => in1_2 V c t k q) (in1_1 V c t p q))

/-- An index of a 250000×256 array lies in the block that holds its row. -/
theorem blockOf1 (i : S250000x256.Idx) : (i 0).val / 2000 < cfg1.N := by
  have hi : (i 0).val < 250000 := (i 0).isLt; have h : cfg1.N = 125 := N_1; rw [h]; omega

theorem cover1_4' (i : S250000x256.Idx) :
    ∃ t : Fin cfg1.N, (cfg1.win 4).flush t = true ∧ i ∈ ((cfg1.win 4).blk t).view.set := by
  have hi0 : (i 0).val < 250000 := (i 0).isLt
  have hi1 : (i 1).val < 256 := (i 1).isLt
  refine ⟨⟨(i 0).val / 2000, blockOf1 i⟩, flush1_4 _, ?_⟩
  obtain ⟨-, -, -, -, -, -, -, -, e0, e1, -⟩ := idx1 ⟨(i 0).val / 2000, blockOf1 i⟩
  show i ∈ ((View.whole main_v28_0).slice (win1_4.rect ⟨(i 0).val / 2000, blockOf1 i⟩)).set
  rw [View.set_slice_whole, Rect.mem_set_unit]
  intro a
  match a with
  | ⟨0, _⟩ =>
    show win1_4.index ⟨(i 0).val / 2000, blockOf1 i⟩ (0 : Fin 2) * 2000 ≤ (i 0).val
      ∧ (i 0).val < win1_4.index ⟨(i 0).val / 2000, blockOf1 i⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, blockOf1 i⟩ (1 : Fin 2) * 256 ≤ (i 1).val
      ∧ (i 1).val < win1_4.index ⟨(i 0).val / 2000, blockOf1 i⟩ (1 : Fin 2) * 256 + 256
    rw [e1]; omega

theorem cover1_5' (i : S250000x256.Idx) :
    ∃ t : Fin cfg1.N, (cfg1.win 5).flush t = true ∧ i ∈ ((cfg1.win 5).blk t).view.set := by
  have hi0 : (i 0).val < 250000 := (i 0).isLt
  have hi1 : (i 1).val < 256 := (i 1).isLt
  refine ⟨⟨(i 0).val / 2000, blockOf1 i⟩, flush1_5 _, ?_⟩
  obtain ⟨-, -, -, -, -, -, -, -, -, -, e0, e1⟩ := idx1 ⟨(i 0).val / 2000, blockOf1 i⟩
  show i ∈ ((View.whole main_v28_1).slice (win1_5.rect ⟨(i 0).val / 2000, blockOf1 i⟩)).set
  rw [View.set_slice_whole, Rect.mem_set_unit]
  intro a
  match a with
  | ⟨0, _⟩ =>
    show win1_5.index ⟨(i 0).val / 2000, blockOf1 i⟩ (0 : Fin 2) * 2000 ≤ (i 0).val
      ∧ (i 0).val < win1_5.index ⟨(i 0).val / 2000, blockOf1 i⟩ (0 : Fin 2) * 2000 + 2000
    rw [e0]; show (i 0).val / 2000 * 2000 ≤ (i 0).val ∧ (i 0).val < (i 0).val / 2000 * 2000 + 2000; omega
  | ⟨1, _⟩ =>
    show win1_5.index ⟨(i 0).val / 2000, blockOf1 i⟩ (1 : Fin 2) * 256 ≤ (i 1).val
      ∧ (i 1).val < win1_5.index ⟨(i 0).val / 2000, blockOf1 i⟩ (1 : Fin 2) * 256 + 256
    rw [e1]; omega

/-- THE MESSAGE ARRAY after the region: the recurrent update of the arrays the region finds. -/
theorem arr1_4 (c : Dev nD) :
    (dat1 V c).arrAt 4 cfg1.N = updK (V c main_v27) (V c main_v2_0) (V c main_arg5) :=
  (dat1 V c).arrAt_eq_of_cover 4 _ (fun t _ => flushed1_4 V c t) cover1_4'

/-- THE WEIGHTED MESSAGE ARRAY after the region: each updated row times its bond's weight. -/
theorem arr1_5 (c : Dev nD) :
    (dat1 V c).arrAt 5 cfg1.N
      = scaleRows (updK (V c main_v27) (V c main_v2_0) (V c main_arg5)) (V c main_v0) :=
  (dat1 V c).arrAt_eq_of_cover 5 _ (fun t _ => flushed1_5 V c t) cover1_5'

end Cert.KernelIdeal.Blocks

end
-- ==== Proof.Region2.lean ====
/-
  The second message update's two output arrays after its run, as whole-array functions of the arrays the region finds.

  The grid has 125 points; point `t` stages rows `2000 t … 2000 t + 1999` of the directed messages, of the input
  projection and of the bond-weight column, the whole hidden weight matrix, and writes back the same rows of the two
  outputs: the rectified sum of the projection's row and the directed messages' row against the hidden weights, and
  that row times the bond's weight. The 125 row blocks tile the 250000 rows.
-/
import proofs.«167222_j83202106458599_2_alg».proof.Proof.Region0

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block `(t, 0)`, the weights at `(0, 0)`. -/
theorem idx2 : ∀ t : Fin cfg2.N,
    win2_0.index t (0 : Fin 2) = t.val ∧ win2_0.index t (1 : Fin 2) = 0 ∧
    win2_1.index t (0 : Fin 2) = t.val ∧ win2_1.index t (1 : Fin 2) = 0 ∧
    win2_2.index t (0 : Fin 2) = 0 ∧ win2_2.index t (1 : Fin 2) = 0 ∧
    win2_3.index t (0 : Fin 2) = t.val ∧ win2_3.index t (1 : Fin 2) = 0 ∧
    win2_4.index t (0 : Fin 2) = t.val ∧ win2_4.index t (1 : Fin 2) = 0 ∧
    win2_5.index t (0 : Fin 2) = t.val ∧ win2_5.index t (1 : Fin 2) = 0 :=
  (by decide +kernel : ∀ t : Fin grid2.N, _)

/-- Row `p` of point `t`'s block is row `2000 t + p` of the array. -/
def row2 (t : Fin cfg2.N) (p : Fin 2000) : Fin 250000 :=
  ⟨t.val * 2000 + p.val, by have := t.isLt; have := p.isLt; have h : cfg2.N = 125 := N_2; omega⟩

/-- The directed-message block at `(p, k)` is the array at row `2000 t + p`. -/
theorem in2_0 (c : Dev nD) (t : Fin cfg2.N) (p : Fin 2000) (k : Fin 256) :
    iblk2 V c 0 t (ix2 p k) = V c main_v51 (ix2 (row2 t p) k) := by
  obtain ⟨e0, e1, -⟩ := idx2 t
  show V c main_v51 (((cfg2.win 0).blk t).view.emb (ix2 p k)) = _
  refine congrArg (V c main_v51) (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

/-- The input-projection block at `(p, q)` is the array at row `2000 t + p`. -/
theorem in2_1 (c : Dev nD) (t : Fin cfg2.N) (p : Fin 2000) (q : Fin 256) :
    iblk2 V c 1 t (ix2 p q) = V c main_v2_0 (ix2 (row2 t p) q) := by
  obtain ⟨-, -, e0, e1, -⟩ := idx2 t
  show V c main_v2_0 (((cfg2.win 1).blk t).view.emb (ix2 p q)) = _
  refine congrArg (V c main_v2_0) (funext fun a => Fin.ext ?_)
  match a with
  | ⟨0, _⟩ => show win2_1.index t (0 : Fin 2) * 2000 + 1 * p.val = t.val * 2000 + p.val; omega
  | ⟨1, _⟩ => show win2_1.index t (1 : Fin 2) * 256 + 1 * q.val = q.val; omega

/-- The weight block is the whole hidden weight array. -/
theorem in2_2 (c : Dev nD) (t : Fin cfg2.N) (k : Fin 256) (q : Fin 256) :
    iblk2 V c 2 t (ix2 k q) = V c main_arg5 (ix2 k q) := by
  obtain ⟨-, -, -, -, e0, e1, -⟩ := idx2 t
  show V c main_arg5 (((cfg2.win 2).blk t).view.emb (ix2 k q)) = _
  refine congrArg (V c main_arg5) (funext fun a => Fin.ext ?_)
  match a with
  | ⟨0, _⟩ => show win2_2.index t (0 : Fin 2) * 256 + 1 * k.val = k.val; omega
  | ⟨1, _⟩ => show win2_2.index t (1 : Fin 2) * 256 + 1 * q.val = q.val; omega

/-- The bond-weight block at `(p, 0)` is the weight column at row `2000 t + p`. -/
theorem in2_3 (c : Dev nD) (t : Fin cfg2.N) (p : Fin 2000) :
    iblk2 V c 3 t (ix2 p (0 : Fin 1)) = V c main_v0 (ix2 (row2 t p) (0 : Fin 1)) := by
  obtain ⟨-, -, -, -, -, -, e0, e1, -⟩ := idx2 t
  show V c main_v0 (((cfg2.win 3).blk t).view.emb (ix2 p (0 : Fin 1))) = _
  refine congrArg (V c main_v0) (funext fun a => Fin.ext ?_)
  match a with
  | ⟨0, _⟩ => show win2_3.index t (0 : Fin 2) * 2000 + 1 * p.val = t.val * 2000 + p.val; omega
  | ⟨1, _⟩ => show win2_3.index t (1 : Fin 2) * 1 + 1 * 0 = 0; omega

/-- An updated entry from its three ingredients: the projection's entry, the directed messages' row and the
    weights' column, each read where the block holds them. -/
theorem val2 (A inp : (⟨2, ![250000, 256]⟩ : Shape).Idx → EReal) (wh : (⟨2, ![256, 256]⟩ : Shape).Idx → EReal)
    (r : Fin 250000) (p : Fin 2000) (q : Fin 256)
    (x0 : Vec Ideal S2000x256 .f32) (x3 : Vec Ideal S256x256 .f32) (x6 : Vec Ideal S2000x256 .f32)
    (h0 : ∀ k : Fin 256, x0 (ix2 p k) = A (ix2 r k))
    (h3 : ∀ k : Fin 256, x3 (ix2 k q) = wh (ix2 k q))
    (h6 : x6 (ix2 p q) = inp (ix2 r q)) :
    max (x6 (ix2 p q) + ∑ k : Fin 256, x0 (ix2 p k) * x3 (ix2 k q)) (Ideal.ofBits .f32 0x00000000#32)
      = updK A inp wh (ix2 r q) := by
  unfold updK
  rw [h6]
  exact congrArg (fun s => max (inp (ix2 r q) + s) (Ideal.ofBits .f32 0x00000000#32))
    (Finset.sum_congr rfl fun k _ => by rw [h0 k, h3 k])

/-- Position `(p, q)` of an output window's block at point `t` is `(2000 t + p, q)` of its array. -/
theorem emb2_4 (t : Fin cfg2.N) (p : Fin 2000) (q : Fin 256) :
    ((cfg2.win 4).blk t).view.emb (ix2 p q) = ix2 (row2 t p) q := by
  obtain ⟨-, -, -, -, -, -, -, -, e0, e1, -⟩ := idx2 t
  refine funext fun a => Fin.ext ?_
  match a with
  | ⟨0, _⟩ => show win2_4.index t (0 : Fin 2) * 2000 + 1 * p.val = t.val * 2000 + p.val; omega
  | ⟨1, _⟩ => show win2_4.index t (1 : Fin 2) * 256 + 1 * q.val = q.val; omega
theorem emb2_5 (t : Fin cfg2.N) (p : Fin 2000) (q : Fin 256) :
    ((cfg2.win 5).blk t).view.emb (ix2 p q) = ix2 (row2 t p) q := by
  obtain ⟨-, -, -, -, -, -, -, -, -, -, e0, e1⟩ := idx2 t
  refine funext fun a => Fin.ext ?_
  match a with
  | ⟨0, _⟩ => show win2_5.index t (0 : Fin 2) * 2000 + 1 * p.val = t.val * 2000 + p.val; omega
  | ⟨1, _⟩ => show win2_5.index t (1 : Fin 2) * 256 + 1 * q.val = q.val; omega

/-- What point `t` writes back through window 4 is its block of the updated messages. -/
theorem flushed2_4 (c : Dev nD) (t : Fin cfg2.N) :
    (dat2 V c).flushed 4 t
      = ((cfg2.win 4).blk t).view.read (Elt Ideal) (updK (V c main_v51) (V c main_v2_0) (V c main_arg5)) := by
  show (cfg2.win 4).cut (grid2.coords t) ((dat2 V c).after 4 t) = _
  rw [after2_4]
  unfold out2_4
  rw [View.canon_unit_zero hz]
  simp only [View.ld_unit_zero (S := S2000x256) hz, View.ld_unit_zero (S := S256x256) hz]
  funext j
  obtain ⟨p, q, rfl⟩ : ∃ (p : Fin 2000) (q : Fin 256), j = ix2 p q := ⟨j 0, j 1, eq_ix2 j⟩
  show k2_pay1 (iblk2 V c 0 t) (iblk2 V c 2 t) (iblk2 V c 1 t) (ix2 p q)
    = updK (V c main_v51) (V c main_v2_0) (V c main_arg5) (((cfg2.win 4).blk t).view.emb (ix2 p q))
  rw [emb2_4 t p q]
  exact (pay_upd2 (iblk2 V c 0 t) (iblk2 V c 2 t) (iblk2 V c 1 t) p q).trans
    (val2 (V c main_v51) (V c main_v2_0) (V c main_arg5) (row2 t p) p q _ _ _ (in2_0 V c t p) (fun k => in2_2 V c t k q) (in2_1 V c t p q))

/-- What point `t` writes back through window 5 is its block of the weighted updated messages. -/
theorem flushed2_5 (c : Dev nD) (t : Fin cfg2.N) :
    (dat2 V c).flushed 5 t
      = ((cfg2.win 5).blk t).view.read (Elt Ideal)
          (scaleRows (updK (V c main_v51) (V c main_v2_0) (V c main_arg5)) (V c main_v0)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz, View.ld_unit_zero (S := S2000x1) hz]
  funext j
  obtain ⟨p, q, rfl⟩ : ∃ (p : Fin 2000) (q : Fin 256), j = ix2 p q := ⟨j 0, j 1, eq_ix2 j⟩
  show k2_pay2 (iblk2 V c 0 t) (iblk2 V c 2 t) (iblk2 V c 1 t) (iblk2 V c 3 t) (ix2 p q)
    = scaleRows (updK (V c main_v51) (V c main_v2_0) (V c main_arg5)) (V c main_v0) (((cfg2.win 5).blk t).view.emb (ix2 p q))
  rw [emb2_5 t p q]
  refine (pay_wupd2 (iblk2 V c 0 t) (iblk2 V c 2 t) (iblk2 V c 1 t) (iblk2 V c 3 t) p q).trans ?_
  rw [in2_3 V c t p]
  exact congrArg (fun s => s * V c main_v0 (ix2 (row2 t p) (0 : Fin 1)))
    (val2 (V c main_v51) (V c main_v2_0) (V c main_arg5) (row2 t p) p q _ _ _ (in2_0 V c t p) (fun k => in2_2 V c t k q) (in2_1 V c t p q))

/-- An index of a 250000×256 array lies in the block that holds its row. -/
theorem blockOf2 (i : S250000x256.Idx) : (i 0).val / 2000 < cfg2.N := by
  have hi : (i 0).val < 250000 := (i 0).isLt; have h : cfg2.N = 125 := N_2; rw [h]; omega

theorem cover2_4' (i : S250000x256.Idx) :
    ∃ t : Fin cfg2.N, (cfg2.win 4).flush t = true ∧ i ∈ ((cfg2.win 4).blk t).view.set := by
  have hi0 : (i 0).val < 250000 := (i 0).isLt
  have hi1 : (i 1).val < 256 := (i 1).isLt
  refine ⟨⟨(i 0).val / 2000, blockOf2 i⟩, flush2_4 _, ?_⟩
  obtain ⟨-, -, -, -, -, -, -, -, e0, e1, -⟩ := idx2 ⟨(i 0).val / 2000, blockOf2 i⟩
  show i ∈ ((View.whole main_v52_0).slice (win2_4.rect ⟨(i 0).val / 2000, blockOf2 i⟩)).set
  rw [View.set_slice_whole, Rect.mem_set_unit]
  intro a
  match a with
  | ⟨0, _⟩ =>
    show win2_4.index ⟨(i 0).val / 2000, blockOf2 i⟩ (0 : Fin 2) * 2000 ≤ (i 0).val
      ∧ (i 0).val < win2_4.index ⟨(i 0).val / 2000, blockOf2 i⟩ (0 : Fin 2) * 2000 + 2000
    rw [e0]; show (i 0).val / 2000 * 2000 ≤ (i 0).val ∧ (i 0).val < (i 0).val / 2000 * 2000 + 2000; omega
  | ⟨1, _⟩ =>
    show win2_4.index ⟨(i 0).val / 2000, blockOf2 i⟩ (1 : Fin 2) * 256 ≤ (i 1).val
      ∧ (i 1).val < win2_4.index ⟨(i 0).val / 2000, blockOf2 i⟩ (1 : Fin 2) * 256 + 256
    rw [e1]; omega

theorem cover2_5' (i : S250000x256.Idx) :
    ∃ t : Fin cfg2.N, (cfg2.win 5).flush t = true ∧ i ∈ ((cfg2.win 5).blk t).view.set := by
  have hi0 : (i 0).val < 250000 := (i 0).isLt
  have hi1 : (i 1).val < 256 := (i 1).isLt
  refine ⟨⟨(i 0).val / 2000, blockOf2 i⟩, flush2_5 _, ?_⟩
  obtain ⟨-, -, -, -, -, -, -, -, -, -, e0, e1⟩ := idx2 ⟨(i 0).val / 2000, blockOf2 i⟩
  show i ∈ ((View.whole main_v52_1).slice (win2_5.rect ⟨(i 0).val / 2000, blockOf2 i⟩)).set
  rw [View.set_slice_whole, Rect.mem_set_unit]
  intro a
  match a with
  | ⟨0, _⟩ =>
    show win2_5.index ⟨(i 0).val / 2000, blockOf2 i⟩ (0 : Fin 2) * 2000 ≤ (i 0).val
      ∧ (i 0).val < win2_5.index ⟨(i 0).val / 2000, blockOf2 i⟩ (0 : Fin 2) * 2000 + 2000
    rw [e0]; show (i 0).val / 2000 * 2000 ≤ (i 0).val ∧ (i 0).val < (i 0).val / 2000 * 2000 + 2000; omega
  | ⟨1, _⟩ =>
    show win2_5.index ⟨(i 0).val / 2000, blockOf2 i⟩ (1 : Fin 2) * 256 ≤ (i 1).val
      ∧ (i 1).val < win2_5.index ⟨(i 0).val / 2000, blockOf2 i⟩ (1 : Fin 2) * 256 + 256
    rw [e1]; omega

/-- THE MESSAGE ARRAY after the region: the recurrent update of the arrays the region finds. -/
theorem arr2_4 (c : Dev nD) :
    (dat2 V c).arrAt 4 cfg2.N = updK (V c main_v51) (V c main_v2_0) (V c main_arg5) :=
  (dat2 V c).arrAt_eq_of_cover 4 _ (fun t _ => flushed2_4 V c t) cover2_4'

/-- THE WEIGHTED MESSAGE ARRAY after the region: each updated row times its bond's weight. -/
theorem arr2_5 (c : Dev nD) :
    (dat2 V c).arrAt 5 cfg2.N
      = scaleRows (updK (V c main_v51) (V c main_v2_0) (V c main_arg5)) (V c main_v0) :=
  (dat2 V c).arrAt_eq_of_cover 5 _ (fun t _ => flushed2_5 V c t) cover2_5'

end Cert.KernelIdeal.Blocks

end
-- ==== Proof.Boundary.lean ====
/-
  The argument arrays and the buffers computed early, as later stages find them.

  No host operation and no region writes an argument array, and a buffer a host operation wrote is written by nothing
  after it; so at every later boundary of the run each of them still holds what it held when it was made: an argument
  its launch contents, a reshaped or sliced argument the reshape or slice of the launch contents.
-/
import proofs.«167222_j83202106458599_2_alg».proof.Proof.Gen.KernelIdeal.Frame
import Idealize.ShloMosaic.Lib.StableHlo.Run
import Idealize.ShloMosaic.PureOps.Ideal

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Entering the bond input layer -/
theorem W1_arg0 : W1 m ρ c (Proc.devRef .tc main_arg0) = m ((c : Thread nD τ).loc main_arg0) := by
  dsimp only [W1, hostOps0]; after_results_simp
theorem W1_arg1 : W1 m ρ c (Proc.devRef .tc main_arg1) = m ((c : Thread nD τ).loc main_arg1) := by
  dsimp only [W1, hostOps0]; after_results_simp
theorem W1_arg2 : W1 m ρ c (Proc.devRef .tc main_arg2) = m ((c : Thread nD τ).loc main_arg2) := by
  dsimp only [W1, hostOps0]; after_results_simp
theorem W1_arg4 : W1 m ρ c (Proc.devRef .tc main_arg4) = m ((c : Thread nD τ).loc main_arg4) := by
  dsimp only [W1, hostOps0]; after_results_simp
theorem W1_arg5 : W1 m ρ c (Proc.devRef .tc main_arg5) = m ((c : Thread nD τ).loc main_arg5) := by
  dsimp only [W1, hostOps0]; after_results_simp
theorem W1_arg6 : W1 m ρ c (Proc.devRef .tc main_arg6) = m ((c : Thread nD τ).loc main_arg6) := by
  dsimp only [W1, hostOps0]; after_results_simp
theorem W1_arg7 : W1 m ρ c (Proc.devRef .tc main_arg7) = m ((c : Thread nD τ).loc main_arg7) := by
  dsimp only [W1, hostOps0]; after_results_simp
theorem W1_arg8 : W1 m ρ c (Proc.devRef .tc main_arg8) = m ((c : Thread nD τ).loc main_arg8) := by
  dsimp only [W1, hostOps0]; after_results_simp
theorem W1_arg9 : W1 m ρ c (Proc.devRef .tc main_arg9) = m ((c : Thread nD τ).loc main_arg9) := by
  dsimp only [W1, hostOps0]; after_results_simp
theorem W1_arg10 : W1 m ρ c (Proc.devRef .tc main_arg10) = m ((c : Thread nD τ).loc main_arg10) := by
  dsimp only [W1, hostOps0]; after_results_simp
theorem W1_arg11 : W1 m ρ c (Proc.devRef .tc main_arg11) = m ((c : Thread nD τ).loc main_arg11) := by
  dsimp only [W1, hostOps0]; after_results_simp
theorem W1_arg12 : W1 m ρ c (Proc.devRef .tc main_arg12) = m ((c : Thread nD τ).loc main_arg12) := by
  dsimp only [W1, hostOps0]; after_results_simp

/-- The bond weights as a one-column array. -/
def bondCol : S250000x1.Idx → EReal := fun i => shapeCast S250000x1 (m ((c : Thread nD τ).loc main_arg3)) shapeCasts_S250000_S250000x1 i
/-- The atom weights as a one-column array. -/
def atomCol : S100000x1.Idx → EReal := fun i => shapeCast S100000x1 (m ((c : Thread nD τ).loc main_arg2)) shapeCasts_S100000_S100000x1 i

theorem W1_v0 : W1 m ρ c (Proc.devRef .tc main_v0) = bondCol m c := by
  dsimp only [W1, hostOps0]; after_results_simp; rfl
theorem W1_v1 : W1 m ρ c (Proc.devRef .tc main_v1) = atomCol m c := by
  dsimp only [W1, hostOps0]; after_results_simp; rfl

/-! ## Leaving the bond input layer -/
theorem W2_arg0 : W2 m ρ c (Proc.devRef .tc main_arg0) = m ((c : Thread nD τ).loc main_arg0) :=
  (W2_of_ne m ρ c main_arg0 (by decide)).trans (W1_arg0 m ρ c)
theorem W2_arg2 : W2 m ρ c (Proc.devRef .tc main_arg2) = m ((c : Thread nD τ).loc main_arg2) :=
  (W2_of_ne m ρ c main_arg2 (by decide)).trans (W1_arg2 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)
theorem W2_v0 : W2 m ρ c (Proc.devRef .tc main_v0) = bondCol m c :=
  (W2_arr m ρ c 2).trans (((dat0 (V1 m ρ) c).arrAt_in 2 rfl _).trans ((A_eq0 (V1 m ρ) c 2).trans (W1_v0 m ρ c)))
theorem W2_v1 : W2 m ρ c (Proc.devRef .tc main_v1) = atomCol m c :=
  (W2_of_ne m ρ c main_v1 (by decide)).trans (W1_v1 m ρ c)

/-! ## Entering the first update -/

/-- The first 133 rows of the output weights. -/
def outW1 : S133x256.Idx → EReal := extractStridedSlice S133x256 ![0, 0] (m ((c : Thread nD τ).loc main_arg6)) slices_S389x256_S133x256_0_0
/-- The last 256 rows of the output weights. -/
def outW2 : S256x256.Idx → EReal := extractStridedSlice S256x256 ![133, 0] (m ((c : Thread nD τ).loc main_arg6)) slices_S389x256_S256x256_133_0

theorem W3_v3 : W3 m ρ c (Proc.devRef .tc main_v3) = outW1 m c := by
  dsimp only [W3, hostOps1]; after_results_simp; rw [W2_arg6 m ρ c]; rfl
theorem W3_v4 : W3 m ρ c (Proc.devRef .tc main_v4) = outW2 m c := by
  dsimp only [W3, hostOps1]; after_results_simp; rw [W2_arg6 m ρ c]; rfl
theorem W3_arg0 : W3 m ρ c (Proc.devRef .tc main_arg0) = m ((c : Thread nD τ).loc main_arg0) := by
  dsimp only [W3, hostOps1]; after_results_simp; exact W2_arg0 m ρ c
theorem W3_arg2 : W3 m ρ c (Proc.devRef .tc main_arg2) = m ((c : Thread nD τ).loc main_arg2) := by
  dsimp only [W3, hostOps1]; after_results_simp; exact W2_arg2 m ρ c
theorem W3_arg5 : W3 m ρ c (Proc.devRef .tc main_arg5) = m ((c : Thread nD τ).loc main_arg5) := by
  dsimp only [W3, hostOps1]; after_results_simp; exact W2_arg5 m ρ c
theorem W3_arg7 : W3 m ρ c (Proc.devRef .tc main_arg7) = m ((c : Thread nD τ).loc main_arg7) := by
  dsimp only [W3, hostOps1]; after_results_simp; exact W2_arg7 m ρ c
theorem W3_arg8 : W3 m ρ c (Proc.devRef .tc main_arg8) = m ((c : Thread nD τ).loc main_arg8) := by
  dsimp only [W3, hostOps1]; after_results_simp; exact W2_arg8 m ρ c
theorem W3_arg9 : W3 m ρ c (Proc.devRef .tc main_arg9) = m ((c : Thread nD τ).loc main_arg9) := by
  dsimp only [W3, hostOps1]; after_results_simp; exact W2_arg9 m ρ c
theorem W3_arg10 : W3 m ρ c (Proc.devRef .tc main_arg10) = m ((c : Thread nD τ).loc main_arg10) := by
  dsimp only [W3, hostOps1]; after_results_simp; exact W2_arg10 m ρ c
theorem W3_arg11 : W3 m ρ c (Proc.devRef .tc main_arg11) = m ((c : Thread nD τ).loc main_arg11) := by
  dsimp only [W3, hostOps1]; after_results_simp; exact W2_arg11 m ρ c
theorem W3_arg12 : W3 m ρ c (Proc.devRef .tc main_arg12) = m ((c : Thread nD τ).loc main_arg12) := by
  dsimp only [W3, hostOps1]; after_results_simp; exact W2_arg12 m ρ c
theorem W3_v0 : W3 m ρ c (Proc.devRef .tc main_v0) = bondCol m c := by
  dsimp only [W3, hostOps1]; after_results_simp; exact W2_v0 m ρ c
theorem W3_v1 : W3 m ρ c (Proc.devRef .tc main_v1) = atomCol m c := by
  dsimp only [W3, hostOps1]; after_results_simp; exact W2_v1 m ρ c

/-! ## Leaving the first update -/
theorem W4_arg0 : W4 m ρ c (Proc.devRef .tc main_arg0) = m ((c : Thread nD τ).loc main_arg0) :=
  (W4_of_ne m ρ c main_arg0 (by decide)).trans (W3_arg0 m ρ c)
theorem W4_arg2 : W4 m ρ c (Proc.devRef .tc main_arg2) = m ((c : Thread nD τ).loc main_arg2) :=
  (W4_of_ne m ρ c main_arg2 (by decide)).trans (W3_arg2 m ρ c)
theorem W4_arg5 : W4 m ρ c (Proc.devRef .tc main_arg5) = m ((c : Thread nD τ).loc main_arg5) :=
  (W4_arr m ρ c 2).trans (((dat1 (V3 m ρ) c).arrAt_in 2 rfl _).trans ((A_eq1 (V3 m ρ) c 2).trans (W3_arg5 m ρ c)))
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)
theorem W4_arg10 : W4 m ρ c (Proc.devRef .tc main_arg10) = m ((c : Thread nD τ).loc main_arg10) :=
  (W4_of_ne m ρ c main_arg10 (by decide)).trans (W3_arg10 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)
theorem W4_v0 : W4 m ρ c (Proc.devRef .tc main_v0) = bondCol m c :=
  (W4_arr m ρ c 3).trans (((dat1 (V3 m ρ) c).arrAt_in 3 rfl _).trans ((A_eq1 (V3 m ρ) c 3).trans (W3_v0 m ρ c)))
theorem W4_v1 : W4 m ρ c (Proc.devRef .tc main_v1) = atomCol m c :=
  (W4_of_ne m ρ c main_v1 (by decide)).trans (W3_v1 m ρ c)
theorem W4_v3 : W4 m ρ c (Proc.devRef .tc main_v3) = outW1 m c :=
  (W4_of_ne m ρ c main_v3 (by decide)).trans (W3_v3 m ρ c)
theorem W4_v4 : W4 m ρ c (Proc.devRef .tc main_v4) = outW2 m c :=
  (W4_of_ne m ρ c main_v4 (by decide)).trans (W3_v4 m ρ c)

/-! ## Entering the second update -/
theorem W5_arg0 : W5 m ρ c (Proc.devRef .tc main_arg0) = m ((c : Thread nD τ).loc main_arg0) := by
  dsimp only [W5, hostOps2]; after_results_simp; exact W4_arg0 m ρ c
theorem W5_arg2 : W5 m ρ c (Proc.devRef .tc main_arg2) = m ((c : Thread nD τ).loc main_arg2) := by
  dsimp only [W5, hostOps2]; after_results_simp; exact W4_arg2 m ρ c
theorem W5_arg5 : W5 m ρ c (Proc.devRef .tc main_arg5) = m ((c : Thread nD τ).loc main_arg5) := by
  dsimp only [W5, hostOps2]; after_results_simp; exact W4_arg5 m ρ c
theorem W5_arg7 : W5 m ρ c (Proc.devRef .tc main_arg7) = m ((c : Thread nD τ).loc main_arg7) := by
  dsimp only [W5, hostOps2]; after_results_simp; exact W4_arg7 m ρ c
theorem W5_arg8 : W5 m ρ c (Proc.devRef .tc main_arg8) = m ((c : Thread nD τ).loc main_arg8) := by
  dsimp only [W5, hostOps2]; after_results_simp; exact W4_arg8 m ρ c
theorem W5_arg9 : W5 m ρ c (Proc.devRef .tc main_arg9) = m ((c : Thread nD τ).loc main_arg9) := by
  dsimp only [W5, hostOps2]; after_results_simp; exact W4_arg9 m ρ c
theorem W5_arg12 : W5 m ρ c (Proc.devRef .tc main_arg12) = m ((c : Thread nD τ).loc main_arg12) := by
  dsimp only [W5, hostOps2]; after_results_simp; exact W4_arg12 m ρ c
theorem W5_v0 : W5 m ρ c (Proc.devRef .tc main_v0) = bondCol m c := by
  dsimp only [W5, hostOps2]; after_results_simp; exact W4_v0 m ρ c
theorem W5_v1 : W5 m ρ c (Proc.devRef .tc main_v1) = atomCol m c := by
  dsimp only [W5, hostOps2]; after_results_simp; exact W4_v1 m ρ c
theorem W5_v3 : W5 m ρ c (Proc.devRef .tc main_v3) = outW1 m c := by
  dsimp only [W5, hostOps2]; after_results_simp; exact W4_v3 m ρ c
theorem W5_v4 : W5 m ρ c (Proc.devRef .tc main_v4) = outW2 m c := by
  dsimp only [W5, hostOps2]; after_results_simp; exact W4_v4 m ρ c

/-! ## Leaving the second update -/
theorem W6_arg0 : W6 m ρ c (Proc.devRef .tc main_arg0) = m ((c : Thread nD τ).loc main_arg0) :=
  (W6_of_ne m ρ c main_arg0 (by decide)).trans (W5_arg0 m ρ c)
theorem W6_arg2 : W6 m ρ c (Proc.devRef .tc main_arg2) = m ((c : Thread nD τ).loc main_arg2) :=
  (W6_of_ne m ρ c main_arg2 (by decide)).trans (W5_arg2 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)
theorem W6_arg9 : W6 m ρ c (Proc.devRef .tc main_arg9) = m ((c : Thread nD τ).loc main_arg9) :=
  (W6_of_ne m ρ c main_arg9 (by decide)).trans (W5_arg9 m ρ c)
theorem W6_arg12 : W6 m ρ c (Proc.devRef .tc main_arg12) = m ((c : Thread nD τ).loc main_arg12) :=
  (W6_of_ne m ρ c main_arg12 (by decide)).trans (W5_arg12 m ρ c)
theorem W6_v1 : W6 m ρ c (Proc.devRef .tc main_v1) = atomCol m c :=
  (W6_of_ne m ρ c main_v1 (by decide)).trans (W5_v1 m ρ c)
theorem W6_v3 : W6 m ρ c (Proc.devRef .tc main_v3) = outW1 m c :=
  (W6_of_ne m ρ c main_v3 (by decide)).trans (W5_v3 m ρ c)
theorem W6_v4 : W6 m ρ c (Proc.devRef .tc main_v4) = outW2 m c :=
  (W6_of_ne m ρ c main_v4 (by decide)).trans (W5_v4 m ρ c)

/-! ## Entering the readout -/
theorem W7_arg0 : W7 m ρ c (Proc.devRef .tc main_arg0) = m ((c : Thread nD τ).loc main_arg0) := by
  dsimp only [W7, hostOps3]; after_results_simp; exact W6_arg0 m ρ c
theorem W7_arg2 : W7 m ρ c (Proc.devRef .tc main_arg2) = m ((c : Thread nD τ).loc main_arg2) := by
  dsimp only [W7, hostOps3]; after_results_simp; exact W6_arg2 m ρ c
theorem W7_arg8 : W7 m ρ c (Proc.devRef .tc main_arg8) = m ((c : Thread nD τ).loc main_arg8) := by
  dsimp only [W7, hostOps3]; after_results_simp; exact W6_arg8 m ρ c
theorem W7_arg12 : W7 m ρ c (Proc.devRef .tc main_arg12) = m ((c : Thread nD τ).loc main_arg12) := by
  dsimp only [W7, hostOps3]; after_results_simp; exact W6_arg12 m ρ c
theorem W7_v1 : W7 m ρ c (Proc.devRef .tc main_v1) = atomCol m c := by
  dsimp only [W7, hostOps3]; after_results_simp; exact W6_v1 m ρ c
theorem W7_v3 : W7 m ρ c (Proc.devRef .tc main_v3) = outW1 m c := by
  dsimp only [W7, hostOps3]; after_results_simp; exact W6_v3 m ρ c
theorem W7_v4 : W7 m ρ c (Proc.devRef .tc main_v4) = outW2 m c := by
  dsimp only [W7, hostOps3]; after_results_simp; exact W6_v4 m ρ c

/-- The bias as a one-row array. -/
def biasRow : S1x256.Idx → EReal := fun i => shapeCast S1x256 (m ((c : Thread nD τ).loc main_arg7)) shapeCasts_S256_S1x256 i
theorem W7_v61 : W7 m ρ c (Proc.devRef .tc main_v61) = biasRow m c := by
  dsimp only [W7, hostOps3]; after_results_simp; rw [W6_arg7 m ρ c]; rfl

/-! ## Leaving the readout -/
theorem W8_arg2 : W8 m ρ c (Proc.devRef .tc main_arg2) = m ((c : Thread nD τ).loc main_arg2) :=
  (W8_of_ne m ρ c main_arg2 (by decide)).trans (W7_arg2 m ρ c)
theorem W8_arg8 : W8 m ρ c (Proc.devRef .tc main_arg8) = m ((c : Thread nD τ).loc main_arg8) :=
  (W8_of_ne m ρ c main_arg8 (by decide)).trans (W7_arg8 m ρ c)
theorem W8_arg12 : W8 m ρ c (Proc.devRef .tc main_arg12) = m ((c : Thread nD τ).loc main_arg12) :=
  (W8_of_ne m ρ c main_arg12 (by decide)).trans (W7_arg12 m ρ c)

end Cert.KernelIdeal.Boundary

end
-- ==== Proof.LibGatherRows3.lean ====
/-
  LibGatherRows3 — rows of a two-axis table gathered at a two-axis array of row numbers, read at an index.

  `H[idx]` of a table `H : [N, K]` at an integer array `idx : [R, C]` lowers to a `stablehlo.gather` with offset_dims [2],
  collapsed_slice_dims [0], start_index_map [0], slice_sizes [1, K] and index_vector_dim 2 over the indices as
  `[R, C, 1]`. Result element `(a, b, k)` is `H` at row `idx[a, b, 0]` — read as a signed integer and clamped into
  `[0, N − 1]` — and column `k`. The row is the very entry that the gather of a one-axis table `w : [N]` at the same
  indices reads (`ValueIdx.gather_take_apply`), so a table whose row `r` is a row of `M` scaled by `w r` gathers to
  the gathered rows of `M` scaled by the gathered entries of `w`.
-/
import Idealize.ShloMosaic.Lib.ValueIdx

noncomputable section

namespace Idealize.ShloMosaic.ValueIdx

section Rows3
variable {α : Type}

/-- The dimension numbers of `H[idx]` for a table `[N, K]`, start indices `[R, C, 1]` and result `[R, C, K]`; their
    conditions `wf` are decided on a program's literal shapes. -/
abbrev rowsDims3 (N K R C : Nat)
    (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- The row number the gathers read for result position `(a, b)`: the start index `idx[a, b, 0]`, signed, clamped
    into `[0, N − 1]`. -/
def takeRow {N R C w : Nat} (hN : 0 < N) (idx : IVec ⟨3, ![R, C, 1]⟩ w) (a : Fin R) (b : Fin C) : Fin N :=
  ⟨min (idx (takeIdx (ix2 a b))).toInt.toNat (N - 1), by omega⟩

/-- The one-axis gather read at `(a, b)`: the table's entry at `takeRow`. -/
theorem gather_take_row {N R C w : Nat} (hN : 0 < N)
    (wf : GatherDims.WF ⟨1, ![N]⟩ ⟨3, ![R, C, 1]⟩ ⟨2, ![R, C]⟩ [] [0] [] [0] [] 2 ![1])
    (x : (⟨1, ![N]⟩ : Shape).Idx → α) (idx : IVec ⟨3, ![R, C, 1]⟩ w) (a : Fin R) (b : Fin C) :
    Host.gather (takeDims N R C wf) x idx (ix2 a b) = x (ix1 (takeRow hN idx a b)) :=
  gather_take_apply hN wf x idx (ix2 a b)

/-- THE ROW GATHER READ AT `(a, b, k)`: the table at row `takeRow` and column `k`. -/
theorem gather_rows3_apply {N K R C w : Nat} (hN : 0 < N)
    (wf : GatherDims.WF ⟨2, ![N, K]⟩ ⟨3, ![R, C, 1]⟩ ⟨3, ![R, C, K]⟩ [2] [0] [] [0] [] 2 ![1, K])
    (x : (⟨2, ![N, K]⟩ : Shape).Idx → α) (idx : IVec ⟨3, ![R, C, 1]⟩ w) (a : Fin R) (b : Fin C) (k : Fin K) :
    Host.gather (rowsDims3 N K R C wf) x idx (ix3 a b k) = x (ix2 (takeRow hN idx a b) k) := by
  have h0 : (rowsDims3 N K R C wf).start (ix3 a b k) idx (0 : Fin 2) + (rowsDims3 N K R C wf).batchCoord (ix3 a b k) (0 : Fin 2)
      + (rowsDims3 N K R C wf).offCoord (ix3 a b k) (0 : Fin 2) = (takeRow hN idx a b).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N K R C wf).startIndexMap from List.mem_singleton.mpr rfl)]
    have hsi : (rowsDims3 N K R C wf).siIdx (ix3 a b k) ⟨List.idxOf (0 : Fin 2) (rowsDims3 N K R C wf).startIndexMap,
        List.idxOf_lt_length_iff.2 (List.mem_singleton.mpr rfl)⟩ = takeIdx (ix2 a b) := by
      funext q; refine Fin.ext ?_
      match q with
      | ⟨0, _⟩ => rfl
      | ⟨1, _⟩ => rfl
      | ⟨2, _⟩ => rfl
    rw [hsi]
    rfl
  have h10 : (1 : Fin 2) ≠ 0 := fun h => Nat.one_ne_zero (congrArg Fin.val h)
  have h1 : (rowsDims3 N K R C wf).start (ix3 a b k) idx (1 : Fin 2) + (rowsDims3 N K R C wf).batchCoord (ix3 a b k) (1 : Fin 2)
      + (rowsDims3 N K R C wf).offCoord (ix3 a b k) (1 : Fin 2) = k.val := by
    have hm : (1 : Fin 2) ∉ (rowsDims3 N K R C wf).startIndexMap := fun h => h10 (List.mem_singleton.mp h)
    have hs : (rowsDims3 N K R C wf).start (ix3 a b k) idx (1 : Fin 2) = 0 := by
      unfold GatherDims.start; rw [dif_neg hm]
    have hk : (1 : Fin 2) ∈ (rowsDims3 N K R C wf).sKept :=
      (GatherDims.mem_sKept _ _).mpr ⟨fun h => h10 (List.mem_singleton.mp h), List.not_mem_nil⟩
    rw [hs, GatherDims.batchCoord_eq_zero _ _ _ List.not_mem_nil]
    unfold GatherDims.offCoord
    rw [dif_pos hk]
    simp only [Nat.zero_add, Nat.add_zero]
    rfl
  unfold Host.gather
  congr 1
  funext e
  refine Fin.ext ?_
  match e with
  | ⟨0, _⟩ => exact h0
  | ⟨1, _⟩ => exact h1

end Rows3

end Idealize.ShloMosaic.ValueIdx

end
-- ==== Proof.AggBridge.lean ====
/-
  The reference's weighted neighbour sum with its message table abstracted, and the lemma that gathering rows of a
  table already scaled row by row and summing the neighbours gives the same array.
-/
import proofs.«167222_j83202106458599_2_alg».proof.Proof.Gen.ReferenceIdeal.Read
import proofs.«167222_j83202106458599_2_alg».proof.Proof.LibGatherRows3

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo

/-- A table of 250000 rows of 256 reals. -/
abbrev T2 := (⟨S250000x256, .f32⟩ : BufTy).Contents (Elt Ideal)
/-- One real per table row. -/
abbrev T1 := (⟨S250000, .f32⟩ : BufTy).Contents (Elt Ideal)
/-- Six row numbers for each of 100000 nodes. -/
abbrev I9 := (⟨S100000x6, .i32⟩ : BufTy).Contents (Elt Ideal)

/-- The weighted neighbour sum: entry `(a, q)` is zero plus the sum over the six `k` of `M[r, q] * w[r]` at the clamped row number `r` of `x9[a, k]`. -/
def aggR (M : T2) (w : T1) (x9 : I9) : (⟨S100000x256, .f32⟩ : BufTy).Contents (Elt Ideal) :=
  Host.reduceAdd (F := Ideal) (φ := .f32)
    (mulf (Host.gather gather_S250000x256_S100000x6x1_S100000x6x256_2_0_n_n_0_2_1256 M (val_main_v7 (F := Ideal) x9))
      (broadcastInDim S100000x6x256 ![0, 1, 2] bcast_S100000x6x1_S100000x6x256_0_1_2
        (broadcastInDim S100000x6x1 ![0, 1] bcast_S100000x6_S100000x6x1_0_1
          (Host.gather gather_S250000_S100000x6x1_S100000x6_n_0_n_n_0_2_1 w (val_main_v14 (F := Ideal) x9)))))
    (val_main_cst (F := Ideal)) reducesTo_S100000x6x256_S100000x256_d1 h_S_

/-- The first round's aggregate is the weighted neighbour sum of the first message table. -/
theorem v19_eq (x1 : (⟨S250000x147, .f32⟩ : BufTy).Contents (Elt Ideal)) (x3 : T1)
    (x4 : (⟨S147x256, .f32⟩ : BufTy).Contents (Elt Ideal)) (x9 : I9) :
    val_main_v19 (F := Ideal) x1 x3 x4 x9 = aggR (val_main_v1 (F := Ideal) x1 x4) x3 x9 := rfl

/-- The second round's aggregate is the weighted neighbour sum of the second message table. -/
theorem v55_eq (x1 : (⟨S250000x147, .f32⟩ : BufTy).Contents (Elt Ideal)) (x3 : T1)
    (x4 : (⟨S147x256, .f32⟩ : BufTy).Contents (Elt Ideal)) (x5 : (⟨S256x256, .f32⟩ : BufTy).Contents (Elt Ideal)) (x9 : I9)
    (x10 x11 : (⟨S250000, .i32⟩ : BufTy).Contents (Elt Ideal)) :
    val_main_v55 (F := Ideal) x1 x3 x4 x5 x9 x10 x11 = aggR (val_main_v37 (F := Ideal) x1 x3 x4 x5 x9 x10 x11) x3 x9 := rfl

/-- The third round's aggregate is the weighted neighbour sum of the third message table. -/
theorem v91_eq (x1 : (⟨S250000x147, .f32⟩ : BufTy).Contents (Elt Ideal)) (x3 : T1)
    (x4 : (⟨S147x256, .f32⟩ : BufTy).Contents (Elt Ideal)) (x5 : (⟨S256x256, .f32⟩ : BufTy).Contents (Elt Ideal)) (x9 : I9)
    (x10 x11 : (⟨S250000, .i32⟩ : BufTy).Contents (Elt Ideal)) :
    val_main_v91 (F := Ideal) x1 x3 x4 x5 x9 x10 x11 = aggR (val_main_v73 (F := Ideal) x1 x3 x4 x5 x9 x10 x11) x3 x9 := rfl

/-- The sum over the six neighbours read at `(a, q)`: zero plus the sum over `k` of the operand at `(a, k, q)`. -/
theorem reduce6_apply (y : (⟨S100000x6x256, .f32⟩ : BufTy).Contents (Elt Ideal)) (i : S100000x256.Idx) :
    Host.reduceAdd (F := Ideal) (φ := .f32) y (val_main_cst (F := Ideal)) reducesTo_S100000x6x256_S100000x256_d1 h_S_ i
      = (val_main_cst (F := Ideal)) (Shape.Idx.first h_S_) + ∑ k : Fin 6, y (idx_main_v19 i k) := by
  simp only [Host.reduceAdd, Ideal.hostReduceAdd_def]
  rw [Ideal.hostReduceAdd_single reducesTo_S100000x6x256_S100000x256_d1 (by decide)]
  refine congrArg (_ + ·) (Finset.sum_congr rfl fun k _ => ?_)
  exact congrArg y (funext fun a => Fin.ext (by match a with | ⟨0, _⟩ => rfl | ⟨1, _⟩ => rfl | ⟨2, _⟩ => rfl))

/-- The position `(a, k, q)` the neighbour sum reads, by its coordinates. -/
theorem idx19_eq (i : S100000x256.Idx) (k : Fin 6) :
    idx_main_v19 i k = ValueIdx.ix3 (n0 := 100000) (n1 := 6) (n2 := 256) (i 0) k (i 1) :=
  funext fun a => by match a with | ⟨0, _⟩ => rfl | ⟨1, _⟩ => rfl | ⟨2, _⟩ => rfl

/-- Summing the six gathered rows of the pre-weighted table `Wm[r, q] = M[r, q] * w[r]` equals summing the gathered rows of `M` times the gathered entries of `w`: both gathers read the same row. -/
theorem agg_fused (M Wm : T2) (w : T1)
    (hW : ∀ (r : Fin 250000) (k : Fin 256), Wm (ValueIdx.ix2 r k) = M (ValueIdx.ix2 r k) * w (ValueIdx.ix1 r)) (x9 : I9) :
    Host.reduceAdd (F := Ideal) (φ := .f32) (Host.gather gather_S250000x256_S100000x6x1_S100000x6x256_2_0_n_n_0_2_1256 Wm (val_main_v7 (F := Ideal) x9))
      (val_main_cst (F := Ideal)) reducesTo_S100000x6x256_S100000x256_d1 h_S_ = aggR M w x9 := by
  funext i
  unfold aggR
  rw [reduce6_apply, reduce6_apply]
  refine congrArg (_ + ·) (Finset.sum_congr rfl fun k _ => ?_)
  have hN : 0 < 250000 := by decide
  -- the three-axis gathers of the two tables at (a, k, q)
  have hWm := ValueIdx.gather_rows3_apply hN gather_S250000x256_S100000x6x1_S100000x6x256_2_0_n_n_0_2_1256_wf
    Wm (val_main_v7 (F := Ideal) x9) (i 0) k (i 1)
  have hM := ValueIdx.gather_rows3_apply hN gather_S250000x256_S100000x6x1_S100000x6x256_2_0_n_n_0_2_1256_wf
    M (val_main_v7 (F := Ideal) x9) (i 0) k (i 1)
  -- the one-axis gather of the weights at (a, k)
  have hw := ValueIdx.gather_take_row hN gather_S250000_S100000x6x1_S100000x6_n_0_n_n_0_2_1_wf
    w (val_main_v7 (F := Ideal) x9) (i 0) k
  -- the weight factor, broadcast along the columns, reads the gathered weight at (a, k)
  have hb : val_main_v17 (F := Ideal) w x9 (idx_main_v19 i k)
      = Host.gather gather_S250000_S100000x6x1_S100000x6_n_0_n_n_0_2_1 w (val_main_v7 (F := Ideal) x9)
          (ValueIdx.ix2 (n0 := 100000) (n1 := 6) (i 0) k) := by
    rw [val_main_v17_apply, val_main_v16_apply]
    unfold val_main_v15
    exact congrArg _ (funext fun a => by match a with | ⟨0, _⟩ => rfl | ⟨1, _⟩ => rfl)
  show Host.gather gather_S250000x256_S100000x6x1_S100000x6x256_2_0_n_n_0_2_1256 Wm (val_main_v7 (F := Ideal) x9) (idx_main_v19 i k)
    = Host.gather gather_S250000x256_S100000x6x1_S100000x6x256_2_0_n_n_0_2_1256 M (val_main_v7 (F := Ideal) x9) (idx_main_v19 i k)
      * val_main_v17 (F := Ideal) w x9 (idx_main_v19 i k)
  rw [hb, idx19_eq]
  exact hWm.trans ((hW _ _).trans (congrArg₂ (· * ·) hM.symm hw.symm))

end Cert.Bridge

end
-- ==== Proof.StageBridge.lean ====
/-
  The dense stages of the reference read as the plain index formulas: the input projection, the rectifier, and the
  recurrent update with its message operand abstracted.
-/
import proofs.«167222_j83202106458599_2_alg».proof.Proof.Gen.ReferenceIdeal.Read
import proofs.«167222_j83202106458599_2_alg».proof.Proof.Spec
import proofs.«167222_j83202106458599_2_alg».proof.Proof.LibDotIx2

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo
open Cert.Spec

/-- The input projection: entry `(r, c)` of the reference's first product is row `r` of the bond features against column `c` of the input weights. -/
theorem proj_eq (x1 : (⟨S250000x147, .f32⟩ : BufTy).Contents (Elt Ideal)) (x4 : (⟨S147x256, .f32⟩ : BufTy).Contents (Elt Ideal)) :
    projK x1 x4 = val_main_v0 (F := Ideal) x1 x4 := by
  funext i
  rw [val_main_v0_apply]
  refine Finset.sum_congr rfl fun k _ => ?_
  have el : ValueIdx.ix2 (n0 := 250000) (n1 := 147) (i 0) k = lidx_main_v0 i k :=
    funext fun a => by match a with | ⟨0, _⟩ => rfl | ⟨1, _⟩ => rfl
  have er : ValueIdx.ix2 (n0 := 147) (n1 := 256) k (i 1) = ridx_main_v0 i k :=
    funext fun a => by match a with | ⟨0, _⟩ => rfl | ⟨1, _⟩ => rfl
  exact congrArg₂ (· * ·) (congrArg x1 el) (congrArg x4 er)

/-- The rectifier: the reference's first rectified table is the entrywise maximum of the projection with zero. -/
theorem relu_eq (x1 : (⟨S250000x147, .f32⟩ : BufTy).Contents (Elt Ideal)) (x4 : (⟨S147x256, .f32⟩ : BufTy).Contents (Elt Ideal)) :
    reluK (s := S250000x256) (val_main_v0 (F := Ideal) x1 x4) = val_main_v1 (F := Ideal) x1 x4 := by
  funext i
  rw [val_main_v1_apply, val_main_call0_v0_apply, val_main_call0_cst_apply]
  rfl

/-- The reference's recurrent update with its message operand `X` abstracted: the maximum with zero of `inp` plus `X` against the hidden weights. -/
def updR (X inp : (⟨S250000x256, .f32⟩ : BufTy).Contents (Elt Ideal)) (wh : (⟨S256x256, .f32⟩ : BufTy).Contents (Elt Ideal)) :
    (⟨S250000x256, .f32⟩ : BufTy).Contents (Elt Ideal) :=
  maximumf (F := Ideal) (φ := .f32)
    (addf (F := Ideal) (φ := .f32) inp
      (Host.dotGeneral (F := Ideal) (φ₁ := .f32) (φ₂ := .f32) dot_S250000x256_S256x256_S250000x256_1_0_0_1_n_n none X wh))
    (val_main_call1_v0 (F := Ideal))

/-- The second message table is the recurrent update of the first round's directed messages. -/
theorem v37_eq (x1 : (⟨S250000x147, .f32⟩ : BufTy).Contents (Elt Ideal)) (x3 : (⟨S250000, .f32⟩ : BufTy).Contents (Elt Ideal))
    (x4 : (⟨S147x256, .f32⟩ : BufTy).Contents (Elt Ideal)) (x5 : (⟨S256x256, .f32⟩ : BufTy).Contents (Elt Ideal))
    (x9 : (⟨S100000x6, .i32⟩ : BufTy).Contents (Elt Ideal)) (x10 x11 : (⟨S250000, .i32⟩ : BufTy).Contents (Elt Ideal)) :
    val_main_v37 (F := Ideal) x1 x3 x4 x5 x9 x10 x11
      = updR (val_main_v34 (F := Ideal) x1 x3 x4 x9 x10 x11) (val_main_v0 (F := Ideal) x1 x4) x5 := rfl

/-- The third message table is the recurrent update of the second round's directed messages. -/
theorem v73_eq (x1 : (⟨S250000x147, .f32⟩ : BufTy).Contents (Elt Ideal)) (x3 : (⟨S250000, .f32⟩ : BufTy).Contents (Elt Ideal))
    (x4 : (⟨S147x256, .f32⟩ : BufTy).Contents (Elt Ideal)) (x5 : (⟨S256x256, .f32⟩ : BufTy).Contents (Elt Ideal))
    (x9 : (⟨S100000x6, .i32⟩ : BufTy).Contents (Elt Ideal)) (x10 x11 : (⟨S250000, .i32⟩ : BufTy).Contents (Elt Ideal)) :
    val_main_v73 (F := Ideal) x1 x3 x4 x5 x9 x10 x11
      = updR (val_main_v70 (F := Ideal) x1 x3 x4 x5 x9 x10 x11) (val_main_v0 (F := Ideal) x1 x4) x5 := rfl

/-- The hidden-weight product's dimension numbers are those of a plain 250000 x 256 by 256 x 256 product. -/
theorem plainDot35 : ValueIdx.PlainDot (M := 250000) (K := 256) (N := 256) dot_S250000x256_S256x256_S250000x256_1_0_0_1_n_n where
  rank := rfl
  size := rfl
  l0 := lhs_main_v35_0
  l1 := lhs_main_v35_1
  r0 := rhs_main_v35_0
  r1 := rhs_main_v35_1

/-- The hidden-weight product of any left operand read at `(r, q)`: the sum over `k` of the operand at `(r, k)` times the weights at `(k, q)`. -/
theorem dot35_apply (X : (⟨S250000x256, .f32⟩ : BufTy).Contents (Elt Ideal)) (wh : (⟨S256x256, .f32⟩ : BufTy).Contents (Elt Ideal))
    (i : S250000x256.Idx) :
    Host.dotGeneral (F := Ideal) (φ₁ := .f32) (φ₂ := .f32) dot_S250000x256_S256x256_S250000x256_1_0_0_1_n_n none X wh i
      = ∑ k : Fin 256, X (ValueIdx.ix2 (i 0) k) * wh (ValueIdx.ix2 k (i 1)) :=
  (congrArg (Host.dotGeneral (F := Ideal) (φ₁ := .f32) (φ₂ := .f32) dot_S250000x256_S256x256_S250000x256_1_0_0_1_n_n none X wh)
      (ValueIdx.eq_ix2 i)).trans
    (ValueIdx.dotGeneral_ix2_any (φ₁ := .f32) (φ₂ := .f32) plainDot35 none .single X wh (i 0) (i 1))

/-- The recurrent update in closed form equals the reference's: the product with the hidden weights at `(r, q)` is the sum over the 256 inner positions. -/
theorem upd_eq (X inp : (⟨S250000x256, .f32⟩ : BufTy).Contents (Elt Ideal)) (wh : (⟨S256x256, .f32⟩ : BufTy).Contents (Elt Ideal)) :
    updK X inp wh = updR X inp wh := by
  funext i
  have e0 : val_main_call1_v0 (F := Ideal) i = Ideal.ofBits .f32 0x00000000#32 := by
    rw [val_main_call1_v0_apply, val_main_call1_cst_apply]
    rfl
  have hR : updR X inp wh i
      = max (inp i + Host.dotGeneral (F := Ideal) (φ₁ := .f32) (φ₂ := .f32) dot_S250000x256_S256x256_S250000x256_1_0_0_1_n_n none X wh i)
          (val_main_call1_v0 (F := Ideal) i) := rfl
  rw [hR, dot35_apply, e0]
  rfl

end Cert.Bridge

end
-- ==== Proof.ThreadA.lean ====
/-
  The idealized kernel's buffers, boundary by boundary, are the reference's stages: the first two rounds.

  Each region's output arrays are the closed forms of the block modules at the arrays the region finds; each host stretch
  applies to them the very operations the reference applies to its own stages. Two places differ in spelling only. The
  kernel gathers rows of a message table already multiplied row by row by the bond weights, where the reference gathers
  the messages and the weights separately and multiplies after: the two gathers read the same row. And a matrix-unit
  product into a zero accumulator is the host's contraction.
-/
import proofs.«167222_j83202106458599_2_alg».proof.Proof.Region1
import proofs.«167222_j83202106458599_2_alg».proof.Proof.Region2
import proofs.«167222_j83202106458599_2_alg».proof.Proof.Boundary
import proofs.«167222_j83202106458599_2_alg».proof.Proof.AggBridge
import proofs.«167222_j83202106458599_2_alg».proof.Proof.StageBridge
import Idealize.ShloMosaic.Lib.StableHlo.Run

set_option maxRecDepth 16384

noncomputable section

open scoped BigOperators

namespace Cert.KernelIdeal.Thread

open Cert.KernelIdeal Cert.KernelIdeal.Gen Cert.KernelIdeal.Blocks Cert.KernelIdeal.Boundary Cert.Spec
open Cert.Bridge
open Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The bond-weight column at `(r, 0)` is the bond weight `r`. -/
theorem bondCol_apply (r : Fin 250000) : bondCol m c (ix2 r (0 : Fin 1)) = (m ((c : Thread nD τ).loc main_arg3)) (ix1 r) :=
  shapeCast_a_a1_apply (m ((c : Thread nD τ).loc main_arg3)) shapeCasts_S250000_S250000x1 r 0

/-- A table scaled row by row by the bond-weight column, read at `(r, k)`. -/
theorem scaled_apply (M : S250000x256.Idx → EReal) (r : Fin 250000) (k : Fin 256) :
    scaleRows M (bondCol m c) (ix2 r k) = M (ix2 r k) * (m ((c : Thread nD τ).loc main_arg3)) (ix1 r) :=
  congrArg (M (ix2 r k) * ·) (bondCol_apply m c r)

/-! ## The bond input layer -/

/-- The pre-activation array is the reference's input projection. -/
theorem s0_inp : W2 m ρ c (Proc.devRef .tc main_v2_0) = val_main_v0 (F := Ideal) (m ((c : Thread nD τ).loc main_arg1)) (m ((c : Thread nD τ).loc main_arg4)) :=
  (W2_arr m ρ c 3).trans ((arr0_3 (V1 m ρ) c).trans
    ((congrArg₂ projK (W1_arg1 m ρ c) (W1_arg4 m ρ c)).trans (proj_eq (m ((c : Thread nD τ).loc main_arg1)) (m ((c : Thread nD τ).loc main_arg4)))))

/-- The message array is the reference's rectified projection. -/
theorem s0_msg : W2 m ρ c (Proc.devRef .tc main_v2_1) = val_main_v1 (F := Ideal) (m ((c : Thread nD τ).loc main_arg1)) (m ((c : Thread nD τ).loc main_arg4)) :=
  (W2_arr m ρ c 4).trans ((arr0_4 (V1 m ρ) c).trans
    ((congrArg₂ (fun a b => reluK (projK a b)) (W1_arg1 m ρ c) (W1_arg4 m ρ c)).trans
      ((congrArg (reluK (s := S250000x256)) (proj_eq (m ((c : Thread nD τ).loc main_arg1)) (m ((c : Thread nD τ).loc main_arg4)))).trans (relu_eq (m ((c : Thread nD τ).loc main_arg1)) (m ((c : Thread nD τ).loc main_arg4))))))

/-- The weighted message array is the rectified projection scaled row by row by the bond weights. -/
theorem s0_wmsg : W2 m ρ c (Proc.devRef .tc main_v2_2)
    = scaleRows (val_main_v1 (F := Ideal) (m ((c : Thread nD τ).loc main_arg1)) (m ((c : Thread nD τ).loc main_arg4))) (bondCol m c) := by
  refine (W2_arr m ρ c 5).trans ((arr0_5 (V1 m ρ) c).trans ?_)
  show scaleRows (reluK (projK (W1 m ρ c (Proc.devRef .tc main_arg1)) (W1 m ρ c (Proc.devRef .tc main_arg4))))
    (W1 m ρ c (Proc.devRef .tc main_v0)) = _
  rw [W1_arg1 m ρ c, W1_arg4 m ρ c, W1_v0 m ρ c, proj_eq (m ((c : Thread nD τ).loc main_arg1)) (m ((c : Thread nD τ).loc main_arg4)), relu_eq (m ((c : Thread nD τ).loc main_arg1)) (m ((c : Thread nD τ).loc main_arg4))]

/-! ## The first round: directed messages, then the update -/

/-- The input projection is still there when the first update starts. -/
theorem W3_inp : W3 m ρ c (Proc.devRef .tc main_v2_0) = val_main_v0 (F := Ideal) (m ((c : Thread nD τ).loc main_arg1)) (m ((c : Thread nD τ).loc main_arg4)) := by
  dsimp only [W3, hostOps1]; after_results_simp; exact s0_inp m ρ c

/-- The directed messages of the first round are the reference's. -/
theorem s1_dm : W3 m ρ c (Proc.devRef .tc main_v27) = val_main_v34 (F := Ideal) (m ((c : Thread nD τ).loc main_arg1)) (m ((c : Thread nD τ).loc main_arg3)) (m ((c : Thread nD τ).loc main_arg4)) (m ((c : Thread nD τ).loc main_arg9)) (m ((c : Thread nD τ).loc main_arg10)) (m ((c : Thread nD τ).loc main_arg11)) := by
  dsimp only [W3, hostOps1]
  after_results_simp
  rw [s0_wmsg m ρ c, s0_msg m ρ c, W2_arg9 m ρ c, W2_arg10 m ρ c, W2_arg11 m ρ c]
  have hagg := agg_fused (val_main_v1 (F := Ideal) (m ((c : Thread nD τ).loc main_arg1)) (m ((c : Thread nD τ).loc main_arg4))) (scaleRows (val_main_v1 (F := Ideal) (m ((c : Thread nD τ).loc main_arg1)) (m ((c : Thread nD τ).loc main_arg4))) (bondCol m c)) (m ((c : Thread nD τ).loc main_arg3))
    (scaled_apply m c _) (m ((c : Thread nD τ).loc main_arg9))
  unfold val_main_v34 val_main_v26 val_main_v33
  rw [v19_eq, ← hagg]
  rfl

/-- The bond-weight column is still there when the first update starts. -/
theorem W3_col : W3 m ρ c (Proc.devRef .tc main_v0) = bondCol m c := W3_v0 m ρ c

/-- The first update's messages are the reference's. -/
theorem s1_msg : W4 m ρ c (Proc.devRef .tc main_v28_0) = val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) := by
  refine (W4_arr m ρ c 4).trans ((arr1_4 (V3 m ρ) c).trans ?_)
  show updK (W3 m ρ c (Proc.devRef .tc main_v27)) (W3 m ρ c (Proc.devRef .tc main_v2_0)) (W3 m ρ c (Proc.devRef .tc main_arg5)) = _
  rw [s1_dm m ρ c, W3_inp m ρ c, W3_arg5 m ρ c, upd_eq]
  exact (v37_eq (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))).symm

/-- The first update's weighted messages are its messages scaled row by row by the bond weights. -/
theorem s1_wmsg : W4 m ρ c (Proc.devRef .tc main_v28_1)
    = scaleRows (val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))) (bondCol m c) := by
  refine (W4_arr m ρ c 5).trans ((arr1_5 (V3 m ρ) c).trans ?_)
  show scaleRows (updK (W3 m ρ c (Proc.devRef .tc main_v27)) (W3 m ρ c (Proc.devRef .tc main_v2_0)) (W3 m ρ c (Proc.devRef .tc main_arg5)))
    (W3 m ρ c (Proc.devRef .tc main_v0)) = _
  rw [s1_dm m ρ c, W3_inp m ρ c, W3_arg5 m ρ c, W3_v0 m ρ c, upd_eq]
  exact congrArg (fun M => scaleRows M (bondCol m c)) (v37_eq (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))).symm

/-! ## The second round -/

theorem W4_inp : W4 m ρ c (Proc.devRef .tc main_v2_0) = val_main_v0 (F := Ideal) (m ((c : Thread nD τ).loc main_arg1)) (m ((c : Thread nD τ).loc main_arg4)) :=
  (W4_arr m ρ c 1).trans (((dat1 (V3 m ρ) c).arrAt_in 1 rfl _).trans ((A_eq1 (V3 m ρ) c 1).trans (W3_inp m ρ c)))

theorem W5_inp : W5 m ρ c (Proc.devRef .tc main_v2_0) = val_main_v0 (F := Ideal) (m ((c : Thread nD τ).loc main_arg1)) (m ((c : Thread nD τ).loc main_arg4)) := by
  dsimp only [W5, hostOps2]; after_results_simp; exact W4_inp m ρ c

/-- The directed messages of the second round are the reference's. -/
theorem s2_dm : W5 m ρ c (Proc.devRef .tc main_v51) = val_main_v70 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) := by
  dsimp only [W5, hostOps2]
  after_results_simp
  rw [s1_wmsg m ρ c, s1_msg m ρ c, W4_arg9 m ρ c, W4_arg10 m ρ c, W4_arg11 m ρ c]
  have hagg := agg_fused (val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)))
    (scaleRows (val_main_v37 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))) (bondCol m c)) (m ((c : Thread nD τ).loc main_arg3)) (scaled_apply m c _) (m ((c : Thread nD τ).loc main_arg9))
  unfold val_main_v70 val_main_v62 val_main_v69
  rw [v55_eq, ← hagg]
  rfl

/-- The second update's messages are the reference's. -/
theorem s2_msg : W6 m ρ c (Proc.devRef .tc main_v52_0) = val_main_v73 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) := by
  refine (W6_arr m ρ c 4).trans ((arr2_4 (V5 m ρ) c).trans ?_)
  show updK (W5 m ρ c (Proc.devRef .tc main_v51)) (W5 m ρ c (Proc.devRef .tc main_v2_0)) (W5 m ρ c (Proc.devRef .tc main_arg5)) = _
  rw [s2_dm m ρ c, W5_inp m ρ c, W5_arg5 m ρ c, upd_eq]
  exact (v73_eq (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))).symm

/-- The second update's weighted messages. -/
theorem s2_wmsg : W6 m ρ c (Proc.devRef .tc main_v52_1)
    = scaleRows (val_main_v73 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))) (bondCol m c) := by
  refine (W6_arr m ρ c 5).trans ((arr2_5 (V5 m ρ) c).trans ?_)
  show scaleRows (updK (W5 m ρ c (Proc.devRef .tc main_v51)) (W5 m ρ c (Proc.devRef .tc main_v2_0)) (W5 m ρ c (Proc.devRef .tc main_arg5)))
    (W5 m ρ c (Proc.devRef .tc main_v0)) = _
  rw [s2_dm m ρ c, W5_inp m ρ c, W5_arg5 m ρ c, W5_v0 m ρ c, upd_eq]
  exact congrArg (fun M => scaleRows M (bondCol m c)) (v73_eq (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))).symm

end Cert.KernelIdeal.Thread

end
-- ==== Proof.Region3.lean ====
/-
  The atom readout's output array after its run, as a whole-array function of the arrays the region finds.

  The grid has 50 points; point `t` stages rows `2000 t … 2000 t + 1999` of the atom features, of the aggregated
  messages and of the atom-weight column, the two row ranges of the output weights and the bias row whole, and writes
  back the same rows of the output: features against the first weights plus messages against the second plus the bias,
  rectified, times the atom's weight. The 50 row blocks tile the 100000 rows.
-/
import proofs.«167222_j83202106458599_2_alg».proof.Proof.Region0

set_option maxRecDepth 16384

noncomputable section

open scoped BigOperators

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the row-blocked windows sit at block `(t, 0)`, the others at `(0, 0)`. -/
theorem idx3 : ∀ t : Fin cfg3.N,
    win3_0.index t (0 : Fin 2) = t.val ∧ win3_0.index t (1 : Fin 2) = 0 ∧
    win3_1.index t (0 : Fin 2) = t.val ∧ win3_1.index t (1 : Fin 2) = 0 ∧
    win3_2.index t (0 : Fin 2) = 0 ∧ win3_2.index t (1 : Fin 2) = 0 ∧
    win3_3.index t (0 : Fin 2) = 0 ∧ win3_3.index t (1 : Fin 2) = 0 ∧
    win3_4.index t (0 : Fin 2) = 0 ∧ win3_4.index t (1 : Fin 2) = 0 ∧
    win3_5.index t (0 : Fin 2) = t.val ∧ win3_5.index t (1 : Fin 2) = 0 ∧
    win3_6.index t (0 : Fin 2) = t.val ∧ win3_6.index t (1 : Fin 2) = 0 :=
  (by decide +kernel : ∀ t : Fin grid3.N, _)

/-- Row `p` of point `t`'s block is row `2000 t + p` of the array. -/
def row3 (t : Fin cfg3.N) (p : Fin 2000) : Fin 100000 :=
  ⟨t.val * 2000 + p.val, by have := t.isLt; have := p.isLt; have h : cfg3.N = 50 := N_3; omega⟩

/-- The feature block at `(p, k)` is the feature array at row `2000 t + p`. -/
theorem in3_0 (c : Dev nD) (t : Fin cfg3.N) (p : Fin 2000) (k : Fin 133) :
    iblk3 V c 0 t (ix2 p k) = V c main_arg0 (ix2 (row3 t p) k) := by
  obtain ⟨e0, e1, -⟩ := idx3 t
  show V c main_arg0 (((cfg3.win 0).blk t).view.emb (ix2 p k)) = _
  refine congrArg (V c main_arg0) (funext fun a => Fin.ext ?_)
  match a with
  | ⟨0, _⟩ => show win3_0.index t (0 : Fin 2) * 2000 + 1 * p.val = t.val * 2000 + p.val; omega
  | ⟨1, _⟩ => show win3_0.index t (1 : Fin 2) * 133 + 1 * k.val = k.val; omega

/-- The aggregated-message block at `(p, k)` is the array at row `2000 t + p`. -/
theorem in3_1 (c : Dev nD) (t : Fin cfg3.N) (p : Fin 2000) (k : Fin 256) :
    iblk3 V c 1 t (ix2 p k) = V c main_v60 (ix2 (row3 t p) k) := by
  obtain ⟨-, -, e0, e1, -⟩ := idx3 t
  show V c main_v60 (((cfg3.win 1).blk t).view.emb (ix2 p k)) = _
  refine congrArg (V c main_v60) (funext fun a => Fin.ext ?_)
  match a with
  | ⟨0, _⟩ => show win3_1.index t (0 : Fin 2) * 2000 + 1 * p.val = t.val * 2000 + p.val; omega
  | ⟨1, _⟩ => show win3_1.index t (1 : Fin 2) * 256 + 1 * k.val = k.val; omega

/-- The first weight block is the whole array of the first 133 weight rows. -/
theorem in3_2 (c : Dev nD) (t : Fin cfg3.N) (k : Fin 133) (q : Fin 256) :
    iblk3 V c 2 t (ix2 k q) = V c main_v3 (ix2 k q) := by
  obtain ⟨-, -, -, -, e0, e1, -⟩ := idx3 t
  show V c main_v3 (((cfg3.win 2).blk t).view.emb (ix2 k q)) = _
  refine congrArg (V c main_v3) (funext fun a => Fin.ext ?_)
  match a with
  | ⟨0, _⟩ => show win3_2.index t (0 : Fin 2) * 133 + 1 * k.val = k.val; omega
  | ⟨1, _⟩ => show win3_2.index t (1 : Fin 2) * 256 + 1 * q.val = q.val; omega

/-- The second weight block is the whole array of the last 256 weight rows. -/
theorem in3_3 (c : Dev nD) (t : Fin cfg3.N) (k : Fin 256) (q : Fin 256) :
    iblk3 V c 3 t (ix2 k q) = V c main_v4 (ix2 k q) := by
  obtain ⟨-, -, -, -, -, -, e0, e1, -⟩ := idx3 t
  show V c main_v4 (((cfg3.win 3).blk t).view.emb (ix2 k q)) = _
  refine congrArg (V c main_v4) (funext fun a => Fin.ext ?_)
  match a with
  | ⟨0, _⟩ => show win3_3.index t (0 : Fin 2) * 256 + 1 * k.val = k.val; omega
  | ⟨1, _⟩ => show win3_3.index t (1 : Fin 2) * 256 + 1 * q.val = q.val; omega

/-- The bias block is the whole bias row. -/
theorem in3_4 (c : Dev nD) (t : Fin cfg3.N) (q : Fin 256) :
    iblk3 V c 4 t (ix2 (0 : Fin 1) q) = V c main_v61 (ix2 (0 : Fin 1) q) := by
  obtain ⟨-, -, -, -, -, -, -, -, e0, e1, -⟩ := idx3 t
  show V c main_v61 (((cfg3.win 4).blk t).view.emb (ix2 (0 : Fin 1) q)) = _
  refine congrArg (V c main_v61) (funext fun a => Fin.ext ?_)
  match a with
  | ⟨0, _⟩ => show win3_4.index t (0 : Fin 2) * 1 + 1 * 0 = 0; omega
  | ⟨1, _⟩ => show win3_4.index t (1 : Fin 2) * 256 + 1 * q.val = q.val; omega

/-- The atom-weight block at `(p, 0)` is the weight column at row `2000 t + p`. -/
theorem in3_5 (c : Dev nD) (t : Fin cfg3.N) (p : Fin 2000) :
    iblk3 V c 5 t (ix2 p (0 : Fin 1)) = V c main_v1 (ix2 (row3 t p) (0 : Fin 1)) := by
  obtain ⟨-, -, -, -, -, -, -, -, -, -, e0, e1, -⟩ := idx3 t
  show V c main_v1 (((cfg3.win 5).blk t).view.emb (ix2 p (0 : Fin 1))) = _
  refine congrArg (V c main_v1) (funext fun a => Fin.ext ?_)
  match a with
  | ⟨0, _⟩ => show win3_5.index t (0 : Fin 2) * 2000 + 1 * p.val = t.val * 2000 + p.val; omega
  | ⟨1, _⟩ => show win3_5.index t (1 : Fin 2) * 1 + 1 * 0 = 0; omega

/-- A readout entry from its ingredients, each read where the block holds it. -/
theorem val3 (fa : (⟨2, ![100000, 133]⟩ : Shape).Idx → EReal) (am : (⟨2, ![100000, 256]⟩ : Shape).Idx → EReal)
    (w3 : (⟨2, ![133, 256]⟩ : Shape).Idx → EReal) (w4 : (⟨2, ![256, 256]⟩ : Shape).Idx → EReal)
    (b2 : (⟨2, ![1, 256]⟩ : Shape).Idx → EReal) (wa1 : (⟨2, ![100000, 1]⟩ : Shape).Idx → EReal)
    (r : Fin 100000) (p : Fin 2000) (q : Fin 256)
    (x0 : Vec Ideal S2000x133 .f32) (x2 : Vec Ideal S2000x256 .f32) (x5 : Vec Ideal S133x256 .f32)
    (x8 : Vec Ideal S256x256 .f32) (x14 : Vec Ideal S1x256 .f32) (x20 : Vec Ideal S2000x1 .f32)
    (h0 : ∀ k : Fin 133, x0 (ix2 p k) = fa (ix2 r k))
    (h2 : ∀ k : Fin 256, x2 (ix2 p k) = am (ix2 r k))
    (h5 : ∀ k : Fin 133, x5 (ix2 k q) = w3 (ix2 k q))
    (h8 : ∀ k : Fin 256, x8 (ix2 k q) = w4 (ix2 k q))
    (h14 : x14 (ix2 (0 : Fin 1) q) = b2 (ix2 (0 : Fin 1) q))
    (h20 : x20 (ix2 p (0 : Fin 1)) = wa1 (ix2 r (0 : Fin 1))) :
    max ((∑ k : Fin 133, x0 (ix2 p k) * x5 (ix2 k q)) + (∑ k : Fin 256, x2 (ix2 p k) * x8 (ix2 k q))
        + x14 (ix2 (0 : Fin 1) q)) (Ideal.ofBits .f32 0x00000000#32) * x20 (ix2 p (0 : Fin 1))
      = readoutK fa am w3 w4 b2 wa1 (ix2 r q) := by
  unfold readoutK
  rw [h14, h20]
  have s1 : (∑ k : Fin 133, x0 (ix2 p k) * x5 (ix2 k q)) = ∑ k : Fin 133, fa (ix2 r k) * w3 (ix2 k q) :=
    Finset.sum_congr rfl fun k _ => by rw [h0 k, h5 k]
  have s2 : (∑ k : Fin 256, x2 (ix2 p k) * x8 (ix2 k q)) = ∑ k : Fin 256, am (ix2 r k) * w4 (ix2 k q) :=
    Finset.sum_congr rfl fun k _ => by rw [h2 k, h8 k]
  rw [s1, s2]

/-- Position `(p, q)` of the output window's block at point `t` is `(2000 t + p, q)` of its array. -/
theorem emb3_6 (t : Fin cfg3.N) (p : Fin 2000) (q : Fin 256) :
    ((cfg3.win 6).blk t).view.emb (ix2 p q) = ix2 (row3 t p) q := by
  obtain ⟨-, -, -, -, -, -, -, -, -, -, -, -, e0, e1⟩ := idx3 t
  refine funext fun a => Fin.ext ?_
  match a with
  | ⟨0, _⟩ => show win3_6.index t (0 : Fin 2) * 2000 + 1 * p.val = t.val * 2000 + p.val; omega
  | ⟨1, _⟩ => show win3_6.index t (1 : Fin 2) * 256 + 1 * q.val = q.val; omega

/-- What point `t` writes back is its block of the readout. -/
theorem flushed3_6 (c : Dev nD) (t : Fin cfg3.N) :
    (dat3 V c).flushed 6 t
      = ((cfg3.win 6).blk t).view.read (Elt Ideal)
          (readoutK (V c main_arg0) (V c main_v60) (V c main_v3) (V c main_v4) (V c main_v61) (V c main_v1)) := by
  show (cfg3.win 6).cut (grid3.coords t) ((dat3 V c).after 6 t) = _
  rw [after3_6]
  unfold out3_6
  rw [View.canon_unit_zero hz]
  simp only [View.ld_unit_zero (S := S2000x133) hz, View.ld_unit_zero (S := S2000x256) hz, View.ld_unit_zero (S := S133x256) hz,
    View.ld_unit_zero (S := S256x256) hz, View.ld_unit_zero (S := S1x256) hz, View.ld_unit_zero (S := S2000x1) hz]
  funext j
  obtain ⟨p, q, rfl⟩ : ∃ (p : Fin 2000) (q : Fin 256), j = ix2 p q := ⟨j 0, j 1, eq_ix2 j⟩
  show k3_pay1 (iblk3 V c 0 t) (iblk3 V c 1 t) (iblk3 V c 2 t) (iblk3 V c 3 t) (iblk3 V c 4 t) (iblk3 V c 5 t) (ix2 p q)
    = readoutK (V c main_arg0) (V c main_v60) (V c main_v3) (V c main_v4) (V c main_v61) (V c main_v1)
        (((cfg3.win 6).blk t).view.emb (ix2 p q))
  rw [emb3_6 t p q]
  exact (pay_readout (iblk3 V c 0 t) (iblk3 V c 1 t) (iblk3 V c 2 t) (iblk3 V c 3 t) (iblk3 V c 4 t) (iblk3 V c 5 t) p q).trans
    (val3 (V c main_arg0) (V c main_v60) (V c main_v3) (V c main_v4) (V c main_v61) (V c main_v1) (row3 t p) p q _ _ _ _ _ _ (in3_0 V c t p) (in3_1 V c t p) (fun k => in3_2 V c t k q) (fun k => in3_3 V c t k q)
      (in3_4 V c t q) (in3_5 V c t p))

/-- An index of a 100000×256 array lies in the block that holds its row. -/
theorem blockOf3 (i : S100000x256.Idx) : (i 0).val / 2000 < cfg3.N := by
  have hi : (i 0).val < 100000 := (i 0).isLt; have h : cfg3.N = 50 := N_3; rw [h]; omega

theorem cover3_6' (i : S100000x256.Idx) :
    ∃ t : Fin cfg3.N, (cfg3.win 6).flush t = true ∧ i ∈ ((cfg3.win 6).blk t).view.set := by
  have hi0 : (i 0).val < 100000 := (i 0).isLt
  have hi1 : (i 1).val < 256 := (i 1).isLt
  refine ⟨⟨(i 0).val / 2000, blockOf3 i⟩, flush3_6 _, ?_⟩
  obtain ⟨-, -, -, -, -, -, -, -, -, -, -, -, e0, e1⟩ := idx3 ⟨(i 0).val / 2000, blockOf3 i⟩
  show i ∈ ((View.whole main_v62).slice (win3_6.rect ⟨(i 0).val / 2000, blockOf3 i⟩)).set
  rw [View.set_slice_whole, Rect.mem_set_unit]
  intro a
  match a with
  | ⟨0, _⟩ =>
    show win3_6.index ⟨(i 0).val / 2000, blockOf3 i⟩ (0 : Fin 2) * 2000 ≤ (i 0).val
      ∧ (i 0).val < win3_6.index ⟨(i 0).val / 2000, blockOf3 i⟩ (0 : Fin 2) * 2000 + 2000
    rw [e0]; show (i 0).val / 2000 * 2000 ≤ (i 0).val ∧ (i 0).val < (i 0).val / 2000 * 2000 + 2000; omega
  | ⟨1, _⟩ =>
    show win3_6.index ⟨(i 0).val / 2000, blockOf3 i⟩ (1 : Fin 2) * 256 ≤ (i 1).val
      ∧ (i 1).val < win3_6.index ⟨(i 0).val / 2000, blockOf3 i⟩ (1 : Fin 2) * 256 + 256
    rw [e1]; omega

/-- THE WEIGHTED ATOM HIDDENS after the region: the readout of the arrays the region finds. -/
theorem arr3_6 (c : Dev nD) :
    (dat3 V c).arrAt 6 cfg3.N
      = readoutK (V c main_arg0) (V c main_v60) (V c main_v3) (V c main_v4) (V c main_v61) (V c main_v1) :=
  (dat3 V c).arrAt_eq_of_cover 6 _ (fun t _ => flushed3_6 V c t) cover3_6'

end Cert.KernelIdeal.Blocks

end
-- ==== Proof.ReadoutBridge.lean ====
/-
  The reference's readout with the aggregated messages abstracted, and the lemma that the contraction over the 389 joined
  columns is the contraction over the first 133 plus the contraction over the last 256.
-/
import proofs.«167222_j83202106458599_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Bridge

open Cert.ReferenceIdeal Cert.ReferenceIdeal.Gen Cert.ReferenceIdeal.Read Idealize.ShloMosaic Idealize.ShloMosaic.TcCoe Idealize.SL.Sem Idealize.ShloMosaic.StableHlo

/-- The readout in closed form: entry `(a, q)` is `max (fa[a, ·] · w3[·, q] + am[a, ·] · w4[·, q] + b2[0, q]) 0 * wa1[a, 0]`. -/
def readoutK (fa : (⟨2, ![100000, 133]⟩ : Shape).Idx → EReal) (am : (⟨2, ![100000, 256]⟩ : Shape).Idx → EReal)
    (w3 : (⟨2, ![133, 256]⟩ : Shape).Idx → EReal) (w4 : (⟨2, ![256, 256]⟩ : Shape).Idx → EReal)
    (b2 : (⟨2, ![1, 256]⟩ : Shape).Idx → EReal) (wa1 : (⟨2, ![100000, 1]⟩ : Shape).Idx → EReal) :
    (⟨2, ![100000, 256]⟩ : Shape).Idx → EReal :=
  fun i => max ((∑ k : Fin 133, fa (ValueIdx.ix2 (i 0) k) * w3 (ValueIdx.ix2 k (i 1)))
      + (∑ k : Fin 256, am (ValueIdx.ix2 (i 0) k) * w4 (ValueIdx.ix2 k (i 1)))
      + b2 (ValueIdx.ix2 (0 : Fin 1) (i 1))) (Ideal.ofBits .f32 0x00000000#32) * wa1 (ValueIdx.ix2 (i 0) (0 : Fin 1))

/-- The node features and the aggregated messages joined along the columns: 133 columns, then 256. -/
abbrev joinCols (fa : (⟨S100000x133, .f32⟩ : BufTy).Contents (Elt Ideal)) (am : (⟨S100000x256, .f32⟩ : BufTy).Contents (Elt Ideal)) :
    (⟨S100000x389, .f32⟩ : BufTy).Contents (Elt Ideal) :=
  concatenate S100000x389 1 [⟨S100000x133, fa⟩, ⟨S100000x256, am⟩] concatenates_S100000x133_S100000x256_S100000x389_d1

/-- The reference's readout with the aggregated messages `am` abstracted: joined columns against `W`, plus the bias row, maximum with zero, times the node weights. -/
def refReadout (fa : (⟨S100000x133, .f32⟩ : BufTy).Contents (Elt Ideal)) (am : (⟨S100000x256, .f32⟩ : BufTy).Contents (Elt Ideal))
    (W : (⟨S389x256, .f32⟩ : BufTy).Contents (Elt Ideal)) (b : (⟨S256, .f32⟩ : BufTy).Contents (Elt Ideal))
    (wa : (⟨S100000, .f32⟩ : BufTy).Contents (Elt Ideal)) : (⟨S100000x256, .f32⟩ : BufTy).Contents (Elt Ideal) :=
  mulf (F := Ideal) (φ := .f32)
    (maximumf (F := Ideal) (φ := .f32)
      (addf (F := Ideal) (φ := .f32)
        (Host.dotGeneral (F := Ideal) (φ₁ := .f32) (φ₂ := .f32) dot_S100000x389_S389x256_S100000x256_1_0_0_1_n_n none (joinCols fa am) W)
        (val_main_v95 (F := Ideal) b))
      (val_main_call3_v0 (F := Ideal)))
    (val_main_v99 (F := Ideal) wa)

/-- The reference's readout stage is `refReadout` of the third round's aggregate. -/
theorem v100_eq (x0 : (⟨S100000x133, .f32⟩ : BufTy).Contents (Elt Ideal)) (x1 : (⟨S250000x147, .f32⟩ : BufTy).Contents (Elt Ideal))
    (x2 : (⟨S100000, .f32⟩ : BufTy).Contents (Elt Ideal)) (x3 : (⟨S250000, .f32⟩ : BufTy).Contents (Elt Ideal))
    (x4 : (⟨S147x256, .f32⟩ : BufTy).Contents (Elt Ideal)) (x5 : (⟨S256x256, .f32⟩ : BufTy).Contents (Elt Ideal))
    (x6 : (⟨S389x256, .f32⟩ : BufTy).Contents (Elt Ideal)) (x7 : (⟨S256, .f32⟩ : BufTy).Contents (Elt Ideal))
    (x9 : (⟨S100000x6, .i32⟩ : BufTy).Contents (Elt Ideal)) (x10 x11 : (⟨S250000, .i32⟩ : BufTy).Contents (Elt Ideal)) :
    val_main_v100 (F := Ideal) x0 x1 x2 x3 x4 x5 x6 x7 x9 x10 x11
      = refReadout x0 (val_main_v91 (F := Ideal) x1 x3 x4 x5 x9 x10 x11) x6 x7 x2 := rfl

/-- The contraction over 389 columns of any left operand read at `(a, q)`: the sum over `k` of the operand at `(a, k)` times `W` at `(k, q)`. -/
theorem dot389_apply (y : (⟨S100000x389, .f32⟩ : BufTy).Contents (Elt Ideal)) (W : (⟨S389x256, .f32⟩ : BufTy).Contents (Elt Ideal))
    (i : S100000x256.Idx) :
    Host.dotGeneral (F := Ideal) (φ₁ := .f32) (φ₂ := .f32) dot_S100000x389_S389x256_S100000x256_1_0_0_1_n_n none y W i
      = ∑ k : Fin 389, y (lidx_main_v93 i k) * W (ridx_main_v93 i k) := by
  simp only [Host.dotGeneral]
  rw [Ideal.dotGeneral_apply, ← Equiv.sum_comp (ValueIdx.contrEquiv1 dot_S100000x389_S389x256_S100000x256_1_0_0_1_n_n 389 rfl rfl).symm]
  refine Finset.sum_congr rfl fun k _ => ?_
  have hk := ValueIdx.contrEquiv1_symm_val dot_S100000x389_S389x256_S100000x256_1_0_0_1_n_n 389 rfl rfl k
  have el : dot_S100000x389_S389x256_S100000x256_1_0_0_1_n_n.lhsIdx i ((ValueIdx.contrEquiv1 dot_S100000x389_S389x256_S100000x256_1_0_0_1_n_n 389 rfl rfl).symm k) = lidx_main_v93 i k := funext fun a => Fin.ext (by
    match a with
    | ⟨0, _⟩ => exact lhs_main_v93_0 _ _
    | ⟨1, _⟩ => exact (lhs_main_v93_1 _ _).trans hk)
  have er : dot_S100000x389_S389x256_S100000x256_1_0_0_1_n_n.rhsIdx i ((ValueIdx.contrEquiv1 dot_S100000x389_S389x256_S100000x256_1_0_0_1_n_n 389 rfl rfl).symm k) = ridx_main_v93 i k := funext fun a => Fin.ext (by
    match a with
    | ⟨0, _⟩ => exact (rhs_main_v93_0 _ _).trans hk
    | ⟨1, _⟩ => exact rhs_main_v93_1 _ _)
  rw [el, er]

/-- A sum over 389 terms is the sum of the first 133 plus the sum of the last 256. -/
theorem sum389_split (g : Fin 389 → EReal) :
    ∑ k : Fin 389, g k = (∑ k : Fin 133, g ⟨k.val, by omega⟩) + ∑ k : Fin 256, g ⟨133 + k.val, by omega⟩ :=
  Fin.sum_univ_add (a := 133) (b := 256) g

/-- The closed-form readout equals the reference's: the contraction over the 389 joined columns is the sum over the first 133 (node features) plus the sum over the last 256 (aggregated messages). -/
theorem readout_eq (fa : (⟨S100000x133, .f32⟩ : BufTy).Contents (Elt Ideal)) (am : (⟨S100000x256, .f32⟩ : BufTy).Contents (Elt Ideal))
    (W : (⟨S389x256, .f32⟩ : BufTy).Contents (Elt Ideal)) (b : (⟨S256, .f32⟩ : BufTy).Contents (Elt Ideal))
    (wa : (⟨S100000, .f32⟩ : BufTy).Contents (Elt Ideal))
    (w3 : (⟨2, ![133, 256]⟩ : Shape).Idx → EReal) (w4 : (⟨2, ![256, 256]⟩ : Shape).Idx → EReal)
    (b2 : (⟨2, ![1, 256]⟩ : Shape).Idx → EReal) (wa1 : (⟨2, ![100000, 1]⟩ : Shape).Idx → EReal)
    (h3 : ∀ (k : Fin 133) (q : Fin 256), w3 (ValueIdx.ix2 k q) = W (ValueIdx.ix2 (⟨k.val, by omega⟩ : Fin 389) q))
    (h4 : ∀ (k : Fin 256) (q : Fin 256), w4 (ValueIdx.ix2 k q) = W (ValueIdx.ix2 (⟨133 + k.val, by omega⟩ : Fin 389) q))
    (hb : ∀ q : Fin 256, b2 (ValueIdx.ix2 (0 : Fin 1) q) = b (ValueIdx.ix1 q))
    (hwa : ∀ a : Fin 100000, wa1 (ValueIdx.ix2 a (0 : Fin 1)) = wa (ValueIdx.ix1 a)) :
    readoutK fa am w3 w4 b2 wa1 = refReadout fa am W b wa := by
  funext i
  -- the bias row, the zero and the node-weight column, read at (a, q)
  have e2 : val_main_v95 (F := Ideal) b i = b2 (ValueIdx.ix2 (0 : Fin 1) (i 1)) := by
    rw [val_main_v95_apply, val_main_v94_apply]
    exact (congrArg b (funext fun a => by match a with | ⟨0, _⟩ => rfl)).trans (hb (i 1)).symm
  have e3 : val_main_call3_v0 (F := Ideal) i = Ideal.ofBits .f32 0x00000000#32 := by
    rw [val_main_call3_v0_apply, val_main_call3_cst_apply]
    rfl
  have e4 : val_main_v99 (F := Ideal) wa i = wa1 (ValueIdx.ix2 (i 0) (0 : Fin 1)) := by
    rw [val_main_v99_apply, val_main_v98_apply]
    exact (congrArg wa (funext fun a => by match a with | ⟨0, _⟩ => rfl)).trans (hwa (i 0)).symm
  -- the joined array on its first 133 columns and on its last 256
  have cL : ∀ k : Fin 133, joinCols fa am (lidx_main_v93 i ⟨k.val, by omega⟩) = fa (ValueIdx.ix2 (i 0) k) := fun k =>
    concatenate_pair_apply_left (t := S100000x389) (s₁ := S100000x133) (s₂ := S100000x256) (1 : Fin S100000x389.rank) fa am
      concatenates_S100000x133_S100000x256_S100000x389_d1 _ rfl (ValueIdx.ix2 (i 0) k)
      (fun c => by match c with | ⟨0, _⟩ => rfl | ⟨1, _⟩ => rfl)
  have cR : ∀ k : Fin 256, joinCols fa am (lidx_main_v93 i ⟨133 + k.val, by omega⟩) = am (ValueIdx.ix2 (i 0) k) := fun k =>
    concatenate_pair_apply_right (t := S100000x389) (s₁ := S100000x133) (s₂ := S100000x256) (1 : Fin S100000x389.rank) fa am
      concatenates_S100000x133_S100000x256_S100000x389_d1 _ rfl rfl (ValueIdx.ix2 (i 0) k)
      (fun c hc => by
        match c, hc with
        | ⟨0, _⟩, _ => rfl
        | ⟨1, _⟩, hc => exact absurd rfl hc)
      (by show k.val + 133 = 133 + k.val; exact Nat.add_comm _ _)
  -- the contraction splits at column 133
  have e1 : Host.dotGeneral (F := Ideal) (φ₁ := .f32) (φ₂ := .f32) dot_S100000x389_S389x256_S100000x256_1_0_0_1_n_n none (joinCols fa am) W i
      = (∑ k : Fin 133, fa (ValueIdx.ix2 (i 0) k) * w3 (ValueIdx.ix2 k (i 1)))
        + (∑ k : Fin 256, am (ValueIdx.ix2 (i 0) k) * w4 (ValueIdx.ix2 k (i 1))) := by
    rw [dot389_apply, sum389_split]
    refine congrArg₂ (· + ·) (Finset.sum_congr rfl fun k _ => ?_) (Finset.sum_congr rfl fun k _ => ?_)
    · exact congrArg₂ (· * ·) (cL k)
        ((congrArg W (funext fun a => by match a with | ⟨0, _⟩ => rfl | ⟨1, _⟩ => rfl)).trans (h3 k (i 1)).symm)
    · exact congrArg₂ (· * ·) (cR k)
        ((congrArg W (funext fun a => by match a with | ⟨0, _⟩ => rfl | ⟨1, _⟩ => rfl)).trans (h4 k (i 1)).symm)
  have hR : refReadout fa am W b wa i
      = max (Host.dotGeneral (F := Ideal) (φ₁ := .f32) (φ₂ := .f32) dot_S100000x389_S389x256_S100000x256_1_0_0_1_n_n none (joinCols fa am) W i
          + val_main_v95 (F := Ideal) b i) (val_main_call3_v0 (F := Ideal) i) * val_main_v99 (F := Ideal) wa i := rfl
  rw [hR, e1, e2, e3, e4]
  rfl

end Cert.Bridge

end
-- ==== Proof.ThreadB.lean ====
/-
  The idealized kernel's buffers are the reference's stages: the readout and the per-molecule mean.

  The aggregated messages entering the readout are the reference's weighted neighbour sum of the last messages. The
  readout multiplies the atom features by the first 133 rows of the output weights and the aggregated messages by the
  last 256 rows, where the reference multiplies the joined 389 columns by the whole weight matrix: a sum over 389
  positions split at 133. The rest of the program — the two segment sums, the guarded division and the scaling by the
  degree of polymerisation — is the same operations on both sides.
-/
import proofs.«167222_j83202106458599_2_alg».proof.Proof.ThreadA
import proofs.«167222_j83202106458599_2_alg».proof.Proof.Region3
import proofs.«167222_j83202106458599_2_alg».proof.Proof.ReadoutBridge

set_option maxRecDepth 16384

noncomputable section

open scoped BigOperators

namespace Cert.KernelIdeal.Thread

open Cert.KernelIdeal Cert.KernelIdeal.Gen Cert.KernelIdeal.Blocks Cert.KernelIdeal.Boundary Cert.Spec
open Cert.Bridge hiding readoutK
open Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The atom-weight column at `(a, 0)` is the atom weight `a`. -/
theorem atomCol_apply (a : Fin 100000) : atomCol m c (ix2 a (0 : Fin 1)) = (m ((c : Thread nD τ).loc main_arg2)) (ix1 a) :=
  shapeCast_a_a1_apply (m ((c : Thread nD τ).loc main_arg2)) shapeCasts_S100000_S100000x1 a 0

/-- A length-`b` vector kept as a one-row array reads, at `(u, q)`, the vector at `q`. -/
theorem shapeCast_b_1b_apply {b : ℕ} {α : Type} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- The bias row at `(0, q)` is the bias `q`. -/
theorem biasRow_apply (q : Fin 256) : biasRow m c (ix2 (0 : Fin 1) q) = (m ((c : Thread nD τ).loc main_arg7)) (ix1 q) :=
  shapeCast_b_1b_apply (m ((c : Thread nD τ).loc main_arg7)) shapeCasts_S256_S1x256 0 q

/-- The first weight block at `(k, q)` is the output weights at row `k`. -/
theorem outW1_apply (k : Fin 133) (q : Fin 256) : outW1 m c (ix2 k q) = (m ((c : Thread nD τ).loc main_arg6)) (ix2 (⟨k.val, by omega⟩ : Fin 389) q) := by
  unfold outW1
  exact extractStridedSlice_apply ![0, 0] (m ((c : Thread nD τ).loc main_arg6)) slices_S389x256_S133x256_0_0 (ix2 k q) (ix2 (⟨k.val, by omega⟩ : Fin 389) q) (fun a => by
    match a with
    | ⟨0, _⟩ => show k.val = 0 + k.val; omega
    | ⟨1, _⟩ => show q.val = 0 + q.val; omega)

/-- The second weight block at `(k, q)` is the output weights at row `133 + k`. -/
theorem outW2_apply (k : Fin 256) (q : Fin 256) : outW2 m c (ix2 k q) = (m ((c : Thread nD τ).loc main_arg6)) (ix2 (⟨133 + k.val, by omega⟩ : Fin 389) q) := by
  unfold outW2
  exact extractStridedSlice_apply ![133, 0] (m ((c : Thread nD τ).loc main_arg6)) slices_S389x256_S256x256_133_0 (ix2 k q) (ix2 (⟨133 + k.val, by omega⟩ : Fin 389) q) (fun a => by
    match a with
    | ⟨0, _⟩ => show 133 + k.val = 133 + k.val; rfl
    | ⟨1, _⟩ => show q.val = 0 + q.val; omega)

/-- The aggregated messages entering the readout are the reference's. -/
theorem s3_agg : W7 m ρ c (Proc.devRef .tc main_v60) = val_main_v91 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) := by
  dsimp only [W7, hostOps3]
  after_results_simp
  rw [s2_wmsg m ρ c, W6_arg9 m ρ c]
  have hagg := agg_fused (val_main_v73 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)))
    (scaleRows (val_main_v73 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))) (bondCol m c)) (m ((c : Thread nD τ).loc main_arg3)) (scaled_apply m c _) (m ((c : Thread nD τ).loc main_arg9))
  rw [v91_eq, ← hagg]
  rfl

/-- The weighted atom hiddens are the reference's. -/
theorem s3_out : W8 m ρ c (Proc.devRef .tc main_v62)
    = val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) := by
  refine (W8_arr m ρ c 6).trans ((arr3_6 (V7 m ρ) c).trans ?_)
  show Cert.Spec.readoutK (W7 m ρ c (Proc.devRef .tc main_arg0)) (W7 m ρ c (Proc.devRef .tc main_v60))
    (W7 m ρ c (Proc.devRef .tc main_v3)) (W7 m ρ c (Proc.devRef .tc main_v4)) (W7 m ρ c (Proc.devRef .tc main_v61))
    (W7 m ρ c (Proc.devRef .tc main_v1)) = _
  rw [W7_arg0 m ρ c, s3_agg m ρ c, W7_v3 m ρ c, W7_v4 m ρ c, W7_v61 m ρ c, W7_v1 m ρ c]
  exact (readout_eq (m ((c : Thread nD τ).loc main_arg0)) (val_main_v91 (F := Ideal) (m ((c : Thread nD τ).loc main_arg1)) (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11))) (m ((c : Thread nD τ).loc main_arg6)) (m ((c : Thread nD τ).loc main_arg7)) (m ((c : Thread nD τ).loc main_arg2)) (outW1 m c) (outW2 m c) (biasRow m c)
    (atomCol m c) (outW1_apply m c) (outW2_apply m c) (biasRow_apply m c) (atomCol_apply m c)).trans
    (v100_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))).symm

set_option maxRecDepth 65536 in
/-- THE RESULT: the last boundary's contents at the result buffer are the reference's last stage. -/
theorem result_eq : W13 m ρ c (Proc.devRef .tc main_v81)
    = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  dsimp only [W13, W12, W11, W10, W9, hostOps4, hostOps4_1, hostOps4_2, hostOps4_3, hostOps4_4]
  after_results_simp
  rw [s3_out m ρ c, W8_arg2 m ρ c, W8_arg8 m ρ c, W8_arg12 m ρ c]
  simp only [TRef.toBuf, TRef.ofBuf, cast_eq, id_eq]
  rfl

end Cert.KernelIdeal.Thread

end
-- ==== Proof.lean ====
/-
  The certificate of a message-passing encoder: three dense stages on the matrix unit — the bond input projection, the
  recurrent message update (run twice) and the atom readout — among host gathers, neighbour sums, segment sums and a
  guarded division, against the plain array program.

  At the extended reals the two programs compute the same array. Every region's output arrays are closed forms of the
  arrays the region finds (the block modules); threaded through the host stretches they are, stage by stage, the
  reference's own stages (the thread modules): the kernel's pre-weighted gather reads the rows the reference's two
  gathers read, a matrix-unit product into zeros is the host's contraction, and the readout's two products are the
  reference's one product over the joined columns, split at column 133. No step needs the inputs to be finite. The
  three frames are the generated ones (the reference's is its generated run with the result dropped); the idealization
  rewrote nothing, so `preserves` is trivial.
-/
import proofs.«167222_j83202106458599_2_alg».proof.Defs
import proofs.«167222_j83202106458599_2_alg».proof.Proof.Gen.Kernel
import proofs.«167222_j83202106458599_2_alg».proof.Proof.Gen.Kernel.Skeleton
import proofs.«167222_j83202106458599_2_alg».proof.Proof.Gen.Kernel.Launch
import proofs.«167222_j83202106458599_2_alg».proof.Proof.Gen.Kernel.Points
import proofs.«167222_j83202106458599_2_alg».proof.Proof.Gen.Kernel.Frame
import proofs.«167222_j83202106458599_2_alg».proof.Proof.Gen.KernelIdeal
import proofs.«167222_j83202106458599_2_alg».proof.Proof.Gen.KernelIdeal.Skeleton
import proofs.«167222_j83202106458599_2_alg».proof.Proof.Gen.KernelIdeal.Launch
import proofs.«167222_j83202106458599_2_alg».proof.Proof.Gen.KernelIdeal.Points
import proofs.«167222_j83202106458599_2_alg».proof.Proof.Gen.KernelIdeal.Frame
import proofs.«167222_j83202106458599_2_alg».proof.Proof.Gen.ReferenceIdeal
import proofs.«167222_j83202106458599_2_alg».proof.Proof.Gen.ReferenceIdeal.Run
import proofs.«167222_j83202106458599_2_alg».proof.Proof.Gen.ReferenceIdeal.Read
import proofs.«167222_j83202106458599_2_alg».proof.Proof.Gen.Pre_finite_inputs
import proofs.«167222_j83202106458599_2_alg».proof.Proof.KernelRun
import proofs.«167222_j83202106458599_2_alg».proof.Proof.ThreadB
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's last stage of the (agreeing) argument arrays. -/
theorem algebraic : Cert.algebraic_KernelIdeal_ReferenceIdeal := by
  intro m ρ m' ρ' _ hagree
  refine ⟨fun c => Cert.ReferenceIdeal.Read.val_main_v119 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Thread.result_eq m ρ c), (h c).2⟩)
      (Cert.KernelIdeal.Result.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v119_eq]
    obtain ⟨h0, h1, h2, h3, h4, h5, h6, h7, h8, h9, h10, h11, h12⟩ := hagree c
    rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
